-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S10000x10000 : Shape := ⟨2, ![10000, 10000]⟩
abbrev S512x256 : Shape := ⟨2, ![512, 256]⟩
abbrev S256 : Shape := ⟨1, ![256]⟩
abbrev S256x16 : Shape := ⟨2, ![256, 16]⟩
abbrev S16 : Shape := ⟨1, ![16]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S256x16 .f32) (main_arg5 : FVec F S16 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x16 .f32 := Host.absf main_arg4
  let main_cst_6 : FVec F S_ .f32 := constant S_ .f32 0x7F800000#32
  let main_v20 : FVec F S256x16 .f32 := broadcastInDim S256x16 ![] bcast_S_S256x16 main_cst_6
  let main_v21 : IVec S256x16 1 := cmpf .olt main_v19 main_v20
  let main_c_7 : IVec S_ 1 := constantI S_ 1 1#1
  let main_v22 : IVec S_ 1 := (fun x v => Host.reduce IntOp.andi x v reducesTo_S256x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S10000x512 .f32) (main_arg1 : FVec F S10000x10000 .f32) (main_arg2 : FVec F S512x256 .f32) (main_arg3 : FVec F S256 .f32) (main_arg4 : FVec F S256x16 .f32) (main_arg5 : FVec F S16 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S10000x512 : Shape := ⟨2, ![10000, 512]⟩
abbrev S10000x10000 : Shape := ⟨2, ![10000, 10000]⟩
abbrev S512x256 : Shape := ⟨2, ![512, 256]⟩
abbrev S256 : Shape := ⟨1, ![256]⟩
abbrev S256x16 : Shape := ⟨2, ![256, 16]⟩
abbrev S16 : Shape := ⟨1, ![16]⟩
abbrev S1x256 : Shape := ⟨2, ![1, 256]⟩
abbrev S1x16 : Shape := ⟨2, ![1, 16]⟩
abbrev S10000x16 : Shape := ⟨2, ![10000, 16]⟩
abbrev S1000x512 : Shape := ⟨2, ![1000, 512]⟩
abbrev S1000x16 : Shape := ⟨2, ![1000, 16]⟩
abbrev S1000x256 : Shape := ⟨2, ![1000, 256]⟩
abbrev S400x10000 : Shape := ⟨2, ![400, 10000]⟩
abbrev S400x16 : Shape := ⟨2, ![400, 16]⟩
abbrev S2x10000x16 : Shape := ⟨3, ![2, 10000, 16]⟩
abbrev S1x10000x16 : Shape := ⟨3, ![1, 10000, 16]⟩
abbrev S1x400x16 : Shape := ⟨3, ![1, 400, 16]⟩

abbrev nBuf : Space → Nat
  | .hbm => 11
  | .vmem => 14
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x256, .f32⟩
  | .hbm, ⟨3, _⟩ => ⟨S256, .f32⟩
  | .hbm, ⟨4, _⟩ => ⟨S256x16, .f32⟩
  | .hbm, ⟨5, _⟩ => ⟨S16, .f32⟩
  | .hbm, ⟨6, _⟩ => ⟨S10000x10000, .bf16⟩
  | .hbm, ⟨7, _⟩ => ⟨S1x256, .f32⟩
  | .hbm, ⟨8, _⟩ => ⟨S1x16, .f32⟩
  | .hbm, ⟨9, _⟩ => ⟨S10000x16, .f32⟩
  | .hbm, ⟨10, _⟩ => ⟨S10000x16, .f32⟩
  | .local _ .vmem, ⟨0, _⟩ => ⟨S1000x512, .f32⟩
  | .local _ .vmem, ⟨1, _⟩ => ⟨S1000x512, .f32⟩
  | .local _ .vmem, ⟨2, _⟩ => ⟨S512x256, .f32⟩
  | .local _ .vmem, ⟨3, _⟩ => ⟨S1x256, .f32⟩
  | .local _ .vmem, ⟨4, _⟩ => ⟨S256x16, .f32⟩
  | .local _ .vmem, ⟨5, _⟩ => ⟨S1x16, .f32⟩
  | .local _ .vmem, ⟨6, _⟩ => ⟨S1000x16, .f32⟩
  | .local _ .vmem, ⟨7, _⟩ => ⟨S1000x16, .f32⟩
  | .local _ .vmem, ⟨8, _⟩ => ⟨S400x10000, .bf16⟩
  | .local _ .vmem, ⟨9, _⟩ => ⟨S400x10000, .bf16⟩
  | .local _ .vmem, ⟨10, _⟩ => ⟨S10000x16, .f32⟩
  | .local _ .vmem, ⟨11, _⟩ => ⟨S400x16, .f32⟩
  | .local _ .vmem, ⟨12, _⟩ => ⟨S400x16, .f32⟩
  | .local _ .vmem, ⟨13, _⟩ => ⟨S2x10000x16, .bf16⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![10, 25], ![false, false]⟩

def k1_off1 (i : grid1.Coords) : Fin 3 → Nat :=
  let arg0 : BitVec 32 := BitVec.ofNat 32 (i 0).val
  let c2_i32 : BitVec 32 := 2#32
  let c0_i32_2 : BitVec 32 := 0#32
  let v5 : BitVec 1 := Scalar.cmpi .eq c2_i32 c0_i32_2
  let c1_i32 : BitVec 32 := 1#32
  let v6 : BitVec 32 := Scalar.select v5 c1_i32 c2_i32
  let v7 : BitVec 32 := Scalar.remsi arg0 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let v15 : Index := Scalar.indexCast v14
  let c0 : Index := 0#32
  let c0_6 : Index := 0#32
  ![v15.toNat, 0, 0]
def k1_off2 (i : grid1.Coords) : Fin 2 → Nat :=
  let arg1 : BitVec 32 := BitVec.ofNat 32 (i 1).val
  let c400_i32 : BitVec 32 := 400#32
  let v23 : BitVec 32 := Scalar.muli arg1 c400_i32
  let v24 : Index := Scalar.indexCast v23
  let c0_10 : Index := 0#32
  ![v24.toNat, 0]
def k1_off3 (i : grid1.Coords) : Fin 3 → Nat :=
  let arg0 : BitVec 32 := BitVec.ofNat 32 (i 0).val
  let c1_i32_12 : BitVec 32 := 1#32
  let v31 : BitVec 32 := Scalar.addi arg0 c1_i32_12
  let c2_i32_13 : BitVec 32 := 2#32
  let c0_i32_14 : BitVec 32 := 0#32
  let v32 : BitVec 1 := Scalar.cmpi .eq c2_i32_13 c0_i32_14
  let c1_i32_15 : BitVec 32 := 1#32
  let v33 : BitVec 32 := Scalar.select v32 c1_i32_15 c2_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v43 : Index := Scalar.indexCast v41
  let arg1 : BitVec 32 := BitVec.ofNat 32 (i 1).val
  let c400_i32_19 : BitVec 32 := 400#32
  let v42 : BitVec 32 := Scalar.muli arg1 c400_i32_19
  let v44 : Index := Scalar.indexCast v42
  let c0_20 : Index := 0#32
  ![v43.toNat, v44.toNat, 0]
def k1_cond2 (i : grid1.Coords) : BitVec 1 :=
  let arg0 : BitVec 32 := BitVec.ofNat 32 (i 0).val
  let c9_i32 : BitVec 32 := 9#32
  let v48 : BitVec 1 := Scalar.cmpi .eq arg0 c9_i32
  let v49 : BitVec 32 := Scalar.extui v48
  let c0_i32_21 : BitVec 32 := 0#32
  let v50 : BitVec 1 := Scalar.cmpi .ne v49 c0_i32_21
  v50

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c9_i32 : BitVec 32 := 9#32
  let v0 : BitVec 1 := Scalar.cmpi .eq arg0 c9_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

abbrev stage1_0 : Fin 2 → Memref sig .tc .vmem S400x10000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S10000x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S400x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  bitsLt_bf16_f32 : FTy.bits .bf16 < FTy.bits .f32
  shapeCasts_S256_S1x256 : S256.ShapeCasts S1x256
  shapeCasts_S16_S1x16 : S16.ShapeCasts S1x16
  inb_S1000x512_S1000x512_0_0 : ∀ a, (![0, 0] : Fin 2 → Nat) a + S1000x512.size a ≤ S1000x512.size a
  h_S1000x512 : 0 < S1000x512.numel
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  inb_S256x16_S256x16_0_0 : ∀ a, (![0, 0] : Fin 2 → Nat) a + S256x16.size a ≤ S256x16.size a
  h_S256x16 : 0 < S256x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S1000x16 : S1x16.Broadcasts S1000x16
  inb_S1000x16_S1000x16_0_0 : ∀ a, (![0, 0] : Fin 2 → Nat) a + S1000x16.size a ≤ S1000x16.size a
  h_S1000x16 : 0 < S1000x16.numel
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S2x10000x16_S1x10000x16_0_0_0 : ∀ a, (![0, 0, 0] : Fin 3 → Nat) a + S1x10000x16.size a ≤ S2x10000x16.size a
  h_S1x10000x16 : 0 < S1x10000x16.numel
  shapeCasts_S1x10000x16_S10000x16 : S1x10000x16.ShapeCasts S10000x16
  shapeCasts_S10000x16_S1x10000x16 : S10000x16.ShapeCasts S1x10000x16
  packedbf16_S2x10000x16_S1x10000x16_0_0_0 : (Rect.unit (s := S2x10000x16) ![0, 0, 0] S1x10000x16.size inb_S2x10000x16_S1x10000x16_0_0_0).PackedRows (EltTy.packing .bf16)
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  h_S400x16 : 0 < S400x16.numel
  shapeCasts_S400x16_S400x16 : S400x16.ShapeCasts S400x16
  h_S1x400x16 : 0 < S1x400x16.numel
  shapeCasts_S1x400x16_S400x16 : S1x400x16.ShapeCasts S400x16
  shapeCasts_S400x16_S1x400x16 : S400x16.ShapeCasts S1x400x16
  inb_S400x16_S400x16_0_0 : ∀ a, (![0, 0] : Fin 2 → Nat) a + S400x16.size a ≤ S400x16.size a
  dot_S1000x512_S512x256_S1000x256_1_0_0_1_n_n_wf : DotDims.WF S1000x512 S512x256 S1000x256 [1] [0] [0] [1] [] []
  dot_S1000x256_S256x16_S1000x16_1_0_0_1_n_n_wf : DotDims.WF S1000x256 S256x16 S1000x16 [1] [0] [0] [1] [] []
  dot_S400x10000_S10000x16_S400x16_1_0_0_1_n_n_wf : DotDims.WF S400x10000 S10000x16 S400x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S10000x512.size a
  hwx0_0 : ∀ i : grid0.Coords, EltTy.bits .f32 = 32 ∨ (Rect.block (s := S10000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x16.size a ≤ S256x16.size a
  hwx0_3 : ∀ i : grid0.Coords, EltTy.bits .f32 = 32 ∨ (Rect.block (s := S256x16) S256x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x16.size a ≤ S10000x16.size a
  hwx0_5 : ∀ i : grid0.Coords, EltTy.bits .f32 = 32 ∨ (Rect.block (s := S10000x16) S1000x16.size (cc0_transform_5 i) (hinb0_5 i)).WholeWords (EltTy.packing .f32)
  hrank1 : 0 < grid1.rank
  k1_off1_inb : ∀ i : grid1.Coords, ∀ a, (k1_off1 i) a + S1x10000x16.size a ≤ S2x10000x16.size a
  k1_off2_inb : ∀ i : grid1.Coords, ∀ a, (k1_off2 i) a + S400x16.size a ≤ S10000x16.size a
  k1_off3_inb : ∀ i : grid1.Coords, ∀ a, (k1_off3 i) a + S1x400x16.size a ≤ S2x10000x16.size a
  k1_off3_packedbf16 : ∀ i : grid1.Coords, (Rect.unit (s := S2x10000x16) (k1_off3 i) S1x400x16.size (k1_off3_inb i)).PackedRows (EltTy.packing .bf16)
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .bf16 = 32 ∨ (Rect.block (s := S10000x10000) S400x10000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x16.size a ≤ S10000x16.size a
  hwx1_1 : ∀ i : grid1.Coords, EltTy.bits .f32 = 32 ∨ (Rect.block (s := S10000x16) S10000x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x16.size a ≤ S10000x16.size a
  hwx1_2 : ∀ i : grid1.Coords, EltTy.bits .f32 = 32 ∨ (Rect.block (s := S10000x16) S400x16.size (cc1_transform_2 i) (hinb1_2 i)).WholeWords (EltTy.packing .f32)

variable [Facts₀]

def dot_S1000x512_S512x256_S1000x256_1_0_0_1_n_n : DotDims S1000x512 S512x256 S1000x256 where
  lhsContracting := [1]
  rhsContracting := [0]
  lhsNonContracting := [0]
  rhsNonContracting := [1]
  lhsBatch := []
  rhsBatch := []
  wf := dot_S1000x512_S512x256_S1000x256_1_0_0_1_n_n_wf
def dot_S1000x256_S256x16_S1000x16_1_0_0_1_n_n : DotDims S1000x256 S256x16 S1000x16 where
  lhsContracting := [1]
  rhsContracting := [0]
  lhsNonContracting := [0]
  rhsNonContracting := [1]
  lhsBatch := []
  rhsBatch := []
  wf := dot_S1000x256_S256x16_S1000x16_1_0_0_1_n_n_wf
def dot_S400x10000_S10000x16_S400x16_1_0_0_1_n_n : DotDims S400x10000 S10000x16 S400x16 where
  lhsContracting := [1]
  rhsContracting := [0]
  lhsNonContracting := [0]
  rhsNonContracting := [1]
  lhsBatch := []
  rhsBatch := []
  wf := dot_S400x10000_S10000x16_S400x16_1_0_0_1_n_n_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1000x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v0) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S10000x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S400x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S10000x512 : Shape := ⟨2, ![10000, 512]⟩
abbrev S10000x10000 : Shape := ⟨2, ![10000, 10000]⟩
abbrev S512x256 : Shape := ⟨2, ![512, 256]⟩
abbrev S256 : Shape := ⟨1, ![256]⟩
abbrev S256x16 : Shape := ⟨2, ![256, 16]⟩
abbrev S16 : Shape := ⟨1, ![16]⟩
abbrev S10000x256 : Shape := ⟨2, ![10000, 256]⟩
abbrev S1x256 : Shape := ⟨2, ![1, 256]⟩
abbrev S_ : Shape := ⟨0, ![]⟩
abbrev S10000x16 : Shape := ⟨2, ![10000, 16]⟩
abbrev S1x16 : Shape := ⟨2, ![1, 16]⟩

abbrev nBuf : Space → Nat
  | .hbm => 97
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x256, .f32⟩
  | .hbm, ⟨3, _⟩ => ⟨S256, .f32⟩
  | .hbm, ⟨4, _⟩ => ⟨S256x16, .f32⟩
  | .hbm, ⟨5, _⟩ => ⟨S16, .f32⟩
  | .hbm, ⟨6, _⟩ => ⟨S10000x256, .f32⟩
  | .hbm, ⟨7, _⟩ => ⟨S1x256, .f32⟩
  | .hbm, ⟨8, _⟩ => ⟨S10000x256, .f32⟩
  | .hbm, ⟨9, _⟩ => ⟨S10000x256, .f32⟩
  | .hbm, ⟨10, _⟩ => ⟨S_, .f32⟩
  | .hbm, ⟨11, _⟩ => ⟨S10000x256, .f32⟩
  | .hbm, ⟨12, _⟩ => ⟨S10000x256, .f32⟩
  | .hbm, ⟨13, _⟩ => ⟨S10000x16, .f32⟩
  | .hbm, ⟨14, _⟩ => ⟨S1x16, .f32⟩
  | .hbm, ⟨15, _⟩ => ⟨S10000x16, .f32⟩
  | .hbm, ⟨16, _⟩ => ⟨S10000x16, .f32⟩
  | .hbm, ⟨17, _⟩ => ⟨S10000x16, .f32⟩
  | .hbm, ⟨18, _⟩ => ⟨S_, .f32⟩
  | .hbm, ⟨19, _⟩ => ⟨S10000x16, .f32⟩
  | .hbm, ⟨20, _⟩ => ⟨S10000x16, .f32⟩
  | .hbm, ⟨21, _⟩ => ⟨S_, .f32⟩
  | .hbm, ⟨22, _⟩ => ⟨S10000x16, .f32⟩
  | .hbm, ⟨23, _⟩ => ⟨S10000x16, .f32⟩
  | .hbm, ⟨24, _⟩ => ⟨S10000x16, .f32⟩
  | .hbm, ⟨25, _⟩ => ⟨S10000x16, .f32⟩
  | .hbm, ⟨26, _⟩ => ⟨S_, .f32⟩
  | .hbm, ⟨27, _⟩ => ⟨S10000x16, .f32⟩
  | .hbm, ⟨28, _⟩ => ⟨S10000x16, .f32⟩
  | .hbm, ⟨29, _⟩ => ⟨S_, .f32⟩
  | .hbm, ⟨30, _⟩ => ⟨S10000x16, .f32⟩
  | .hbm, ⟨31, _⟩ => ⟨S10000x16, .f32⟩
  | .hbm, ⟨32, _⟩ => ⟨S10000x16, .f32⟩
  | .hbm, ⟨33, _⟩ => ⟨S10000x16, .f32⟩
  | .hbm, ⟨34, _⟩ => ⟨S_, .f32⟩
  | .hbm, ⟨35, _⟩ => ⟨S10000x16, .f32⟩
  | .hbm, ⟨36, _⟩ => ⟨S10000x16, .f32⟩
  | .hbm, ⟨37, _⟩ => ⟨S_, .f32⟩
  | .hbm, ⟨38, _⟩ => ⟨S10000x16, .f32⟩
  | .hbm, ⟨39, _⟩ => ⟨S10000x16, .f32⟩
  | .hbm, ⟨40, _⟩ => ⟨S10000x16, .f32⟩
  | .hbm, ⟨41, _⟩ => ⟨S10000x16, .f32⟩
  | .hbm, ⟨42, _⟩ => ⟨S_, .f32⟩
  | .hbm, ⟨43, _⟩ => ⟨S10000x16, .f32⟩
  | .hbm, ⟨44, _⟩ => ⟨S10000x16, .f32⟩
  | .hbm, ⟨45, _⟩ => ⟨S_, .f32⟩
  | .hbm, ⟨46, _⟩ => ⟨S10000x16, .f32⟩
  | .hbm, ⟨47, _⟩ => ⟨S10000x16, .f32⟩
  | .hbm, ⟨48, _⟩ => ⟨S10000x16, .f32⟩
  | .hbm, ⟨49, _⟩ => ⟨S10000x16, .f32⟩
  | .hbm, ⟨50, _⟩ => ⟨S_, .f32⟩
  | .hbm, ⟨51, _⟩ => ⟨S10000x16, .f32⟩
  | .hbm, ⟨52, _⟩ => ⟨S10000x16, .f32⟩
  | .hbm, ⟨53, _⟩ => ⟨S_, .f32⟩
  | .hbm, ⟨54, _⟩ => ⟨S10000x16, .f32⟩
  | .hbm, ⟨55, _⟩ => ⟨S10000x16, .f32⟩
  | .hbm, ⟨56, _⟩ => ⟨S10000x16, .f32⟩
  | .hbm, ⟨57, _⟩ => ⟨S10000x16, .f32⟩
  | .hbm, ⟨58, _⟩ => ⟨S_, .f32⟩
  | .hbm, ⟨59, _⟩ => ⟨S10000x16, .f32⟩
  | .hbm, ⟨60, _⟩ => ⟨S10000x16, .f32⟩
  | .hbm, ⟨61, _⟩ => ⟨S_, .f32⟩
  | .hbm, ⟨62, _⟩ => ⟨S10000x16, .f32⟩
  | .hbm, ⟨63, _⟩ => ⟨S10000x16, .f32⟩
  | .hbm, ⟨64, _⟩ => ⟨S10000x16, .f32⟩
  | .hbm, ⟨65, _⟩ => ⟨S10000x16, .f32⟩
  | .hbm, ⟨66, _⟩ => ⟨S_, .f32⟩
  | .hbm, ⟨67, _⟩ => ⟨S10000x16, .f32⟩
  | .hbm, ⟨68, _⟩ => ⟨S10000x16, .f32⟩
  | .hbm, ⟨69, _⟩ => ⟨S_, .f32⟩
  | .hbm, ⟨70, _⟩ => ⟨S10000x16, .f32⟩
  | .hbm, ⟨71, _⟩ => ⟨S10000x16, .f32⟩
  | .hbm, ⟨72, _⟩ => ⟨S10000x16, .f32⟩
  | .hbm, ⟨73, _⟩ => ⟨S10000x16, .f32⟩
  | .hbm, ⟨74, _⟩ => ⟨S_, .f32⟩
  | .hbm, ⟨75, _⟩ => ⟨S10000x16, .f32⟩
  | .hbm, ⟨76, _⟩ => ⟨S10000x16, .f32⟩
  | .hbm, ⟨77, _⟩ => ⟨S_, .f32⟩
  | .hbm, ⟨78, _⟩ => ⟨S10000x16, .f32⟩
  | .hbm, ⟨79, _⟩ => ⟨S10000x16, .f32⟩
  | .hbm, ⟨80, _⟩ => ⟨S10000x16, .f32⟩
  | .hbm, ⟨81, _⟩ => ⟨S10000x16, .f32⟩
  | .hbm, ⟨82, _⟩ => ⟨S_, .f32⟩
  | .hbm, ⟨83, _⟩ => ⟨S10000x16, .f32⟩
  | .hbm, ⟨84, _⟩ => ⟨S10000x16, .f32⟩
  | .hbm, ⟨85, _⟩ => ⟨S_, .f32⟩
  | .hbm, ⟨86, _⟩ => ⟨S10000x16, .f32⟩
  | .hbm, ⟨87, _⟩ => ⟨S10000x16, .f32⟩
  | .hbm, ⟨88, _⟩ => ⟨S10000x16, .f32⟩
  | .hbm, ⟨89, _⟩ => ⟨S10000x16, .f32⟩
  | .hbm, ⟨90, _⟩ => ⟨S_, .f32⟩
  | .hbm, ⟨91, _⟩ => ⟨S10000x16, .f32⟩
  | .hbm, ⟨92, _⟩ => ⟨S10000x16, .f32⟩
  | .hbm, ⟨93, _⟩ => ⟨S_, .f32⟩
  | .hbm, ⟨94, _⟩ => ⟨S10000x16, .f32⟩
  | .hbm, ⟨95, _⟩ => ⟨S10000x16, .f32⟩
  | .hbm, ⟨96, _⟩ => ⟨S10000x16, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_10 : Ref sig .tc := ⟨.hbm, 58, rfl⟩
abbrev main_v41 : Ref sig .tc := ⟨.hbm, 59, rfl⟩
abbrev main_v42 : Ref sig .tc := ⟨.hbm, 60, rfl⟩
abbrev main_cst_11 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_12 : Ref sig .tc := ⟨.hbm, 66, rfl⟩
abbrev main_v47 : Ref sig .tc := ⟨.hbm, 67, rfl⟩
abbrev main_v48 : Ref sig .tc := ⟨.hbm, 68, rfl⟩
abbrev main_cst_13 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_14 : Ref sig .tc := ⟨.hbm, 74, rfl⟩
abbrev main_v53 : Ref sig .tc := ⟨.hbm, 75, rfl⟩
abbrev main_v54 : Ref sig .tc := ⟨.hbm, 76, rfl⟩
abbrev main_cst_15 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_16 : Ref sig .tc := ⟨.hbm, 82, rfl⟩
abbrev main_v59 : Ref sig .tc := ⟨.hbm, 83, rfl⟩
abbrev main_v60 : Ref sig .tc := ⟨.hbm, 84, rfl⟩
abbrev main_cst_17 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_18 : Ref sig .tc := ⟨.hbm, 90, rfl⟩
abbrev main_v65 : Ref sig .tc := ⟨.hbm, 91, rfl⟩
abbrev main_v66 : Ref sig .tc := ⟨.hbm, 92, rfl⟩
abbrev main_cst_19 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  bcast_S_S10000x16 : S_.BroadcastsInDim S10000x16 (![] : Fin 0 → Fin S10000x16.rank)
  dot_S10000x512_S512x256_S10000x256_1_0_0_1_n_n_wf : DotDims.WF S10000x512 S512x256 S10000x256 [1] [0] [0] [1] [] []
  dot_S10000x256_S256x16_S10000x16_1_0_0_1_n_n_wf : DotDims.WF S10000x256 S256x16 S10000x16 [1] [0] [0] [1] [] []
  dot_S10000x10000_S10000x16_S10000x16_1_0_0_1_n_n_wf : DotDims.WF S10000x10000 S10000x16 S10000x16 [1] [0] [0] [1] [] []

variable [Facts₀]

def dot_S10000x512_S512x256_S10000x256_1_0_0_1_n_n : DotDims S10000x512 S512x256 S10000x256 where
  lhsContracting := [1]
  rhsContracting := [0]
  lhsNonContracting := [0]
  rhsNonContracting := [1]
  lhsBatch := []
  rhsBatch := []
  wf := dot_S10000x512_S512x256_S10000x256_1_0_0_1_n_n_wf
def dot_S10000x256_S256x16_S10000x16_1_0_0_1_n_n : DotDims S10000x256 S256x16 S10000x16 where
  lhsContracting := [1]
  rhsContracting := [0]
  lhsNonContracting := [0]
  rhsNonContracting := [1]
  lhsBatch := []
  rhsBatch := []
  wf := dot_S10000x256_S256x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf

class Facts : Prop extends Facts₀ where

variable [Facts]
-- ==== Proof.Kernel.Mlp.lean ====
/-
  The first region of the program: the two-layer perceptron as a pipeline over ten blocks of a thousand rows.

  Five windows are read — the features (a block of a thousand rows per point), the first layer's weights, its
  bias as a row, the second layer's weights, its bias as a row (each of the last four one block, the same at
  every point) — and one is written: the perceptron's output, a block of a thousand rows per point.  The body
  loads each of the five staging buffers whole, computes, and stores one whole rectangle into the sixth.

  This file states, at any float model and for any contents V of the core's buffers at the region's entry:
  each window's block at a point as a read of its array; that an input's staging buffer holds that block at
  every point, whether or not it was transferred there (an input whose block index is constant is transferred
  at the first point only, and its buffer is not written afterwards); what the body leaves in the output's
  staging buffer, as a function of the five input blocks; the body's triple; the proof data of the pipeline;
  and the pipeline's body obligation at every point.
-/
import proofs.«129323_g68204080660518_cont_9to1_m_598_3_alg».proof.Proof.Gen.Kernel.Launch
import proofs.«129323_g68204080660518_cont_9to1_m_598_3_alg».proof.Proof.Gen.Kernel.Skeleton
import proofs.«129323_g68204080660518_cont_9to1_m_598_3_alg».proof.Proof.Gen.Kernel.Points
import Idealize.ShloMosaic.Lib.Pipeline.FrameBody
import Idealize.ShloMosaic.Lib.Ring
import Idealize.ShloMosaic.Lib.Tactic

-- membership in a rectangle of a thousand rows: the structural recursion goes once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter everything below is stated at
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is the
    entry contents and whose body leaves the block in place: where the window is not transferred its block index
    has not moved, so the block already there is this point's. The window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same of input window 1, whose one block is transferred at the first point only. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The same of input window 2. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- The same of input window 3. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- The same of input window 4. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each the whole of its buffer -/

abbrev r0_0 : Rect S1000x512 := Rect.unit (s := S1000x512) ![0, 0] S1000x512.size inb_S1000x512_S1000x512_0_0
abbrev r0_1 : Rect S512x256 := Rect.unit (s := S512x256) ![0, 0] S512x256.size inb_S512x256_S512x256_0_0
abbrev r0_2 : Rect S1x256 := Rect.unit (s := S1x256) ![0, 0] S1x256.size inb_S1x256_S1x256_0_0
abbrev r0_3 : Rect S256x16 := Rect.unit (s := S256x16) ![0, 0] S256x16.size inb_S256x16_S256x16_0_0
abbrev r0_4 : Rect S1x16 := Rect.unit (s := S1x16) ![0, 0] S1x16.size inb_S1x16_S1x16_0_0
abbrev r0_5 : Rect S1000x16 := Rect.unit (s := S1000x16) ![0, 0] S1000x16.size inb_S1000x16_S1000x16_0_0

/-! ## What the body leaves in the output window's buffer -/

/-- Window 5's staging buffer after the body, from the five input blocks: its one store, whose payload is the
    body's arithmetic over the five loads. -/
def out0_5 (x0 : Vec F S1000x512 .f32) (x1 : Vec F S512x256 .f32) (x2 : Vec F S1x256 .f32) (x3 : Vec F S256x16 .f32) (x4 : Vec F S1x16 .f32) : Vec F S1000x16 .f32 :=
  View.canon [⟨r0_5, k0_pay1 (View.ld x0 r0_0) (View.ld x1 r0_1) (View.ld x2 r0_2) (View.ld x3 r0_3) (View.ld x4 r0_4)⟩]

/-- The one store is the whole buffer, so it covers it. -/
theorem cover0_5 (p0 : Vec F S1000x16 .f32) (y : S1000x16.Idx) :
    ∃ pc ∈ ([⟨r0_5, p0⟩] : List (View.Piece (Elt F) S1000x16 .f32)), y ∈ pc.1.set :=
  View.cover_of_tiled [⟨r0_5, p0⟩] S1000x16.size (by rfl) y

/-! ## The body's triple -/

set_option maxHeartbeats 1000000 in
/-- The body on whole staging memrefs, the inputs' at read contents `x0 … x4` and the output's at anything, runs to
    the continuation holding the inputs' as they were and the output's at `out0_5` of the inputs'. -/
theorem sound_kernel0 (c : Dev nD) (E : Set ℕ) (i : grid0.Coords)
    (arg1 : Memref sig .tc .vmem S1000x512 .f32) (harg1 : arg1.IsWhole) (arg2 : Memref sig .tc .vmem S512x256 .f32) (harg2 : arg2.IsWhole)
    (arg3 : Memref sig .tc .vmem S1x256 .f32) (harg3 : arg3.IsWhole) (arg4 : Memref sig .tc .vmem S256x16 .f32) (harg4 : arg4.IsWhole)
    (arg5 : Memref sig .tc .vmem S1x16 .f32) (harg5 : arg5.IsWhole) (arg6 : Memref sig .tc .vmem S1000x16 .f32) (harg6 : arg6.IsWhole)
    (x0 : Vec F S1000x512 .f32) (x1 : Vec F S512x256 .f32) (x2 : Vec F S1x256 .f32) (x3 : Vec F S256x16 .f32) (x4 : Vec F S1x16 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of the pipeline on core `c`: the arrays as the region finds them; after the body at point `t`
    each input's buffer at its block and the output's at `out0_5` of the five input blocks; the invariant that of a
    body keeping nothing of its own (the scoped rest and the generator register, untouched); nothing owed; full
    shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The proof data's arrays are the entry contents (the definition projected). -/
theorem A_eq0 (c : Dev nD) (w : Fin cfg0.W) : (dat0 V c).A w = V c (Pipeline.arrRef spec0 w) := by
  dsimp only [dat0]

/-- What the body leaves, window by window (the definition's case split reduced at each literal window). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

/-- Each input's current staging buffer holds its block at every point, transferred there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Kernel.PropagateDefs.lean ====
/-
  The second region's kernel body, its accesses and what they read and leave: one row block of one propagation round.

  The kernel keeps the current iterate in a scratch buffer of two slots of 10000 × 16.  At a point (round k, row
  block r) it reads slot k mod 2 whole, multiplies the point's 400 × 10000 block of the adjacency into it,
  adds the weighted teleport term from rows 400 r … 400 r + 399 of the perceptron's output, and stores the 400
  new rows into rows 400 r … of slot (k + 1) mod 2; at the very first point it first stores the perceptron's
  output into slot 0, and in the last round it also stores the unrounded 400 rows into its output window.

  This file states, at any float model: the two conditions as predicates of the grid coordinates; the three
  offset computations in closed form; what the three loads read and what the stores leave in the scratch, as
  functions of the buffers' contents.
-/
import proofs.«129323_g68204080660518_cont_9to1_m_598_3_alg».proof.Proof.Gen.Kernel.Launch
import proofs.«129323_g68204080660518_cont_9to1_m_598_3_alg».proof.Proof.Gen.Kernel.Skeleton
import proofs.«129323_g68204080660518_cont_9to1_m_598_3_alg».proof.Proof.Gen.Kernel.Points
import Idealize.ShloMosaic.Lib.Pipeline.FrameBody
import Idealize.ShloMosaic.Lib.WritesUnit
import Idealize.ShloMosaic.Lib.Ring
import Idealize.ShloMosaic.Lib.Tactic

-- membership in a rectangle of ten thousand rows: the structural recursion goes once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions and offsets, from the grid coordinates -/

/-- The first `scf.if`: the point is the grid's first (round 0, row block 0). -/
abbrev cond1_0 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The second `scf.if`: the round is the last. -/
abbrev cond1_1 (i : grid1.Coords) : Prop := k1_cond2 i = 1#1

/-- The slot the round reads: the round's parity. -/
theorem k1_off1_eq : ∀ i : grid1.Coords, k1_off1 i = ![(i 0).val % 2, 0, 0] := by decide +kernel
instance closedOff_k1_off1 (i : grid1.Coords) : ClosedOff (k1_off1 i) := ⟨![(i 0).val % 2, 0, 0], k1_off1_eq i⟩
/-- The rows of the teleport term the point reads: its row block. -/
theorem k1_off2_eq : ∀ i : grid1.Coords, k1_off2 i = ![400 * (i 1).val, 0] := by decide +kernel
instance closedOff_k1_off2 (i : grid1.Coords) : ClosedOff (k1_off2 i) := ⟨![400 * (i 1).val, 0], k1_off2_eq i⟩
/-- Where the point writes: the other slot, its row block. -/
theorem k1_off3_eq : ∀ i : grid1.Coords, k1_off3 i = ![((i 0).val + 1) % 2, 400 * (i 1).val, 0] := by decide +kernel
instance closedOff_k1_off3 (i : grid1.Coords) : ClosedOff (k1_off3 i) := ⟨![((i 0).val + 1) % 2, 400 * (i 1).val, 0], k1_off3_eq i⟩

/-- The scratch operand: two slots of 10000 × 16, a whole scoped buffer of the kernel's own. -/
abbrev scM1 : Memref sig .tc .vmem S2x10000x16 .bf16 := Memref.whole cc1_scratch0

abbrev hscM1 : (scM1 : Memref sig .tc .vmem S2x10000x16 .bf16).IsWhole := Memref.isWhole_whole _

/-! ## The body's accesses -/

/-- The slot the round reads, whole. -/
abbrev r1_slot (i : grid1.Coords) : Rect S2x10000x16 := Rect.unit (s := S2x10000x16) (k1_off1 i) S1x10000x16.size (k1_off1_inb i)
/-- The point's 400 rows of the teleport term. -/
abbrev r1_rows (i : grid1.Coords) : Rect S10000x16 := Rect.unit (s := S10000x16) (k1_off2 i) S400x16.size (k1_off2_inb i)
/-- The point's 400 rows of the slot the round writes. -/
abbrev r1_dst (i : grid1.Coords) : Rect S2x10000x16 := Rect.unit (s := S2x10000x16) (k1_off3 i) S1x400x16.size (k1_off3_inb i)
/-- Slot 0, whole. -/
abbrev r1_slot0 : Rect S2x10000x16 := Rect.unit (s := S2x10000x16) ![0, 0, 0] S1x10000x16.size inb_S2x10000x16_S1x10000x16_0_0_0
abbrev r1_adj : Rect S400x10000 := Rect.unit (s := S400x10000) ![0, 0] S400x10000.size inb_S400x10000_S400x10000_0_0
abbrev r1_x2 : Rect S10000x16 := Rect.unit (s := S10000x16) ![0, 0] S10000x16.size inb_S10000x16_S10000x16_0_0
abbrev r1_out : Rect S400x16 := Rect.unit (s := S400x16) ![0, 0] S400x16.size inb_S400x16_S400x16_0_0

/-- The new 400 rows before rounding, from the slot read `zslot`, the adjacency block `x0` and the perceptron's output `x1`. -/
def newRowsOf (i : grid1.Coords) (zslot : Vec F S1x10000x16 .bf16) (x0 : Vec F S400x10000 .bf16) (x1 : Vec F S10000x16 .f32) : FVec F S400x16 .f32 :=
  k1_pay3 zslot (View.ld x0 r1_adj) (View.ld x1 (r1_rows i))

/-- The same rounded, as the rows of one slot. -/
def newSlotRowsOf (i : grid1.Coords) (zslot : Vec F S1x10000x16 .bf16) (x0 : Vec F S400x10000 .bf16) (x1 : Vec F S10000x16 .f32) : FVec F S1x400x16 .bf16 :=
  k1_pay1 (k1_pay4 zslot (View.ld x0 r1_adj) (View.ld x1 (r1_rows i)))

/-- The new 400 rows before rounding, from the scratch's contents `zs`, the adjacency block `x0` and the
    perceptron's output `x1`. -/
def newRows (i : grid1.Coords) (zs : Vec F S2x10000x16 .bf16) (x0 : Vec F S400x10000 .bf16) (x1 : Vec F S10000x16 .f32) : FVec F S400x16 .f32 :=
  newRowsOf i (View.ld zs (r1_slot i)) x0 x1

/-- The same rounded, as the rows of one slot. -/
def newSlotRows (i : grid1.Coords) (zs : Vec F S2x10000x16 .bf16) (x0 : Vec F S400x10000 .bf16) (x1 : Vec F S10000x16 .f32) : FVec F S1x400x16 .bf16 :=
  newSlotRowsOf i (View.ld zs (r1_slot i)) x0 x1

/-- What the point's store leaves in the scratch: the old contents with the new rows written. -/
def scrStep (i : grid1.Coords) (zs : Vec F S2x10000x16 .bf16) (x0 : Vec F S400x10000 .bf16) (x1 : Vec F S10000x16 .f32) : Vec F S2x10000x16 .bf16 :=
  scM1.view.read (Elt F) (scM1.view.writes (Elt F) (hscM1.unread zs) [⟨r1_dst i, newSlotRows i zs x0 x1⟩])

/-- What the first point's extra store leaves: the perceptron's output, rounded, in slot 0. -/
def scrInit (zs : Vec F S2x10000x16 .bf16) (x1 : Vec F S10000x16 .f32) : Vec F S2x10000x16 .bf16 :=
  scM1.view.read (Elt F) (scM1.view.writes (Elt F) (hscM1.unread zs) [⟨r1_slot0, k1_pay2 (View.ld x1 r1_x2)⟩])

/-- What the last round's store leaves in the output window's buffer (its one store as a piece). -/
def out1_2 (i : grid1.Coords) (zs : Vec F S2x10000x16 .bf16) (x0 : Vec F S400x10000 .bf16) (x1 : Vec F S10000x16 .f32) : Vec F S400x16 .f32 :=
  View.canon [⟨r1_out, newRows i zs x0 x1⟩]

/-- That store covers the buffer. -/
theorem cover1_2 (p0 : Vec F S400x16 .f32) (y : S400x16.Idx) :
    ∃ pc ∈ ([⟨r1_out, p0⟩] : List (View.Piece (Elt F) S400x16 .f32)), y ∈ pc.1.set :=
  View.cover_of_tiled [⟨r1_out, p0⟩] S400x16.size (by rfl) y

/-- The first point's two stores are the slot-0 store followed by the ordinary step. -/
theorem scrStep_scrInit (i : grid1.Coords) (zs : Vec F S2x10000x16 .bf16) (x0 : Vec F S400x10000 .bf16) (x1 : Vec F S10000x16 .f32) :
    scM1.view.read (Elt F) (scM1.view.writes (Elt F) (hscM1.unread zs)
        [⟨r1_dst i, newSlotRows i (scrInit zs x1) x0 x1⟩, ⟨r1_slot0, k1_pay2 (View.ld x1 r1_x2)⟩])
      = scrStep i (scrInit zs x1) x0 x1 := by
  have e := hscM1.unread_read (Val := Elt F) (scM1.view.writes (Elt F) (hscM1.unread zs) [⟨r1_slot0, k1_pay2 (View.ld x1 r1_x2)⟩])
  unfold scrStep scrInit
  rw [e]
  exact congrArg (scM1.view.read (Elt F)) (View.writes_append scM1.view (hscM1.unread zs) [_] [_])

end Cert.Kernel.Hand

end
-- ==== Proof.Kernel.PropagateData.lean ====
/-
  The second region's proof data: what the scratch holds between points, and what each window's buffer holds.

  The iterates.  Z 0 is the perceptron's output rounded; Z (k + 1) is, row block by row block, what the body
  computes from Z k, the block of the adjacency the point of round k and that row block is handed, and the
  perceptron's output — each as a 1 × 10000 × 16 array, the layout one slot of the scratch is read in.

  The invariant.  Before the point of round k and row block r the scratch holds Z k in slot k mod 2 and the rows
  below 400 r of Z (k + 1) in the other slot; nothing is known of the remaining rows of that slot (at the very
  first point nothing is known of the scratch at all, and the body's first store makes slot 0 hold Z 0).  The
  body reads slot k mod 2 whole and writes rows 400 r … 400 r + 399 of the other slot, so after it the rows
  below 400 (r + 1) of Z (k + 1) are there; after row block 24 that slot holds Z (k + 1) whole, which is what
  round k + 1 reads.

  The output window is written by the body in the last round only; at the earlier points it is idle (its
  buffer is handed back as found and not written back).
-/
import proofs.«129323_g68204080660518_cont_9to1_m_598_3_alg».proof.Proof.Gen.Kernel.Launch
import proofs.«129323_g68204080660518_cont_9to1_m_598_3_alg».proof.Proof.Gen.Kernel.Skeleton
import proofs.«129323_g68204080660518_cont_9to1_m_598_3_alg».proof.Proof.Gen.Kernel.Points
import proofs.«129323_g68204080660518_cont_9to1_m_598_3_alg».proof.Proof.Kernel.PropagateDefs
import Idealize.ShloMosaic.Lib.ValueIdx
import Idealize.ShloMosaic.Lib.Pipeline.FrameBody
import Idealize.ShloMosaic.Lib.WritesUnit
import Idealize.ShloMosaic.Lib.Ring
import Idealize.ShloMosaic.Lib.Tactic

-- membership in a rectangle of ten thousand rows: the structural recursion goes once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

-- the core's buffer contents when the region is entered: the parameter everything below is stated at
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency's staging buffer holds the point's block at every point (it is transferred at every point). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The perceptron's output's staging buffer holds its one block at every point: transferred at the first, kept after. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The grid: 10 rounds of 25 row blocks, decided once -/

theorem N1 : cfg1.N = 250 := N_1

/-- A point's coordinates are its round and its row block. -/
theorem coords_val : ∀ t : Fin cfg1.N, (grid1.coords t 0).val = t.val / 25 ∧ (grid1.coords t 1).val = t.val % 25 :=
  (by decide +kernel : ∀ t : Fin grid1.N, (grid1.coords t 0).val = t.val / 25 ∧ (grid1.coords t 1).val = t.val % 25)
/-- The first `scf.if` is taken at the first point only. -/
theorem hcond1_0 : ∀ t : Fin cfg1.N, cond1_0 (grid1.coords t) ↔ t.val = 0 :=
  (by decide +kernel : ∀ t : Fin grid1.N, cond1_0 (grid1.coords t) ↔ t.val = 0)
/-- The second in the last round only. -/
theorem hcond1_1 : ∀ t : Fin cfg1.N, cond1_1 (grid1.coords t) ↔ 225 ≤ t.val :=
  (by decide +kernel : ∀ t : Fin grid1.N, cond1_1 (grid1.coords t) ↔ 225 ≤ t.val)
/-- Before the last round the output window is idle and not written back; in it, live and written back. -/
theorem idleAt1_2 : ∀ t : Fin cfg1.N, t.val < 225 → cfg1.idle 2 (grid1.coords t) = true :=
  (by decide +kernel : ∀ t : Fin grid1.N, t.val < 225 → cfg1.idle 2 (grid1.coords t) = true)
theorem liveAt1_2 : ∀ t : Fin cfg1.N, 225 ≤ t.val → cfg1.idle 2 (grid1.coords t) = false :=
  (by decide +kernel : ∀ t : Fin grid1.N, 225 ≤ t.val → cfg1.idle 2 (grid1.coords t) = false)
theorem flush1_2 : ∀ t : Fin cfg1.N, (cfg1.win 2).flush t = true ↔ 225 ≤ t.val :=
  (by decide +kernel : ∀ t : Fin grid1.N, win1_2.flush t = true ↔ 225 ≤ t.val)
theorem noFlush1_2 (t : Fin cfg1.N) (h : t.val < 225) : (cfg1.win 2).flush t = false := by
  cases hf : (cfg1.win 2).flush t
  · rfl
  · exact absurd ((flush1_2 t).mp hf) (by omega)
theorem liveAt1_0 : ∀ t : Fin cfg1.N, cfg1.idle 0 (grid1.coords t) = false := fun _ => rfl
theorem liveAt1_1 : ∀ t : Fin cfg1.N, cfg1.idle 1 (grid1.coords t) = false := fun _ => rfl

/-- The point of round `k`, row block `r`. -/
def pt (k r : ℕ) : Fin cfg1.N := ⟨(25 * k + r) % 250, lt_of_lt_of_eq (Nat.mod_lt _ (by norm_num)) N1.symm⟩

theorem pt_eq (t : Fin cfg1.N) : pt (t.val / 25) (t.val % 25) = t := by
  have hN : t.val < 250 := lt_of_lt_of_eq t.isLt N1
  apply Fin.ext
  show (25 * (t.val / 25) + t.val % 25) % 250 = t.val
  omega

/-! ## The iterates -/

/-- The adjacency's block and the perceptron's output as the body's loads see them. -/
abbrev blkA (c : Dev nD) (t : Fin cfg1.N) : Vec F S400x10000 .bf16 := iblk1 V c 0 t
abbrev blkX (c : Dev nD) (t : Fin cfg1.N) : Vec F S10000x16 .f32 := iblk1 V c 1 t

/-- An index of a slot as the index of its row within the row's block of 400. -/
def rowIx (y : S1x10000x16.Idx) : S1x400x16.Idx :=
  ix3 (0 : Fin 1) (⟨(y 1).val % 400, Nat.mod_lt _ (by norm_num)⟩ : Fin 400) (⟨(y 2).val, (y 2).isLt⟩ : Fin 16)

/-- The iterates, each in a slot's layout: the perceptron's output rounded; then block by block what the body computes
    from the iterate before. -/
def Zs (c : Dev nD) : ℕ → Vec F S1x10000x16 .bf16
  | 0 => k1_pay2 (View.ld (blkX V c (pt 0 0)) r1_x2)
  | k + 1 => fun y =>
      newSlotRowsOf (grid1.coords (pt k ((y 1).val / 400))) (Zs c k) (blkA V c (pt k ((y 1).val / 400))) (blkX V c (pt k ((y 1).val / 400))) (rowIx y)

theorem Zs_zero (c : Dev nD) : Zs V c 0 = k1_pay2 (View.ld (blkX V c (pt 0 0)) r1_x2) := rfl
theorem Zs_succ (c : Dev nD) (k : ℕ) (y : S1x10000x16.Idx) :
    Zs V c (k + 1) y = newSlotRowsOf (grid1.coords (pt k ((y 1).val / 400))) (Zs V c k) (blkA V c (pt k ((y 1).val / 400))) (blkX V c (pt k ((y 1).val / 400))) (rowIx y) := rfl

/-- What the last round leaves in the output window's buffer at point `t`. -/
def outAt (c : Dev nD) (t : Fin cfg1.N) : Vec F S400x16 .f32 :=
  View.canon [⟨r1_out, newRowsOf (grid1.coords t) (Zs V c (t.val / 25)) (blkA V c t) (blkX V c t)⟩]

/-! ## The invariant -/

/-- A slot's index in the scratch: slot `s mod 2`, the same row and column. -/
def slotIx (s : ℕ) (y : S1x10000x16.Idx) : S2x10000x16.Idx :=
  ix3 (⟨s % 2, Nat.mod_lt _ (by norm_num)⟩ : Fin 2) (⟨(y 1).val, (y 1).isLt⟩ : Fin 10000) (⟨(y 2).val, (y 2).isLt⟩ : Fin 16)

/-- What the body at point `t` relies on: the round's iterate in its slot, the rows below the point's block of the next. -/
def Pre (c : Dev nD) (t : ℕ) (z : Vec F S2x10000x16 .bf16) : Prop :=
  (∀ y : S1x10000x16.Idx, z (slotIx (t / 25) y) = Zs V c (t / 25) y) ∧
  (∀ y : S1x10000x16.Idx, (y 1).val < 400 * (t % 25) → z (slotIx (t / 25 + 1) y) = Zs V c (t / 25 + 1) y)

/-- What it establishes: the same with the point's block included. -/
def Post (c : Dev nD) (t : ℕ) (z : Vec F S2x10000x16 .bf16) : Prop :=
  (∀ y : S1x10000x16.Idx, z (slotIx (t / 25) y) = Zs V c (t / 25) y) ∧
  (∀ y : S1x10000x16.Idx, (y 1).val < 400 * (t % 25 + 1) → z (slotIx (t / 25 + 1) y) = Zs V c (t / 25 + 1) y)

/-- The invariant before point `n`: nothing before the first, else what the point before established. -/
def Inv (c : Dev nD) : ℕ → Vec F S2x10000x16 .bf16 → Prop
  | 0, _ => True
  | n + 1, z => Post V c n z

theorem Inv_succ (c : Dev nD) (n : ℕ) (z : Vec F S2x10000x16 .bf16) : Inv V c (n + 1) z = Post V c n z := rfl

/-- A slot's layout has one leading coordinate, zero. -/
theorem idx_unit0 (y : S1x10000x16.Idx) : (y 0).val = 0 := by
  have : (y 0).val < 1 := (y 0).isLt
  omega

/-- Off the rows the point writes (missed on axis `a`), the scratch is as before. -/
theorem scrStep_of_not_mem (i : grid1.Coords) (z : Vec F S2x10000x16 .bf16) (x0 : Vec F S400x10000 .bf16) (x1 : Vec F S10000x16 .f32)
    (w : S2x10000x16.Idx) (a : Fin S2x10000x16.rank)
    (ha : (w a).val < (![((i 0).val + 1) % 2, 400 * (i 1).val, 0] : Fin 3 → ℕ) a
      ∨ (![((i 0).val + 1) % 2, 400 * (i 1).val, 0] : Fin 3 → ℕ) a + S1x400x16.size a ≤ (w a).val) :
    scrStep i z x0 x1 w = z w := by
  unfold scrStep
  rw [View.read_writes_cons_unit_of_not_mem scM1.view (hscM1.unread z) (k1_off3_inb i) (newSlotRows i z x0 x1) [] w (k1_off3_eq i) a ha]
  rw [View.writes_nil, hscM1.read_unread]

/-- On them, at position `x` of the block, the new rows. -/
theorem scrStep_of_mem (i : grid1.Coords) (z : Vec F S2x10000x16 .bf16) (x0 : Vec F S400x10000 .bf16) (x1 : Vec F S10000x16 .f32)
    (w : S2x10000x16.Idx) (x : S1x400x16.Idx)
    (hx : ∀ a, (w a).val = (![((i 0).val + 1) % 2, 400 * (i 1).val, 0] : Fin 3 → ℕ) a + (x a).val) :
    scrStep i z x0 x1 w = newSlotRows i z x0 x1 x := by
  unfold scrStep
  exact View.read_writes_cons_unit_of_mem scM1.view (hscM1.unread z) (k1_off3_inb i) (newSlotRows i z x0 x1) [] w x (k1_off3_eq i) hx

/-- From one point's conclusion to the next point's premise: within a round the same two facts; across rounds the
    slot just completed is the next round's iterate, and no row of the other slot is claimed. -/
theorem pre_of_post (c : Dev nD) (n : ℕ) (z : Vec F S2x10000x16 .bf16) (h : Post V c n z) : Pre V c (n + 1) z := by
  unfold Pre; unfold Post at h
  by_cases hr : n % 25 = 24
  · have e1 : (n + 1) / 25 = n / 25 + 1 := by omega
    have e2 : (n + 1) % 25 = 0 := by omega
    rw [e1, e2]
    refine ⟨fun y => h.2 y ?_, fun y hy => absurd hy (by omega)⟩
    have : (y 1).val < 10000 := (y 1).isLt
    omega
  · have e1 : (n + 1) / 25 = n / 25 := by omega
    have e2 : (n + 1) % 25 = n % 25 + 1 := by omega
    rw [e1, e2]
    exact h

/-- The first point's extra store makes slot 0 the first iterate: its premise. -/
theorem pre_init (c : Dev nD) (t : Fin cfg1.N) (h0 : t.val = 0) (d : Vec F S2x10000x16 .bf16) : Pre V c t.val (scrInit d (blkX V c t)) := by
  have ht : t = pt 0 0 := Fin.ext (by show t.val = (25 * 0 + 0) % 250; omega)
  unfold Pre
  rw [h0]
  refine ⟨fun y => ?_, fun y hy => absurd hy (by omega)⟩
  have hy0 := idx_unit0 y
  show scrInit d (blkX V c t) (slotIx (0 / 25) y) = Zs V c (0 / 25) y
  rw [show (0 / 25 : ℕ) = 0 from rfl, Zs_zero, ← ht]
  unfold scrInit
  exact View.read_writes_cons_unit_of_mem scM1.view (hscM1.unread d) inb_S2x10000x16_S1x10000x16_0_0_0 (k1_pay2 (View.ld (blkX V c t) r1_x2)) [] (slotIx 0 y) y rfl
    (fun a => by
      match a with
      | ⟨0, _⟩ => show (0 % 2 : ℕ) = 0 + (y 0).val; omega
      | ⟨1, _⟩ => show (y 1).val = 0 + (y 1).val; omega
      | ⟨2, _⟩ => show (y 2).val = 0 + (y 2).val; omega)

/-- The slot the body reads is the round's iterate. -/
theorem ld_slot_eq (c : Dev nD) (t : Fin cfg1.N) (z : Vec F S2x10000x16 .bf16) (h : Pre V c t.val z) :
    View.ld z (r1_slot (grid1.coords t)) = Zs V c (t.val / 25) := by
  funext y
  have hoff := k1_off1_eq (grid1.coords t)
  have hc := (coords_val t).1
  have hy0 := idx_unit0 y
  rw [← h.1 y]
  show z ((r1_slot (grid1.coords t)).idx y) = z (slotIx (t.val / 25) y)
  refine congrArg z (funext fun a => Fin.ext ?_)
  show k1_off1 (grid1.coords t) a + 1 * (y a).val = (slotIx (t.val / 25) y a).val
  rw [hoff]
  match a with
  | ⟨0, _⟩ => show (grid1.coords t 0).val % 2 + 1 * (y 0).val = (t.val / 25) % 2; omega
  | ⟨1, _⟩ => show 0 + 1 * (y 1).val = (y 1).val; omega
  | ⟨2, _⟩ => show 0 + 1 * (y 2).val = (y 2).val; omega

/-- The body's store adds the point's block to the rows of the next iterate present. -/
theorem post_step (c : Dev nD) (t : Fin cfg1.N) (z : Vec F S2x10000x16 .bf16) (h : Pre V c t.val z) :
    Post V c t.val (scrStep (grid1.coords t) z (blkA V c t) (blkX V c t)) := by
  have hN : t.val < 250 := lt_of_lt_of_eq t.isLt N1
  obtain ⟨hc0, hc1⟩ := coords_val t
  have hld := ld_slot_eq V c t z h
  refine ⟨fun y => ?_, fun y hy => ?_⟩
  · have e := scrStep_of_not_mem (grid1.coords t) z (blkA V c t) (blkX V c t) (slotIx (t.val / 25) y) ⟨0, by decide⟩
      (by show (t.val / 25) % 2 < ((grid1.coords t 0).val + 1) % 2 ∨ ((grid1.coords t 0).val + 1) % 2 + 1 ≤ (t.val / 25) % 2; omega)
    rw [e]; exact h.1 y
  · by_cases hlt : (y 1).val < 400 * (t.val % 25)
    · have e := scrStep_of_not_mem (grid1.coords t) z (blkA V c t) (blkX V c t) (slotIx (t.val / 25 + 1) y) ⟨1, by decide⟩
        (Or.inl (by show (y 1).val < 400 * (grid1.coords t 1).val; omega))
      rw [e]; exact h.2 y hlt
    · have hq : (y 1).val / 400 = t.val % 25 := by omega
      have e := scrStep_of_mem (grid1.coords t) z (blkA V c t) (blkX V c t) (slotIx (t.val / 25 + 1) y) (rowIx y)
        (fun a => by
          match a with
          | ⟨0, _⟩ => show (t.val / 25 + 1) % 2 = ((grid1.coords t 0).val + 1) % 2 + 0; omega
          | ⟨1, _⟩ => show (y 1).val = 400 * (grid1.coords t 1).val + (y 1).val % 400; omega
          | ⟨2, _⟩ => show (y 2).val = 0 + (y 2).val; omega)
      rw [e, Zs_succ, hq, pt_eq t]
      unfold newSlotRows
      rw [hld]

/-- The last round's output is the unrounded rows computed from the round's iterate. -/
theorem out_eq (c : Dev nD) (t : Fin cfg1.N) (z : Vec F S2x10000x16 .bf16) (h : Pre V c t.val z) :
    out1_2 (grid1.coords t) z (blkA V c t) (blkX V c t) = outAt V c t := by
  unfold out1_2 outAt newRows
  rw [ld_slot_eq V c t z h]

/-! ## The region's invariant -/

/-- The core's scoped buffers that the region does not stage, the scratch at contents `z`. -/
def scopedAt (c : Dev nD) (z : Vec F S2x10000x16 .bf16) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ owns (c : Thread nD τ) scM1 fullShare z)

theorem scoped_in (c : Dev nD) : (Pipeline.scopedRest (Ix := Unit) (Name := ℕ) (U := UR sig nD τ) (Lvl := ℕ) (Val := Elt F) spec1 c : sProp 𝕄) ⊢ iprop(∃ z, scopedAt c z) := by
  rw [scopedRest1_eq]; unfold scopedAt
  iintro ⟨H1, H2, H3, H4, H5, H6, H7, H8, ⟨%f, H9⟩⟩
  iexists f
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  rw [owns_whole]; iexact H9

theorem scoped_out (c : Dev nD) (z : Vec F S2x10000x16 .bf16) : scopedAt c z ⊢ (Pipeline.scopedRest (Ix := Unit) (Name := ℕ) (U := UR sig nD τ) (Lvl := ℕ) (Val := Elt F) spec1 c : sProp 𝕄) := by
  rw [scopedRest1_eq]; unfold scopedAt; rw [owns_whole]
  iintro ⟨H1, H2, H3, H4, H5, H6, H7, H8, H9⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; iexact H9

/-- The invariant before point `n`: the scratch at contents satisfying `Inv n`, the other scoped buffers at
    some contents, the generator register at some state. -/
def PhiS (c : Dev nD) (n : ℕ) : sProp 𝕄 :=
  iprop((∃ z, ⌜Inv V c n z⌝ ∗ scopedAt c z) ∗ ∃ r, prngReg c r)

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outAt V c t
  Φ t := PhiS V c t.val
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outAt V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the launch hands the region makes the invariant before the first point. -/
theorem hin1 (c : Dev nD) : iprop((∃ r, prngReg c r) ∗ (Pipeline.scopedRest (Ix := Unit) (Name := ℕ) (U := UR sig nD τ) (Lvl := ℕ) (Val := Elt F) spec1 c : sProp 𝕄)) ⊢ (dat1 V c).Φ 0 := by
  rw [show (dat1 V c).Φ 0 = PhiS V c 0 from rfl]; unfold PhiS
  iintro ⟨Hp, Hs⟩
  ihave Hs' := (scoped_in c) $$ Hs
  icases Hs' with ⟨%z, Hs'⟩
  isplitl [Hs']
  · iexists z; isplitr; · ipureintro; trivial
    iexact Hs'
  iexact Hp

/-- After the last point the invariant gives the scoped buffers and the register back. -/
theorem hout1 (c : Dev nD) : (dat1 V c).Φ (Fin.last cfg1.N) ⊢ iprop((∃ r, prngReg c r) ∗ (Pipeline.scopedRest (Ix := Unit) (Name := ℕ) (U := UR sig nD τ) (Lvl := ℕ) (Val := Elt F) spec1 c : sProp 𝕄)) := by
  rw [show (dat1 V c).Φ (Fin.last cfg1.N) = PhiS V c (Fin.last cfg1.N).val from rfl]; unfold PhiS
  iintro ⟨⟨%z, -, Hs⟩, Hp⟩
  isplitl [Hp]; · iexact Hp
  iapply (scoped_out c z); iexact Hs

end Cert.Kernel.Hand

end
-- ==== Proof.Kernel.PropagateBody.lean ====
/-
  The second region's kernel body run in each of the three cases the grid meets: a point that is neither the
  first nor in the last round; a point of the last round; the grid's first point.  In each case the body, given
  its three windows' staging buffers and the scratch at stated contents, runs to its end leaving the inputs'
  buffers as found, the scratch with the point's rows written (at the first point after the perceptron's output
  was stored into slot 0), and the output window's buffer as found, or in the last round at the unrounded rows.
-/
import proofs.«129323_g68204080660518_cont_9to1_m_598_3_alg».proof.Proof.Gen.Kernel.Launch
import proofs.«129323_g68204080660518_cont_9to1_m_598_3_alg».proof.Proof.Gen.Kernel.Skeleton
import proofs.«129323_g68204080660518_cont_9to1_m_598_3_alg».proof.Proof.Gen.Kernel.Points
import proofs.«129323_g68204080660518_cont_9to1_m_598_3_alg».proof.Proof.Kernel.PropagateDefs
import Idealize.ShloMosaic.Lib.Pipeline.FrameBody
import Idealize.ShloMosaic.Lib.WritesUnit
import Idealize.ShloMosaic.Lib.Ring
import Idealize.ShloMosaic.Lib.Tactic

-- membership in a rectangle of ten thousand rows: the structural recursion goes once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's triple, case by case -/

set_option maxHeartbeats 2000000 in
/-- A point that is neither the first nor in the last round: the inputs' buffers and the output window's are handed back as found, the scratch with the point's rows written. -/
theorem sound_kernel1_mid (c : Dev nD) (E : Set ℕ) (i : grid1.Coords) (arg2 : Memref sig .tc .vmem S400x10000 .bf16) (harg2 : arg2.IsWhole)
    (arg3 : Memref sig .tc .vmem S10000x16 .f32) (harg3 : arg3.IsWhole) (arg4 : Memref sig .tc .vmem S400x16 .f32) (harg4 : arg4.IsWhole)
    (hc0 : ¬cond1_0 i) (hc1 : ¬cond1_1 i)
    (x0 : Vec F S400x10000 .bf16) (x1 : Vec F S10000x16 .f32) (xi : Vec F S400x16 .f32) (zs : Vec F S2x10000x16 .bf16)
    (K : PUnit → sProp 𝕄) :
    iprop(owns (c : Thread nD τ) arg2 fullShare x0 ∗ owns (c : Thread nD τ) arg3 fullShare x1 ∗ owns (c : Thread nD τ) arg4 fullShare xi
        ∗ owns (c : Thread nD τ) scM1 fullShare zs
        ∗ (iprop(owns (c : Thread nD τ) arg2 fullShare x0 ∗ owns (c : Thread nD τ) arg3 fullShare x1 ∗ owns (c : Thread nD τ) arg4 fullShare xi
            ∗ owns (c : Thread nD τ) scM1 fullShare (scrStep i zs x0 x1)) -∗ K ⟨⟩))
      ⊢ wp frame (wpE (defs₀ (F := F)) Variants.none c none) E (cc1__prop_kernel i arg2 harg2 arg3 harg3 arg4 harg4 scM1 hscM1) K := by
  simp only [cc1__prop_kernel_eq_skeleton]; unfold cc1__prop_kernel_skel
  simp only [k1_part1_eq_skeleton]
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2
  obtain rfl := hscM1.eq_unread hfs
  sl_exec (disch := first | exact hc0 | exact hc1)
  sl_step
  sl_unfold_run_names
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  have hz : View.read (Elt F) (View.whole cc1_scratch0) (hscM1.unread zs) = zs := hscM1.read_unread zs
  simp only [View.readAt_eq_ld, Memref.IsWhole.read_unread, hz]
  rfl

set_option maxHeartbeats 2000000 in
/-- A point of the last round (never the first point): as before, and the output window's buffer is left at the unrounded new rows. -/
theorem sound_kernel1_last (c : Dev nD) (E : Set ℕ) (i : grid1.Coords) (arg2 : Memref sig .tc .vmem S400x10000 .bf16) (harg2 : arg2.IsWhole)
    (arg3 : Memref sig .tc .vmem S10000x16 .f32) (harg3 : arg3.IsWhole) (arg4 : Memref sig .tc .vmem S400x16 .f32) (harg4 : arg4.IsWhole)
    (hc0 : ¬cond1_0 i) (hc1 : cond1_1 i)
    (x0 : Vec F S400x10000 .bf16) (x1 : Vec F S10000x16 .f32) (xi : Vec F S400x16 .f32) (zs : Vec F S2x10000x16 .bf16)
    (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) scM1 fullShare zs
        ∗ (iprop(owns (c : Thread nD τ) arg2 fullShare x0 ∗ owns (c : Thread nD τ) arg3 fullShare x1 ∗ owns (c : Thread nD τ) arg4 fullShare (out1_2 i zs x0 x1)
            ∗ owns (c : Thread nD τ) scM1 fullShare (scrStep i zs x0 x1)) -∗ K ⟨⟩))
      ⊢ wp frame (wpE (defs₀ (F := F)) Variants.none c none) E (cc1__prop_kernel i arg2 harg2 arg3 harg3 arg4 harg4 scM1 hscM1) K := by
  simp only [cc1__prop_kernel_eq_skeleton]; unfold cc1__prop_kernel_skel
  simp only [k1_part1_eq_skeleton]
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1
  obtain rfl := hscM1.eq_unread hfs
  sl_exec (disch := first | exact hc0 | exact hc1)
  sl_step
  sl_unfold_run_names
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    have hz : View.read (Elt F) (View.whole cc1_scratch0) (hscM1.unread zs) = zs := hscM1.read_unread zs
    simp only [View.readAt_eq_ld, Memref.IsWhole.read_unread, hz]
    exact View.read_writes_eq_canon _ _ _ (cover1_2 _)
  iexists _; isplitr
  swap; · iexact HS
  ipureintro
  have hz : View.read (Elt F) (View.whole cc1_scratch0) (hscM1.unread zs) = zs := hscM1.read_unread zs
  simp only [View.readAt_eq_ld, Memref.IsWhole.read_unread, hz]
  rfl

set_option maxHeartbeats 2000000 in
/-- The grid's first point: the perceptron's output goes into slot 0 first, then the ordinary step runs on the scratch so filled. -/
theorem sound_kernel1_first (c : Dev nD) (E : Set ℕ) (i : grid1.Coords) (arg2 : Memref sig .tc .vmem S400x10000 .bf16) (harg2 : arg2.IsWhole)
    (arg3 : Memref sig .tc .vmem S10000x16 .f32) (harg3 : arg3.IsWhole) (arg4 : Memref sig .tc .vmem S400x16 .f32) (harg4 : arg4.IsWhole)
    (hi0 : (i 0).val = 0) (hi1 : (i 1).val = 0) (hc0 : cond1_0 i) (hc1 : ¬cond1_1 i)
    (x0 : Vec F S400x10000 .bf16) (x1 : Vec F S10000x16 .f32) (xi : Vec F S400x16 .f32) (zs : Vec F S2x10000x16 .bf16)
    (K : PUnit → sProp 𝕄) :
    iprop(owns (c : Thread nD τ) arg2 fullShare x0 ∗ owns (c : Thread nD τ) arg3 fullShare x1 ∗ owns (c : Thread nD τ) arg4 fullShare xi
        ∗ owns (c : Thread nD τ) scM1 fullShare zs
        ∗ (iprop(owns (c : Thread nD τ) arg2 fullShare x0 ∗ owns (c : Thread nD τ) arg3 fullShare x1 ∗ owns (c : Thread nD τ) arg4 fullShare xi
            ∗ owns (c : Thread nD τ) scM1 fullShare (scrStep i (scrInit zs x1) x0 x1)) -∗ K ⟨⟩))
      ⊢ wp frame (wpE (defs₀ (F := F)) Variants.none c none) E (cc1__prop_kernel i arg2 harg2 arg3 harg3 arg4 harg4 scM1 hscM1) K := by
  simp only [cc1__prop_kernel_eq_skeleton]; unfold cc1__prop_kernel_skel
  simp only [k1_part1_eq_skeleton]
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2
  obtain rfl := hscM1.eq_unread hfs
  sl_exec (disch := first | exact hc0 | exact hc1)
  sl_step
  sl_unfold_run_names
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  simp only [View.readAt_eq_ld, Memref.IsWhole.read_unread]
  exact scrStep_scrInit i zs x0 x1

end Cert.Kernel.Hand

end
-- ==== Proof.Kernel.PropagateObligation.lean ====
/-
  The second region's body obligation: at every point, from the invariant before it and the windows' staging
  buffers at what they then hold, the body runs to the invariant after it and the buffers at what the proof data
  say it leaves.  By cases on the point — the first, one of the last round, any other — each case the body's
  triple of that case; what the scratch then holds satisfies the next point's invariant because the slot read is
  the round's iterate and the rows written are the point's rows of the next.
-/
import proofs.«129323_g68204080660518_cont_9to1_m_598_3_alg».proof.Proof.Gen.Kernel.Launch
import proofs.«129323_g68204080660518_cont_9to1_m_598_3_alg».proof.Proof.Gen.Kernel.Skeleton
import proofs.«129323_g68204080660518_cont_9to1_m_598_3_alg».proof.Proof.Gen.Kernel.Points
import proofs.«129323_g68204080660518_cont_9to1_m_598_3_alg».proof.Proof.Kernel.PropagateBody
import proofs.«129323_g68204080660518_cont_9to1_m_598_3_alg».proof.Proof.Kernel.PropagateData
import Idealize.ShloMosaic.Lib.Pipeline.FrameBody
import Idealize.ShloMosaic.Lib.WritesUnit
import Idealize.ShloMosaic.Lib.Ring
import Idealize.ShloMosaic.Lib.Tactic

-- membership in a rectangle of ten thousand rows: the structural recursion goes once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The invariant at a point's start, restated at the point's number. -/
theorem PhiS_castSucc (c : Dev nD) (t : Fin cfg1.N) : (dat1 V c).Φ t.castSucc = PhiS V c t.val := by
  dsimp only [dat1]; simp only [Fin.coe_castSucc]

/-- After the first point the invariant is what the point before established, which is the point's premise. -/
theorem pre_of_inv (c : Dev nD) (n : ℕ) (z : Vec F S2x10000x16 .bf16) (hn : n ≠ 0) (h : Inv V c n z) : Pre V c n z := by
  cases n with
  | zero => exact absurd rfl hn
  | succ n => exact pre_of_post V c n z h

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) from rfl]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  have hN : t.val < 250 := lt_of_lt_of_eq t.isLt N1
  unfold PhiS scopedAt
  by_cases h0 : t.val = 0
  · have h9 : ¬ 225 ≤ t.val := by omega
    rw [Dat.leavesExact_idle (dat1 V c) 2 t (idleAt1_2 t (by omega)) (noFlush1_2 t (by omega))]
    rw [PhiS_castSucc V c t]; unfold PhiS scopedAt
    iintro ⟨⟨⟨%z, -, S1, S2, S3, S4, S5, S6, S7, S8, HS⟩, Hp⟩, Ho, ⟨%d0, H0⟩, ⟨%d1, H1⟩, ⟨%d2, H2⟩⟩
    iapply (sound_kernel1_first c Set.univ (grid1.coords t) _ _ _ _ _ _ (by rw [(coords_val t).1, h0]) (by rw [(coords_val t).2, h0]) ((hcond1_0 t).mpr h0) (fun h => absurd ((hcond1_1 t).mp h) (by omega)) (iblk1 V c 0 t) (iblk1 V c 1 t) ((dat1 V c).before 2 t d2) z _)
    isplitl [H0]; · iexact H0
    isplitl [H1]; · iexact H1
    isplitl [H2]; · iexact H2
    isplitl [HS]; · iexact HS
    iintro ⟨H0, H1, H2, HS⟩
    isplitl [S1 S2 S3 S4 S5 S6 S7 S8 HS Hp]
    · isplitl [S1 S2 S3 S4 S5 S6 S7 S8 HS]
      · iexists (scrStep (grid1.coords t) (scrInit z (iblk1 V c 1 t)) (iblk1 V c 0 t) (iblk1 V c 1 t)); isplitr
        · ipureintro; rw [Inv_succ]; exact post_step V c t _ (pre_init V c t h0 z)
        isplitl [S1]; · iexact S1
        isplitl [S2]; · iexact S2
        isplitl [S3]; · iexact S3
        isplitl [S4]; · iexact S4
        isplitl [S5]; · iexact S5
        isplitl [S6]; · iexact S6
        isplitl [S7]; · iexact S7
        isplitl [S8]; · iexact S8
        iexact HS
      iexact Hp
    isplitl [Ho]; · iexact Ho
    isplitl [H0]; · iexact H0
    isplitl [H1]; · iexact H1
    iexists _; iexact H2
  · by_cases h9 : 225 ≤ t.val
    ·
      rw [show (dat1 V c).leavesExact 2 t = owns (c : Thread nD τ) (st1_2 t) fullShare ((dat1 V c).after 2 t) from by
        unfold Dat.leavesExact; rw [liveAt1_2 t h9], after1_2]
      rw [PhiS_castSucc V c t]; unfold PhiS scopedAt
      iintro ⟨⟨⟨%z, %hz, S1, S2, S3, S4, S5, S6, S7, S8, HS⟩, Hp⟩, Ho, ⟨%d0, H0⟩, ⟨%d1, H1⟩, ⟨%d2, H2⟩⟩
      have hpre : Pre V c t.val z := pre_of_inv V c t.val z h0 hz
      iapply (sound_kernel1_last c Set.univ (grid1.coords t) _ _ _ _ _ _ (fun h => h0 ((hcond1_0 t).mp h)) ((hcond1_1 t).mpr h9) (iblk1 V c 0 t) (iblk1 V c 1 t) ((dat1 V c).before 2 t d2) z _)
      isplitl [H0]; · iexact H0
      isplitl [H1]; · iexact H1
      isplitl [H2]; · iexists _; iexact H2
      isplitl [HS]; · iexact HS
      iintro ⟨H0, H1, H2, HS⟩
      isplitl [S1 S2 S3 S4 S5 S6 S7 S8 HS Hp]
      · isplitl [S1 S2 S3 S4 S5 S6 S7 S8 HS]
        · iexists (scrStep (grid1.coords t) z (iblk1 V c 0 t) (iblk1 V c 1 t)); isplitr
          · ipureintro; rw [Inv_succ]; exact post_step V c t z hpre
          isplitl [S1]; · iexact S1
          isplitl [S2]; · iexact S2
          isplitl [S3]; · iexact S3
          isplitl [S4]; · iexact S4
          isplitl [S5]; · iexact S5
          isplitl [S6]; · iexact S6
          isplitl [S7]; · iexact S7
          isplitl [S8]; · iexact S8
          iexact HS
        iexact Hp
      isplitl [Ho]; · iexact Ho
      isplitl [H0]; · iexact H0
      isplitl [H1]; · iexact H1
      rw [← out_eq V c t z hpre]; iexact H2
    ·
      rw [Dat.leavesExact_idle (dat1 V c) 2 t (idleAt1_2 t (by omega)) (noFlush1_2 t (by omega))]
      rw [PhiS_castSucc V c t]; unfold PhiS scopedAt
      iintro ⟨⟨⟨%z, %hz, S1, S2, S3, S4, S5, S6, S7, S8, HS⟩, Hp⟩, Ho, ⟨%d0, H0⟩, ⟨%d1, H1⟩, ⟨%d2, H2⟩⟩
      have hpre : Pre V c t.val z := pre_of_inv V c t.val z h0 hz
      iapply (sound_kernel1_mid c Set.univ (grid1.coords t) _ _ _ _ _ _ (fun h => h0 ((hcond1_0 t).mp h)) (fun h => h9 ((hcond1_1 t).mp h)) (iblk1 V c 0 t) (iblk1 V c 1 t) ((dat1 V c).before 2 t d2) z _)
      isplitl [H0]; · iexact H0
      isplitl [H1]; · iexact H1
      isplitl [H2]; · iexact H2
      isplitl [HS]; · iexact HS
      iintro ⟨H0, H1, H2, HS⟩
      isplitl [S1 S2 S3 S4 S5 S6 S7 S8 HS Hp]
      · isplitl [S1 S2 S3 S4 S5 S6 S7 S8 HS]
        · iexists (scrStep (grid1.coords t) z (iblk1 V c 0 t) (iblk1 V c 1 t)); isplitr
          · ipureintro; rw [Inv_succ]; exact post_step V c t z hpre
          isplitl [S1]; · iexact S1
          isplitl [S2]; · iexact S2
          isplitl [S3]; · iexact S3
          isplitl [S4]; · iexact S4
          isplitl [S5]; · iexact S5
          isplitl [S6]; · iexact S6
          isplitl [S7]; · iexact S7
          isplitl [S8]; · iexact S8
          iexact HS
        iexact Hp
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Kernel.Run.lean ====
/-
  The run of the whole program: a stretch of three host operations, then the perceptron's pipeline, then the
  propagation's pipeline, composed into one statement about every weakly fair execution.

  The buffer contents at the four boundaries.  W0 is the launch memory.  W1 is W0 after the host stretch, which
  rounds the adjacency into a new buffer and lays each bias out as a row; it writes those three buffers and no
  other.  W2 is W1 with the first pipeline's six arrays at what that pipeline leaves: its five inputs as it found
  them, its output at the write-backs of all ten points.  W3 is W2 with the second pipeline's three arrays at what
  that pipeline leaves: its two inputs as found, its output at the write-backs of all its points.  Every buffer that
  is no array of a pipeline passes that pipeline untouched.

  Each pipeline is entered by splitting its arrays out of the core's unscoped buffers and is left by putting them
  back at their final contents.  The first pipeline's invariant holds nothing of its own: the generator register
  goes in and comes out.  The second pipeline's invariant carries the scratch between points; it is entered from
  the generator register and the scoped buffers no window stages, and gives both back at the end.

  From the last boundary the statements follow by reading: an argument is never written (by the host stretch it is
  no result, in a pipeline it is an input or no array at all), so it ends as launched; the result is the second
  pipeline's output array.
-/
import proofs.«129323_g68204080660518_cont_9to1_m_598_3_alg».proof.Proof.Gen.Kernel.Launch
import proofs.«129323_g68204080660518_cont_9to1_m_598_3_alg».proof.Proof.Kernel.Mlp
import proofs.«129323_g68204080660518_cont_9to1_m_598_3_alg».proof.Proof.Kernel.PropagateData
import proofs.«129323_g68204080660518_cont_9to1_m_598_3_alg».proof.Proof.Kernel.PropagateObligation
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of ten thousand rows: the structural recursion goes once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host stretch: the first pipeline's entry. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the first pipeline's exit, which is the second's entry: its arrays at what it leaves, every other buffer as
    entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second pipeline's exit, the last boundary: its arrays at what it leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### What the host stretch leaves alone, and the arguments at the last boundary -/

/-- The host stretch writes three buffers only — the rounded adjacency and the two biases as rows — so any other
    buffer holds after it what it held at launch. -/
theorem W1_of_ne (c : Dev nD) (b : Ref sig .tc) (h0 : b ≠ main_v0) (h1 : b ≠ main_v1) (h2 : b ≠ main_v2) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1, StableHlo.devRef_ne_of_ne h2⟩))

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of_ne m ρ c main_arg0 (by decide) (by decide) (by decide)
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := W1_of_ne m ρ c main_arg1 (by decide) (by decide) (by decide)
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := W1_of_ne m ρ c main_arg2 (by decide) (by decide) (by decide)
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_of_ne m ρ c main_arg3 (by decide) (by decide) (by decide)
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := (W2_arr m ρ c 3).trans (((dat0 (V1 m ρ) c).arrAt_in 3 rfl _).trans (A_eq0 (V1 m ρ) c 3))
    _ = W0 m ρ c (Proc.devRef .tc main_arg4) := W1_of_ne m ρ c main_arg4 (by decide) (by decide) (by decide)
    _ = m ((c : Thread nD τ).loc main_arg4) := rfl
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := W1_of_ne m ρ c main_arg5 (by decide) (by decide) (by decide)
    _ = m ((c : Thread nD τ).loc main_arg5) := rfl

/-! ## The proof data family and the thread state -/

/-- The prefetched tables' admissible contents: no pipeline has a table. -/
abbrev adm : (p : Fin 2) → (pcfgs (F := F) p).Adm := fun p => (cfgs p).toPCfg_adm
/-- Both pipelines' proof data, each at its own entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state, and the core
    owing nothing. -/
abbrev R (c : Dev nD) : sProp 𝕄 := iprop((∃ r, prngReg c r) ∗ ∃ W, owes (c : Thread nD τ) (0 : CellTallies nD τ sig Unit) W)
/-- A host stretch as a segment over the unscoped buffers held at `W`: it runs to those buffers at the stretch's
    result from `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the host stretch allocates a buffer. -/
theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W3 m ρ c) ∗ ∃ r, prngReg c r)

/-! ## The two pipelines as segments -/

set_option backward.isDefEq.respectTransparency.types false in
/-- The perceptron's pipeline over the thread state: entered from every unscoped buffer at `W1`, left at `W2`.  Its
    arrays are split out of the unscoped buffers and put back at the exit contents; the generator register goes into
    its invariant and comes out; nothing is owed; it has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The propagation's pipeline over the thread state: entered from every unscoped buffer at `W2`, left at `W3`.  Its
    arrays are split out and put back as above.  Its invariant at the first point is made from the generator register
    and the scoped buffers no window stages, and at the last point gives both back; nothing is owed; it has no
    semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show _ ⊢ (pdats m ρ 1 c).Φ 0 from hin1 (V2 m ρ) c)
    iintro ⟨Hp, -, Hr⟩
    isplitl [Hp]; · iexact Hp
    iexact Hr
  hout c := by
    rw [Pipeline.ownSems0_none]
    refine BIBase.Entails.trans (show (pdats m ρ 1 c).Φ (Fin.last _) ⊢ _ from hout1 (V2 m ρ) c) ?_
    iintro ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's three segments in order: the host stretch from the launch contents, then the two pipelines. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- The program is the run of its segments. -/
theorem main_run (c : Dev nD) : main (F := F) c = Pipeline.Seg.run (segs m ρ) := (main_chain c).trans (by chain_rfl)

set_option backward.isDefEq.respectTransparency.types false in
/-- THE RUN, with everything kept: from any memory with zero counters, every weakly fair execution of the program on
    the TensorCores terminates, nothing faulting, and in every final state each unscoped buffer of each core holds
    the last boundary's contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- THE FRAME: the program runs, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W3_main_arg0 m ρ c),
      (h c _ (mem_uc main_arg1 (by decide))).trans (W3_main_arg1 m ρ c),
      (h c _ (mem_uc main_arg2 (by decide))).trans (W3_main_arg2 m ρ c),
      (h c _ (mem_uc main_arg3 (by decide))).trans (W3_main_arg3 m ρ c),
      (h c _ (mem_uc main_arg4 (by decide))).trans (W3_main_arg4 m ρ c),
      (h c _ (mem_uc main_arg5 (by decide))).trans (W3_main_arg5 m ρ c)⟩) (run_all m ρ)

/-- THE RUN WITH ITS RESULT: the result buffer ends at the second pipeline's output array, and every argument array
    ends as launched. -/
theorem run_value : θ_run defs (onTc (τ := τ) (main (F := F))) ⟨m, fun _ => 0, ρ⟩ (fun r => ∀ c : Dev nD,
      r.2.mem ((c.tc : Thread nD τ).loc main_v4) = (dat1 (V2 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v4 (by decide))).trans (W3_arr m ρ c 2),
      (h c _ (mem_uc main_arg0 (by decide))).trans (W3_main_arg0 m ρ c),
      (h c _ (mem_uc main_arg1 (by decide))).trans (W3_main_arg1 m ρ c),
      (h c _ (mem_uc main_arg2 (by decide))).trans (W3_main_arg2 m ρ c),
      (h c _ (mem_uc main_arg3 (by decide))).trans (W3_main_arg3 m ρ c),
      (h c _ (mem_uc main_arg4 (by decide))).trans (W3_main_arg4 m ρ c),
      (h c _ (mem_uc main_arg5 (by decide))).trans (W3_main_arg5 m ρ c)⟩) (run_all m ρ)

/-! ## What the pipelines are entered with, in terms of the launch memory -/

/-- The first pipeline finds the features, and both weight arrays, as launched. -/
theorem V1_main_arg0 (c : Dev nD) : V1 m ρ c main_arg0 = m ((c : Thread nD τ).loc main_arg0) :=
  W1_of_ne m ρ c main_arg0 (by decide) (by decide) (by decide)
theorem V1_main_arg2 (c : Dev nD) : V1 m ρ c main_arg2 = m ((c : Thread nD τ).loc main_arg2) :=
  W1_of_ne m ρ c main_arg2 (by decide) (by decide) (by decide)
theorem V1_main_arg4 (c : Dev nD) : V1 m ρ c main_arg4 = m ((c : Thread nD τ).loc main_arg4) :=
  W1_of_ne m ρ c main_arg4 (by decide) (by decide) (by decide)
/-- It finds the first bias laid out as a row, -/
theorem V1_main_v1 (c : Dev nD) :
    V1 m ρ c main_v1 = shapeCast S1x256 (m ((c : Thread nD τ).loc main_arg3)) shapeCasts_S256_S1x256 := by
  show StableHlo.after hostOps0 (W0 m ρ c) (Proc.devRef .tc main_v1) = _
  after_results; rfl
/-- and the second likewise. -/
theorem V1_main_v2 (c : Dev nD) :
    V1 m ρ c main_v2 = shapeCast S1x16 (m ((c : Thread nD τ).loc main_arg5)) shapeCasts_S16_S1x16 := by
  show StableHlo.after hostOps0 (W0 m ρ c) (Proc.devRef .tc main_v2) = _
  after_results; rfl
/-- The second pipeline finds the adjacency rounded to the narrower format (the first pipeline does not touch it), -/
theorem V2_main_v0 (c : Dev nD) :
    V2 m ρ c main_v0 = (truncf .bf16 · bitsLt_bf16_f32) (m ((c : Thread nD τ).loc main_arg1)) := by
  refine (W2_of_ne m ρ c main_v0 (by decide)).trans ?_
  show StableHlo.after hostOps0 (W0 m ρ c) (Proc.devRef .tc main_v0) = _
  after_results
/-- and the perceptron's output as the first pipeline left it. -/
theorem V2_main_v3 (c : Dev nD) : V2 m ρ c main_v3 = (dat0 (V1 m ρ) c).arrAt 5 cfg0.N := W2_arr m ρ c 5

end Cert.Kernel.Hand

end
-- ==== Proof.KernelIdeal.Mlp.lean ====
/-
  The first region of the program: the two-layer perceptron as a pipeline over ten blocks of a thousand rows.

  Five windows are read — the features (a block of a thousand rows per point), the first layer's weights, its
  bias as a row, the second layer's weights, its bias as a row (each of the last four one block, the same at
  every point) — and one is written: the perceptron's output, a block of a thousand rows per point.  The body
  loads each of the five staging buffers whole, computes, and stores one whole rectangle into the sixth.

  This file states, at any float model and for any contents V of the core's buffers at the region's entry:
  each window's block at a point as a read of its array; that an input's staging buffer holds that block at
  every point, whether or not it was transferred there (an input whose block index is constant is transferred
  at the first point only, and its buffer is not written afterwards); what the body leaves in the output's
  staging buffer, as a function of the five input blocks; the body's triple; the proof data of the pipeline;
  and the pipeline's body obligation at every point.
-/
import proofs.«129323_g68204080660518_cont_9to1_m_598_3_alg».proof.Proof.Gen.KernelIdeal.Launch
import proofs.«129323_g68204080660518_cont_9to1_m_598_3_alg».proof.Proof.Gen.KernelIdeal.Skeleton
import proofs.«129323_g68204080660518_cont_9to1_m_598_3_alg».proof.Proof.Gen.KernelIdeal.Points
import Idealize.ShloMosaic.Lib.Pipeline.FrameBody
import Idealize.ShloMosaic.Lib.Ring
import Idealize.ShloMosaic.Lib.Tactic

-- membership in a rectangle of a thousand rows: the structural recursion goes once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter everything below is stated at
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is the
    entry contents and whose body leaves the block in place: where the window is not transferred its block index
    has not moved, so the block already there is this point's. The window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same of input window 1, whose one block is transferred at the first point only. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The same of input window 2. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- The same of input window 3. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- The same of input window 4. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each the whole of its buffer -/

abbrev r0_0 : Rect S1000x512 := Rect.unit (s := S1000x512) ![0, 0] S1000x512.size inb_S1000x512_S1000x512_0_0
abbrev r0_1 : Rect S512x256 := Rect.unit (s := S512x256) ![0, 0] S512x256.size inb_S512x256_S512x256_0_0
abbrev r0_2 : Rect S1x256 := Rect.unit (s := S1x256) ![0, 0] S1x256.size inb_S1x256_S1x256_0_0
abbrev r0_3 : Rect S256x16 := Rect.unit (s := S256x16) ![0, 0] S256x16.size inb_S256x16_S256x16_0_0
abbrev r0_4 : Rect S1x16 := Rect.unit (s := S1x16) ![0, 0] S1x16.size inb_S1x16_S1x16_0_0
abbrev r0_5 : Rect S1000x16 := Rect.unit (s := S1000x16) ![0, 0] S1000x16.size inb_S1000x16_S1000x16_0_0

/-! ## What the body leaves in the output window's buffer -/

/-- Window 5's staging buffer after the body, from the five input blocks: its one store, whose payload is the
    body's arithmetic over the five loads. -/
def out0_5 (x0 : Vec F S1000x512 .f32) (x1 : Vec F S512x256 .f32) (x2 : Vec F S1x256 .f32) (x3 : Vec F S256x16 .f32) (x4 : Vec F S1x16 .f32) : Vec F S1000x16 .f32 :=
  View.canon [⟨r0_5, k0_pay1 (View.ld x0 r0_0) (View.ld x1 r0_1) (View.ld x2 r0_2) (View.ld x3 r0_3) (View.ld x4 r0_4)⟩]

/-- The one store is the whole buffer, so it covers it. -/
theorem cover0_5 (p0 : Vec F S1000x16 .f32) (y : S1000x16.Idx) :
    ∃ pc ∈ ([⟨r0_5, p0⟩] : List (View.Piece (Elt F) S1000x16 .f32)), y ∈ pc.1.set :=
  View.cover_of_tiled [⟨r0_5, p0⟩] S1000x16.size (by rfl) y

/-! ## The body's triple -/

set_option maxHeartbeats 1000000 in
/-- The body on whole staging memrefs, the inputs' at read contents `x0 … x4` and the output's at anything, runs to
    the continuation holding the inputs' as they were and the output's at `out0_5` of the inputs'. -/
theorem sound_kernel0 (c : Dev nD) (E : Set ℕ) (i : grid0.Coords)
    (arg1 : Memref sig .tc .vmem S1000x512 .f32) (harg1 : arg1.IsWhole) (arg2 : Memref sig .tc .vmem S512x256 .f32) (harg2 : arg2.IsWhole)
    (arg3 : Memref sig .tc .vmem S1x256 .f32) (harg3 : arg3.IsWhole) (arg4 : Memref sig .tc .vmem S256x16 .f32) (harg4 : arg4.IsWhole)
    (arg5 : Memref sig .tc .vmem S1x16 .f32) (harg5 : arg5.IsWhole) (arg6 : Memref sig .tc .vmem S1000x16 .f32) (harg6 : arg6.IsWhole)
    (x0 : Vec F S1000x512 .f32) (x1 : Vec F S512x256 .f32) (x2 : Vec F S1x256 .f32) (x3 : Vec F S256x16 .f32) (x4 : Vec F S1x16 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of the pipeline on core `c`: the arrays as the region finds them; after the body at point `t`
    each input's buffer at its block and the output's at `out0_5` of the five input blocks; the invariant that of a
    body keeping nothing of its own (the scoped rest and the generator register, untouched); nothing owed; full
    shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The proof data's arrays are the entry contents (the definition projected). -/
theorem A_eq0 (c : Dev nD) (w : Fin cfg0.W) : (dat0 V c).A w = V c (Pipeline.arrRef spec0 w) := by
  dsimp only [dat0]

/-- What the body leaves, window by window (the definition's case split reduced at each literal window). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

/-- Each input's current staging buffer holds its block at every point, transferred there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdeal.PropagateDefs.lean ====
/-
  The second region's kernel body, its accesses and what they read and leave: one row block of one propagation round.

  The kernel keeps the current iterate in a scratch buffer of two slots of 10000 × 16.  At a point (round k, row
  block r) it reads slot k mod 2 whole, multiplies the point's 400 × 10000 block of the adjacency into it,
  adds the weighted teleport term from rows 400 r … 400 r + 399 of the perceptron's output, and stores the 400
  new rows into rows 400 r … of slot (k + 1) mod 2; at the very first point it first stores the perceptron's
  output into slot 0, and in the last round it also stores the unrounded 400 rows into its output window.

  This file states, at any float model: the two conditions as predicates of the grid coordinates; the three
  offset computations in closed form; what the three loads read and what the stores leave in the scratch, as
  functions of the buffers' contents.
-/
import proofs.«129323_g68204080660518_cont_9to1_m_598_3_alg».proof.Proof.Gen.KernelIdeal.Launch
import proofs.«129323_g68204080660518_cont_9to1_m_598_3_alg».proof.Proof.Gen.KernelIdeal.Skeleton
import proofs.«129323_g68204080660518_cont_9to1_m_598_3_alg».proof.Proof.Gen.KernelIdeal.Points
import Idealize.ShloMosaic.Lib.Pipeline.FrameBody
import Idealize.ShloMosaic.Lib.WritesUnit
import Idealize.ShloMosaic.Lib.Ring
import Idealize.ShloMosaic.Lib.Tactic

-- membership in a rectangle of ten thousand rows: the structural recursion goes once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions and offsets, from the grid coordinates -/

/-- The first `scf.if`: the point is the grid's first (round 0, row block 0). -/
abbrev cond1_0 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The second `scf.if`: the round is the last. -/
abbrev cond1_1 (i : grid1.Coords) : Prop := k1_cond2 i = 1#1

/-- The slot the round reads: the round's parity. -/
theorem k1_off1_eq : ∀ i : grid1.Coords, k1_off1 i = ![(i 0).val % 2, 0, 0] := by decide +kernel
instance closedOff_k1_off1 (i : grid1.Coords) : ClosedOff (k1_off1 i) := ⟨![(i 0).val % 2, 0, 0], k1_off1_eq i⟩
/-- The rows of the teleport term the point reads: its row block. -/
theorem k1_off2_eq : ∀ i : grid1.Coords, k1_off2 i = ![400 * (i 1).val, 0] := by decide +kernel
instance closedOff_k1_off2 (i : grid1.Coords) : ClosedOff (k1_off2 i) := ⟨![400 * (i 1).val, 0], k1_off2_eq i⟩
/-- Where the point writes: the other slot, its row block. -/
theorem k1_off3_eq : ∀ i : grid1.Coords, k1_off3 i = ![((i 0).val + 1) % 2, 400 * (i 1).val, 0] := by decide +kernel
instance closedOff_k1_off3 (i : grid1.Coords) : ClosedOff (k1_off3 i) := ⟨![((i 0).val + 1) % 2, 400 * (i 1).val, 0], k1_off3_eq i⟩

/-- The scratch operand: two slots of 10000 × 16, a whole scoped buffer of the kernel's own. -/
abbrev scM1 : Memref sig .tc .vmem S2x10000x16 .bf16 := Memref.whole cc1_scratch0

abbrev hscM1 : (scM1 : Memref sig .tc .vmem S2x10000x16 .bf16).IsWhole := Memref.isWhole_whole _

/-! ## The body's accesses -/

/-- The slot the round reads, whole. -/
abbrev r1_slot (i : grid1.Coords) : Rect S2x10000x16 := Rect.unit (s := S2x10000x16) (k1_off1 i) S1x10000x16.size (k1_off1_inb i)
/-- The point's 400 rows of the teleport term. -/
abbrev r1_rows (i : grid1.Coords) : Rect S10000x16 := Rect.unit (s := S10000x16) (k1_off2 i) S400x16.size (k1_off2_inb i)
/-- The point's 400 rows of the slot the round writes. -/
abbrev r1_dst (i : grid1.Coords) : Rect S2x10000x16 := Rect.unit (s := S2x10000x16) (k1_off3 i) S1x400x16.size (k1_off3_inb i)
/-- Slot 0, whole. -/
abbrev r1_slot0 : Rect S2x10000x16 := Rect.unit (s := S2x10000x16) ![0, 0, 0] S1x10000x16.size inb_S2x10000x16_S1x10000x16_0_0_0
abbrev r1_adj : Rect S400x10000 := Rect.unit (s := S400x10000) ![0, 0] S400x10000.size inb_S400x10000_S400x10000_0_0
abbrev r1_x2 : Rect S10000x16 := Rect.unit (s := S10000x16) ![0, 0] S10000x16.size inb_S10000x16_S10000x16_0_0
abbrev r1_out : Rect S400x16 := Rect.unit (s := S400x16) ![0, 0] S400x16.size inb_S400x16_S400x16_0_0

/-- The new 400 rows before rounding, from the slot read `zslot`, the adjacency block `x0` and the perceptron's output `x1`. -/
def newRowsOf (i : grid1.Coords) (zslot : Vec F S1x10000x16 .bf16) (x0 : Vec F S400x10000 .bf16) (x1 : Vec F S10000x16 .f32) : FVec F S400x16 .f32 :=
  k1_pay3 zslot (View.ld x0 r1_adj) (View.ld x1 (r1_rows i))

/-- The same rounded, as the rows of one slot. -/
def newSlotRowsOf (i : grid1.Coords) (zslot : Vec F S1x10000x16 .bf16) (x0 : Vec F S400x10000 .bf16) (x1 : Vec F S10000x16 .f32) : FVec F S1x400x16 .bf16 :=
  k1_pay1 (k1_pay4 zslot (View.ld x0 r1_adj) (View.ld x1 (r1_rows i)))

/-- The new 400 rows before rounding, from the scratch's contents `zs`, the adjacency block `x0` and the
    perceptron's output `x1`. -/
def newRows (i : grid1.Coords) (zs : Vec F S2x10000x16 .bf16) (x0 : Vec F S400x10000 .bf16) (x1 : Vec F S10000x16 .f32) : FVec F S400x16 .f32 :=
  newRowsOf i (View.ld zs (r1_slot i)) x0 x1

/-- The same rounded, as the rows of one slot. -/
def newSlotRows (i : grid1.Coords) (zs : Vec F S2x10000x16 .bf16) (x0 : Vec F S400x10000 .bf16) (x1 : Vec F S10000x16 .f32) : FVec F S1x400x16 .bf16 :=
  newSlotRowsOf i (View.ld zs (r1_slot i)) x0 x1

/-- What the point's store leaves in the scratch: the old contents with the new rows written. -/
def scrStep (i : grid1.Coords) (zs : Vec F S2x10000x16 .bf16) (x0 : Vec F S400x10000 .bf16) (x1 : Vec F S10000x16 .f32) : Vec F S2x10000x16 .bf16 :=
  scM1.view.read (Elt F) (scM1.view.writes (Elt F) (hscM1.unread zs) [⟨r1_dst i, newSlotRows i zs x0 x1⟩])

/-- What the first point's extra store leaves: the perceptron's output, rounded, in slot 0. -/
def scrInit (zs : Vec F S2x10000x16 .bf16) (x1 : Vec F S10000x16 .f32) : Vec F S2x10000x16 .bf16 :=
  scM1.view.read (Elt F) (scM1.view.writes (Elt F) (hscM1.unread zs) [⟨r1_slot0, k1_pay2 (View.ld x1 r1_x2)⟩])

/-- What the last round's store leaves in the output window's buffer (its one store as a piece). -/
def out1_2 (i : grid1.Coords) (zs : Vec F S2x10000x16 .bf16) (x0 : Vec F S400x10000 .bf16) (x1 : Vec F S10000x16 .f32) : Vec F S400x16 .f32 :=
  View.canon [⟨r1_out, newRows i zs x0 x1⟩]

/-- That store covers the buffer. -/
theorem cover1_2 (p0 : Vec F S400x16 .f32) (y : S400x16.Idx) :
    ∃ pc ∈ ([⟨r1_out, p0⟩] : List (View.Piece (Elt F) S400x16 .f32)), y ∈ pc.1.set :=
  View.cover_of_tiled [⟨r1_out, p0⟩] S400x16.size (by rfl) y

/-- The first point's two stores are the slot-0 store followed by the ordinary step. -/
theorem scrStep_scrInit (i : grid1.Coords) (zs : Vec F S2x10000x16 .bf16) (x0 : Vec F S400x10000 .bf16) (x1 : Vec F S10000x16 .f32) :
    scM1.view.read (Elt F) (scM1.view.writes (Elt F) (hscM1.unread zs)
        [⟨r1_dst i, newSlotRows i (scrInit zs x1) x0 x1⟩, ⟨r1_slot0, k1_pay2 (View.ld x1 r1_x2)⟩])
      = scrStep i (scrInit zs x1) x0 x1 := by
  have e := hscM1.unread_read (Val := Elt F) (scM1.view.writes (Elt F) (hscM1.unread zs) [⟨r1_slot0, k1_pay2 (View.ld x1 r1_x2)⟩])
  unfold scrStep scrInit
  rw [e]
  exact congrArg (scM1.view.read (Elt F)) (View.writes_append scM1.view (hscM1.unread zs) [_] [_])

end Cert.KernelIdeal.Hand

end
-- ==== Proof.KernelIdeal.PropagateData.lean ====
/-
  The second region's proof data: what the scratch holds between points, and what each window's buffer holds.

  The iterates.  Z 0 is the perceptron's output rounded; Z (k + 1) is, row block by row block, what the body
  computes from Z k, the block of the adjacency the point of round k and that row block is handed, and the
  perceptron's output — each as a 1 × 10000 × 16 array, the layout one slot of the scratch is read in.

  The invariant.  Before the point of round k and row block r the scratch holds Z k in slot k mod 2 and the rows
  below 400 r of Z (k + 1) in the other slot; nothing is known of the remaining rows of that slot (at the very
  first point nothing is known of the scratch at all, and the body's first store makes slot 0 hold Z 0).  The
  body reads slot k mod 2 whole and writes rows 400 r … 400 r + 399 of the other slot, so after it the rows
  below 400 (r + 1) of Z (k + 1) are there; after row block 24 that slot holds Z (k + 1) whole, which is what
  round k + 1 reads.

  The output window is written by the body in the last round only; at the earlier points it is idle (its
  buffer is handed back as found and not written back).
-/
import proofs.«129323_g68204080660518_cont_9to1_m_598_3_alg».proof.Proof.Gen.KernelIdeal.Launch
import proofs.«129323_g68204080660518_cont_9to1_m_598_3_alg».proof.Proof.Gen.KernelIdeal.Skeleton
import proofs.«129323_g68204080660518_cont_9to1_m_598_3_alg».proof.Proof.Gen.KernelIdeal.Points
import proofs.«129323_g68204080660518_cont_9to1_m_598_3_alg».proof.Proof.KernelIdeal.PropagateDefs
import Idealize.ShloMosaic.Lib.ValueIdx
import Idealize.ShloMosaic.Lib.Pipeline.FrameBody
import Idealize.ShloMosaic.Lib.WritesUnit
import Idealize.ShloMosaic.Lib.Ring
import Idealize.ShloMosaic.Lib.Tactic

-- membership in a rectangle of ten thousand rows: the structural recursion goes once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

-- the core's buffer contents when the region is entered: the parameter everything below is stated at
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency's staging buffer holds the point's block at every point (it is transferred at every point). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The perceptron's output's staging buffer holds its one block at every point: transferred at the first, kept after. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The grid: 10 rounds of 25 row blocks, decided once -/

theorem N1 : cfg1.N = 250 := N_1

/-- A point's coordinates are its round and its row block. -/
theorem coords_val : ∀ t : Fin cfg1.N, (grid1.coords t 0).val = t.val / 25 ∧ (grid1.coords t 1).val = t.val % 25 :=
  (by decide +kernel : ∀ t : Fin grid1.N, (grid1.coords t 0).val = t.val / 25 ∧ (grid1.coords t 1).val = t.val % 25)
/-- The first `scf.if` is taken at the first point only. -/
theorem hcond1_0 : ∀ t : Fin cfg1.N, cond1_0 (grid1.coords t) ↔ t.val = 0 :=
  (by decide +kernel : ∀ t : Fin grid1.N, cond1_0 (grid1.coords t) ↔ t.val = 0)
/-- The second in the last round only. -/
theorem hcond1_1 : ∀ t : Fin cfg1.N, cond1_1 (grid1.coords t) ↔ 225 ≤ t.val :=
  (by decide +kernel : ∀ t : Fin grid1.N, cond1_1 (grid1.coords t) ↔ 225 ≤ t.val)
/-- Before the last round the output window is idle and not written back; in it, live and written back. -/
theorem idleAt1_2 : ∀ t : Fin cfg1.N, t.val < 225 → cfg1.idle 2 (grid1.coords t) = true :=
  (by decide +kernel : ∀ t : Fin grid1.N, t.val < 225 → cfg1.idle 2 (grid1.coords t) = true)
theorem liveAt1_2 : ∀ t : Fin cfg1.N, 225 ≤ t.val → cfg1.idle 2 (grid1.coords t) = false :=
  (by decide +kernel : ∀ t : Fin grid1.N, 225 ≤ t.val → cfg1.idle 2 (grid1.coords t) = false)
theorem flush1_2 : ∀ t : Fin cfg1.N, (cfg1.win 2).flush t = true ↔ 225 ≤ t.val :=
  (by decide +kernel : ∀ t : Fin grid1.N, win1_2.flush t = true ↔ 225 ≤ t.val)
theorem noFlush1_2 (t : Fin cfg1.N) (h : t.val < 225) : (cfg1.win 2).flush t = false := by
  cases hf : (cfg1.win 2).flush t
  · rfl
  · exact absurd ((flush1_2 t).mp hf) (by omega)
theorem liveAt1_0 : ∀ t : Fin cfg1.N, cfg1.idle 0 (grid1.coords t) = false := fun _ => rfl
theorem liveAt1_1 : ∀ t : Fin cfg1.N, cfg1.idle 1 (grid1.coords t) = false := fun _ => rfl

/-- The point of round `k`, row block `r`. -/
def pt (k r : ℕ) : Fin cfg1.N := ⟨(25 * k + r) % 250, lt_of_lt_of_eq (Nat.mod_lt _ (by norm_num)) N1.symm⟩

theorem pt_eq (t : Fin cfg1.N) : pt (t.val / 25) (t.val % 25) = t := by
  have hN : t.val < 250 := lt_of_lt_of_eq t.isLt N1
  apply Fin.ext
  show (25 * (t.val / 25) + t.val % 25) % 250 = t.val
  omega

/-! ## The iterates -/

/-- The adjacency's block and the perceptron's output as the body's loads see them. -/
abbrev blkA (c : Dev nD) (t : Fin cfg1.N) : Vec F S400x10000 .bf16 := iblk1 V c 0 t
abbrev blkX (c : Dev nD) (t : Fin cfg1.N) : Vec F S10000x16 .f32 := iblk1 V c 1 t

/-- An index of a slot as the index of its row within the row's block of 400. -/
def rowIx (y : S1x10000x16.Idx) : S1x400x16.Idx :=
  ix3 (0 : Fin 1) (⟨(y 1).val % 400, Nat.mod_lt _ (by norm_num)⟩ : Fin 400) (⟨(y 2).val, (y 2).isLt⟩ : Fin 16)

/-- The iterates, each in a slot's layout: the perceptron's output rounded; then block by block what the body computes
    from the iterate before. -/
def Zs (c : Dev nD) : ℕ → Vec F S1x10000x16 .bf16
  | 0 => k1_pay2 (View.ld (blkX V c (pt 0 0)) r1_x2)
  | k + 1 => fun y =>
      newSlotRowsOf (grid1.coords (pt k ((y 1).val / 400))) (Zs c k) (blkA V c (pt k ((y 1).val / 400))) (blkX V c (pt k ((y 1).val / 400))) (rowIx y)

theorem Zs_zero (c : Dev nD) : Zs V c 0 = k1_pay2 (View.ld (blkX V c (pt 0 0)) r1_x2) := rfl
theorem Zs_succ (c : Dev nD) (k : ℕ) (y : S1x10000x16.Idx) :
    Zs V c (k + 1) y = newSlotRowsOf (grid1.coords (pt k ((y 1).val / 400))) (Zs V c k) (blkA V c (pt k ((y 1).val / 400))) (blkX V c (pt k ((y 1).val / 400))) (rowIx y) := rfl

/-- What the last round leaves in the output window's buffer at point `t`. -/
def outAt (c : Dev nD) (t : Fin cfg1.N) : Vec F S400x16 .f32 :=
  View.canon [⟨r1_out, newRowsOf (grid1.coords t) (Zs V c (t.val / 25)) (blkA V c t) (blkX V c t)⟩]

/-! ## The invariant -/

/-- A slot's index in the scratch: slot `s mod 2`, the same row and column. -/
def slotIx (s : ℕ) (y : S1x10000x16.Idx) : S2x10000x16.Idx :=
  ix3 (⟨s % 2, Nat.mod_lt _ (by norm_num)⟩ : Fin 2) (⟨(y 1).val, (y 1).isLt⟩ : Fin 10000) (⟨(y 2).val, (y 2).isLt⟩ : Fin 16)

/-- What the body at point `t` relies on: the round's iterate in its slot, the rows below the point's block of the next. -/
def Pre (c : Dev nD) (t : ℕ) (z : Vec F S2x10000x16 .bf16) : Prop :=
  (∀ y : S1x10000x16.Idx, z (slotIx (t / 25) y) = Zs V c (t / 25) y) ∧
  (∀ y : S1x10000x16.Idx, (y 1).val < 400 * (t % 25) → z (slotIx (t / 25 + 1) y) = Zs V c (t / 25 + 1) y)

/-- What it establishes: the same with the point's block included. -/
def Post (c : Dev nD) (t : ℕ) (z : Vec F S2x10000x16 .bf16) : Prop :=
  (∀ y : S1x10000x16.Idx, z (slotIx (t / 25) y) = Zs V c (t / 25) y) ∧
  (∀ y : S1x10000x16.Idx, (y 1).val < 400 * (t % 25 + 1) → z (slotIx (t / 25 + 1) y) = Zs V c (t / 25 + 1) y)

/-- The invariant before point `n`: nothing before the first, else what the point before established. -/
def Inv (c : Dev nD) : ℕ → Vec F S2x10000x16 .bf16 → Prop
  | 0, _ => True
  | n + 1, z => Post V c n z

theorem Inv_succ (c : Dev nD) (n : ℕ) (z : Vec F S2x10000x16 .bf16) : Inv V c (n + 1) z = Post V c n z := rfl

/-- A slot's layout has one leading coordinate, zero. -/
theorem idx_unit0 (y : S1x10000x16.Idx) : (y 0).val = 0 := by
  have : (y 0).val < 1 := (y 0).isLt
  omega

/-- Off the rows the point writes (missed on axis `a`), the scratch is as before. -/
theorem scrStep_of_not_mem (i : grid1.Coords) (z : Vec F S2x10000x16 .bf16) (x0 : Vec F S400x10000 .bf16) (x1 : Vec F S10000x16 .f32)
    (w : S2x10000x16.Idx) (a : Fin S2x10000x16.rank)
    (ha : (w a).val < (![((i 0).val + 1) % 2, 400 * (i 1).val, 0] : Fin 3 → ℕ) a
      ∨ (![((i 0).val + 1) % 2, 400 * (i 1).val, 0] : Fin 3 → ℕ) a + S1x400x16.size a ≤ (w a).val) :
    scrStep i z x0 x1 w = z w := by
  unfold scrStep
  rw [View.read_writes_cons_unit_of_not_mem scM1.view (hscM1.unread z) (k1_off3_inb i) (newSlotRows i z x0 x1) [] w (k1_off3_eq i) a ha]
  rw [View.writes_nil, hscM1.read_unread]

/-- On them, at position `x` of the block, the new rows. -/
theorem scrStep_of_mem (i : grid1.Coords) (z : Vec F S2x10000x16 .bf16) (x0 : Vec F S400x10000 .bf16) (x1 : Vec F S10000x16 .f32)
    (w : S2x10000x16.Idx) (x : S1x400x16.Idx)
    (hx : ∀ a, (w a).val = (![((i 0).val + 1) % 2, 400 * (i 1).val, 0] : Fin 3 → ℕ) a + (x a).val) :
    scrStep i z x0 x1 w = newSlotRows i z x0 x1 x := by
  unfold scrStep
  exact View.read_writes_cons_unit_of_mem scM1.view (hscM1.unread z) (k1_off3_inb i) (newSlotRows i z x0 x1) [] w x (k1_off3_eq i) hx

/-- From one point's conclusion to the next point's premise: within a round the same two facts; across rounds the
    slot just completed is the next round's iterate, and no row of the other slot is claimed. -/
theorem pre_of_post (c : Dev nD) (n : ℕ) (z : Vec F S2x10000x16 .bf16) (h : Post V c n z) : Pre V c (n + 1) z := by
  unfold Pre; unfold Post at h
  by_cases hr : n % 25 = 24
  · have e1 : (n + 1) / 25 = n / 25 + 1 := by omega
    have e2 : (n + 1) % 25 = 0 := by omega
    rw [e1, e2]
    refine ⟨fun y => h.2 y ?_, fun y hy => absurd hy (by omega)⟩
    have : (y 1).val < 10000 := (y 1).isLt
    omega
  · have e1 : (n + 1) / 25 = n / 25 := by omega
    have e2 : (n + 1) % 25 = n % 25 + 1 := by omega
    rw [e1, e2]
    exact h

/-- The first point's extra store makes slot 0 the first iterate: its premise. -/
theorem pre_init (c : Dev nD) (t : Fin cfg1.N) (h0 : t.val = 0) (d : Vec F S2x10000x16 .bf16) : Pre V c t.val (scrInit d (blkX V c t)) := by
  have ht : t = pt 0 0 := Fin.ext (by show t.val = (25 * 0 + 0) % 250; omega)
  unfold Pre
  rw [h0]
  refine ⟨fun y => ?_, fun y hy => absurd hy (by omega)⟩
  have hy0 := idx_unit0 y
  show scrInit d (blkX V c t) (slotIx (0 / 25) y) = Zs V c (0 / 25) y
  rw [show (0 / 25 : ℕ) = 0 from rfl, Zs_zero, ← ht]
  unfold scrInit
  exact View.read_writes_cons_unit_of_mem scM1.view (hscM1.unread d) inb_S2x10000x16_S1x10000x16_0_0_0 (k1_pay2 (View.ld (blkX V c t) r1_x2)) [] (slotIx 0 y) y rfl
    (fun a => by
      match a with
      | ⟨0, _⟩ => show (0 % 2 : ℕ) = 0 + (y 0).val; omega
      | ⟨1, _⟩ => show (y 1).val = 0 + (y 1).val; omega
      | ⟨2, _⟩ => show (y 2).val = 0 + (y 2).val; omega)

/-- The slot the body reads is the round's iterate. -/
theorem ld_slot_eq (c : Dev nD) (t : Fin cfg1.N) (z : Vec F S2x10000x16 .bf16) (h : Pre V c t.val z) :
    View.ld z (r1_slot (grid1.coords t)) = Zs V c (t.val / 25) := by
  funext y
  have hoff := k1_off1_eq (grid1.coords t)
  have hc := (coords_val t).1
  have hy0 := idx_unit0 y
  rw [← h.1 y]
  show z ((r1_slot (grid1.coords t)).idx y) = z (slotIx (t.val / 25) y)
  refine congrArg z (funext fun a => Fin.ext ?_)
  show k1_off1 (grid1.coords t) a + 1 * (y a).val = (slotIx (t.val / 25) y a).val
  rw [hoff]
  match a with
  | ⟨0, _⟩ => show (grid1.coords t 0).val % 2 + 1 * (y 0).val = (t.val / 25) % 2; omega
  | ⟨1, _⟩ => show 0 + 1 * (y 1).val = (y 1).val; omega
  | ⟨2, _⟩ => show 0 + 1 * (y 2).val = (y 2).val; omega

/-- The body's store adds the point's block to the rows of the next iterate present. -/
theorem post_step (c : Dev nD) (t : Fin cfg1.N) (z : Vec F S2x10000x16 .bf16) (h : Pre V c t.val z) :
    Post V c t.val (scrStep (grid1.coords t) z (blkA V c t) (blkX V c t)) := by
  have hN : t.val < 250 := lt_of_lt_of_eq t.isLt N1
  obtain ⟨hc0, hc1⟩ := coords_val t
  have hld := ld_slot_eq V c t z h
  refine ⟨fun y => ?_, fun y hy => ?_⟩
  · have e := scrStep_of_not_mem (grid1.coords t) z (blkA V c t) (blkX V c t) (slotIx (t.val / 25) y) ⟨0, by decide⟩
      (by show (t.val / 25) % 2 < ((grid1.coords t 0).val + 1) % 2 ∨ ((grid1.coords t 0).val + 1) % 2 + 1 ≤ (t.val / 25) % 2; omega)
    rw [e]; exact h.1 y
  · by_cases hlt : (y 1).val < 400 * (t.val % 25)
    · have e := scrStep_of_not_mem (grid1.coords t) z (blkA V c t) (blkX V c t) (slotIx (t.val / 25 + 1) y) ⟨1, by decide⟩
        (Or.inl (by show (y 1).val < 400 * (grid1.coords t 1).val; omega))
      rw [e]; exact h.2 y hlt
    · have hq : (y 1).val / 400 = t.val % 25 := by omega
      have e := scrStep_of_mem (grid1.coords t) z (blkA V c t) (blkX V c t) (slotIx (t.val / 25 + 1) y) (rowIx y)
        (fun a => by
          match a with
          | ⟨0, _⟩ => show (t.val / 25 + 1) % 2 = ((grid1.coords t 0).val + 1) % 2 + 0; omega
          | ⟨1, _⟩ => show (y 1).val = 400 * (grid1.coords t 1).val + (y 1).val % 400; omega
          | ⟨2, _⟩ => show (y 2).val = 0 + (y 2).val; omega)
      rw [e, Zs_succ, hq, pt_eq t]
      unfold newSlotRows
      rw [hld]

/-- The last round's output is the unrounded rows computed from the round's iterate. -/
theorem out_eq (c : Dev nD) (t : Fin cfg1.N) (z : Vec F S2x10000x16 .bf16) (h : Pre V c t.val z) :
    out1_2 (grid1.coords t) z (blkA V c t) (blkX V c t) = outAt V c t := by
  unfold out1_2 outAt newRows
  rw [ld_slot_eq V c t z h]

/-! ## The region's invariant -/

/-- The core's scoped buffers that the region does not stage, the scratch at contents `z`. -/
def scopedAt (c : Dev nD) (z : Vec F S2x10000x16 .bf16) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ owns (c : Thread nD τ) scM1 fullShare z)

theorem scoped_in (c : Dev nD) : (Pipeline.scopedRest (Ix := Unit) (Name := ℕ) (U := UR sig nD τ) (Lvl := ℕ) (Val := Elt F) spec1 c : sProp 𝕄) ⊢ iprop(∃ z, scopedAt c z) := by
  rw [scopedRest1_eq]; unfold scopedAt
  iintro ⟨H1, H2, H3, H4, H5, H6, H7, H8, ⟨%f, H9⟩⟩
  iexists f
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  rw [owns_whole]; iexact H9

theorem scoped_out (c : Dev nD) (z : Vec F S2x10000x16 .bf16) : scopedAt c z ⊢ (Pipeline.scopedRest (Ix := Unit) (Name := ℕ) (U := UR sig nD τ) (Lvl := ℕ) (Val := Elt F) spec1 c : sProp 𝕄) := by
  rw [scopedRest1_eq]; unfold scopedAt; rw [owns_whole]
  iintro ⟨H1, H2, H3, H4, H5, H6, H7, H8, H9⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; iexact H9

/-- The invariant before point `n`: the scratch at contents satisfying `Inv n`, the other scoped buffers at
    some contents, the generator register at some state. -/
def PhiS (c : Dev nD) (n : ℕ) : sProp 𝕄 :=
  iprop((∃ z, ⌜Inv V c n z⌝ ∗ scopedAt c z) ∗ ∃ r, prngReg c r)

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outAt V c t
  Φ t := PhiS V c t.val
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outAt V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the launch hands the region makes the invariant before the first point. -/
theorem hin1 (c : Dev nD) : iprop((∃ r, prngReg c r) ∗ (Pipeline.scopedRest (Ix := Unit) (Name := ℕ) (U := UR sig nD τ) (Lvl := ℕ) (Val := Elt F) spec1 c : sProp 𝕄)) ⊢ (dat1 V c).Φ 0 := by
  rw [show (dat1 V c).Φ 0 = PhiS V c 0 from rfl]; unfold PhiS
  iintro ⟨Hp, Hs⟩
  ihave Hs' := (scoped_in c) $$ Hs
  icases Hs' with ⟨%z, Hs'⟩
  isplitl [Hs']
  · iexists z; isplitr; · ipureintro; trivial
    iexact Hs'
  iexact Hp

/-- After the last point the invariant gives the scoped buffers and the register back. -/
theorem hout1 (c : Dev nD) : (dat1 V c).Φ (Fin.last cfg1.N) ⊢ iprop((∃ r, prngReg c r) ∗ (Pipeline.scopedRest (Ix := Unit) (Name := ℕ) (U := UR sig nD τ) (Lvl := ℕ) (Val := Elt F) spec1 c : sProp 𝕄)) := by
  rw [show (dat1 V c).Φ (Fin.last cfg1.N) = PhiS V c (Fin.last cfg1.N).val from rfl]; unfold PhiS
  iintro ⟨⟨%z, -, Hs⟩, Hp⟩
  isplitl [Hp]; · iexact Hp
  iapply (scoped_out c z); iexact Hs

end Cert.KernelIdeal.Hand

end
-- ==== Proof.KernelIdeal.PropagateBody.lean ====
/-
  The second region's kernel body run in each of the three cases the grid meets: a point that is neither the
  first nor in the last round; a point of the last round; the grid's first point.  In each case the body, given
  its three windows' staging buffers and the scratch at stated contents, runs to its end leaving the inputs'
  buffers as found, the scratch with the point's rows written (at the first point after the perceptron's output
  was stored into slot 0), and the output window's buffer as found, or in the last round at the unrounded rows.
-/
import proofs.«129323_g68204080660518_cont_9to1_m_598_3_alg».proof.Proof.Gen.KernelIdeal.Launch
import proofs.«129323_g68204080660518_cont_9to1_m_598_3_alg».proof.Proof.Gen.KernelIdeal.Skeleton
import proofs.«129323_g68204080660518_cont_9to1_m_598_3_alg».proof.Proof.Gen.KernelIdeal.Points
import proofs.«129323_g68204080660518_cont_9to1_m_598_3_alg».proof.Proof.KernelIdeal.PropagateDefs
import Idealize.ShloMosaic.Lib.Pipeline.FrameBody
import Idealize.ShloMosaic.Lib.WritesUnit
import Idealize.ShloMosaic.Lib.Ring
import Idealize.ShloMosaic.Lib.Tactic

-- membership in a rectangle of ten thousand rows: the structural recursion goes once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's triple, case by case -/

set_option maxHeartbeats 2000000 in
/-- A point that is neither the first nor in the last round: the inputs' buffers and the output window's are handed back as found, the scratch with the point's rows written. -/
theorem sound_kernel1_mid (c : Dev nD) (E : Set ℕ) (i : grid1.Coords) (arg2 : Memref sig .tc .vmem S400x10000 .bf16) (harg2 : arg2.IsWhole)
    (arg3 : Memref sig .tc .vmem S10000x16 .f32) (harg3 : arg3.IsWhole) (arg4 : Memref sig .tc .vmem S400x16 .f32) (harg4 : arg4.IsWhole)
    (hc0 : ¬cond1_0 i) (hc1 : ¬cond1_1 i)
    (x0 : Vec F S400x10000 .bf16) (x1 : Vec F S10000x16 .f32) (xi : Vec F S400x16 .f32) (zs : Vec F S2x10000x16 .bf16)
    (K : PUnit → sProp 𝕄) :
    iprop(owns (c : Thread nD τ) arg2 fullShare x0 ∗ owns (c : Thread nD τ) arg3 fullShare x1 ∗ owns (c : Thread nD τ) arg4 fullShare xi
        ∗ owns (c : Thread nD τ) scM1 fullShare zs
        ∗ (iprop(owns (c : Thread nD τ) arg2 fullShare x0 ∗ owns (c : Thread nD τ) arg3 fullShare x1 ∗ owns (c : Thread nD τ) arg4 fullShare xi
            ∗ owns (c : Thread nD τ) scM1 fullShare (scrStep i zs x0 x1)) -∗ K ⟨⟩))
      ⊢ wp frame (wpE (defs₀ (F := F)) Variants.none c none) E (cc1__prop_kernel i arg2 harg2 arg3 harg3 arg4 harg4 scM1 hscM1) K := by
  simp only [cc1__prop_kernel_eq_skeleton]; unfold cc1__prop_kernel_skel
  simp only [k1_part1_eq_skeleton]
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2
  obtain rfl := hscM1.eq_unread hfs
  sl_exec (disch := first | exact hc0 | exact hc1)
  sl_step
  sl_unfold_run_names
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  have hz : View.read (Elt F) (View.whole cc1_scratch0) (hscM1.unread zs) = zs := hscM1.read_unread zs
  simp only [View.readAt_eq_ld, Memref.IsWhole.read_unread, hz]
  rfl

set_option maxHeartbeats 2000000 in
/-- A point of the last round (never the first point): as before, and the output window's buffer is left at the unrounded new rows. -/
theorem sound_kernel1_last (c : Dev nD) (E : Set ℕ) (i : grid1.Coords) (arg2 : Memref sig .tc .vmem S400x10000 .bf16) (harg2 : arg2.IsWhole)
    (arg3 : Memref sig .tc .vmem S10000x16 .f32) (harg3 : arg3.IsWhole) (arg4 : Memref sig .tc .vmem S400x16 .f32) (harg4 : arg4.IsWhole)
    (hc0 : ¬cond1_0 i) (hc1 : cond1_1 i)
    (x0 : Vec F S400x10000 .bf16) (x1 : Vec F S10000x16 .f32) (xi : Vec F S400x16 .f32) (zs : Vec F S2x10000x16 .bf16)
    (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) scM1 fullShare zs
        ∗ (iprop(owns (c : Thread nD τ) arg2 fullShare x0 ∗ owns (c : Thread nD τ) arg3 fullShare x1 ∗ owns (c : Thread nD τ) arg4 fullShare (out1_2 i zs x0 x1)
            ∗ owns (c : Thread nD τ) scM1 fullShare (scrStep i zs x0 x1)) -∗ K ⟨⟩))
      ⊢ wp frame (wpE (defs₀ (F := F)) Variants.none c none) E (cc1__prop_kernel i arg2 harg2 arg3 harg3 arg4 harg4 scM1 hscM1) K := by
  simp only [cc1__prop_kernel_eq_skeleton]; unfold cc1__prop_kernel_skel
  simp only [k1_part1_eq_skeleton]
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1
  obtain rfl := hscM1.eq_unread hfs
  sl_exec (disch := first | exact hc0 | exact hc1)
  sl_step
  sl_unfold_run_names
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    have hz : View.read (Elt F) (View.whole cc1_scratch0) (hscM1.unread zs) = zs := hscM1.read_unread zs
    simp only [View.readAt_eq_ld, Memref.IsWhole.read_unread, hz]
    exact View.read_writes_eq_canon _ _ _ (cover1_2 _)
  iexists _; isplitr
  swap; · iexact HS
  ipureintro
  have hz : View.read (Elt F) (View.whole cc1_scratch0) (hscM1.unread zs) = zs := hscM1.read_unread zs
  simp only [View.readAt_eq_ld, Memref.IsWhole.read_unread, hz]
  rfl

set_option maxHeartbeats 2000000 in
/-- The grid's first point: the perceptron's output goes into slot 0 first, then the ordinary step runs on the scratch so filled. -/
theorem sound_kernel1_first (c : Dev nD) (E : Set ℕ) (i : grid1.Coords) (arg2 : Memref sig .tc .vmem S400x10000 .bf16) (harg2 : arg2.IsWhole)
    (arg3 : Memref sig .tc .vmem S10000x16 .f32) (harg3 : arg3.IsWhole) (arg4 : Memref sig .tc .vmem S400x16 .f32) (harg4 : arg4.IsWhole)
    (hi0 : (i 0).val = 0) (hi1 : (i 1).val = 0) (hc0 : cond1_0 i) (hc1 : ¬cond1_1 i)
    (x0 : Vec F S400x10000 .bf16) (x1 : Vec F S10000x16 .f32) (xi : Vec F S400x16 .f32) (zs : Vec F S2x10000x16 .bf16)
    (K : PUnit → sProp 𝕄) :
    iprop(owns (c : Thread nD τ) arg2 fullShare x0 ∗ owns (c : Thread nD τ) arg3 fullShare x1 ∗ owns (c : Thread nD τ) arg4 fullShare xi
        ∗ owns (c : Thread nD τ) scM1 fullShare zs
        ∗ (iprop(owns (c : Thread nD τ) arg2 fullShare x0 ∗ owns (c : Thread nD τ) arg3 fullShare x1 ∗ owns (c : Thread nD τ) arg4 fullShare xi
            ∗ owns (c : Thread nD τ) scM1 fullShare (scrStep i (scrInit zs x1) x0 x1)) -∗ K ⟨⟩))
      ⊢ wp frame (wpE (defs₀ (F := F)) Variants.none c none) E (cc1__prop_kernel i arg2 harg2 arg3 harg3 arg4 harg4 scM1 hscM1) K := by
  simp only [cc1__prop_kernel_eq_skeleton]; unfold cc1__prop_kernel_skel
  simp only [k1_part1_eq_skeleton]
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2
  obtain rfl := hscM1.eq_unread hfs
  sl_exec (disch := first | exact hc0 | exact hc1)
  sl_step
  sl_unfold_run_names
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  simp only [View.readAt_eq_ld, Memref.IsWhole.read_unread]
  exact scrStep_scrInit i zs x0 x1

end Cert.KernelIdeal.Hand

end
-- ==== Proof.KernelIdeal.PropagateObligation.lean ====
/-
  The second region's body obligation: at every point, from the invariant before it and the windows' staging
  buffers at what they then hold, the body runs to the invariant after it and the buffers at what the proof data
  say it leaves.  By cases on the point — the first, one of the last round, any other — each case the body's
  triple of that case; what the scratch then holds satisfies the next point's invariant because the slot read is
  the round's iterate and the rows written are the point's rows of the next.
-/
import proofs.«129323_g68204080660518_cont_9to1_m_598_3_alg».proof.Proof.Gen.KernelIdeal.Launch
import proofs.«129323_g68204080660518_cont_9to1_m_598_3_alg».proof.Proof.Gen.KernelIdeal.Skeleton
import proofs.«129323_g68204080660518_cont_9to1_m_598_3_alg».proof.Proof.Gen.KernelIdeal.Points
import proofs.«129323_g68204080660518_cont_9to1_m_598_3_alg».proof.Proof.KernelIdeal.PropagateBody
import proofs.«129323_g68204080660518_cont_9to1_m_598_3_alg».proof.Proof.KernelIdeal.PropagateData
import Idealize.ShloMosaic.Lib.Pipeline.FrameBody
import Idealize.ShloMosaic.Lib.WritesUnit
import Idealize.ShloMosaic.Lib.Ring
import Idealize.ShloMosaic.Lib.Tactic

-- membership in a rectangle of ten thousand rows: the structural recursion goes once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The invariant at a point's start, restated at the point's number. -/
theorem PhiS_castSucc (c : Dev nD) (t : Fin cfg1.N) : (dat1 V c).Φ t.castSucc = PhiS V c t.val := by
  dsimp only [dat1]; simp only [Fin.coe_castSucc]

/-- After the first point the invariant is what the point before established, which is the point's premise. -/
theorem pre_of_inv (c : Dev nD) (n : ℕ) (z : Vec F S2x10000x16 .bf16) (hn : n ≠ 0) (h : Inv V c n z) : Pre V c n z := by
  cases n with
  | zero => exact absurd rfl hn
  | succ n => exact pre_of_post V c n z h

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) from rfl]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  have hN : t.val < 250 := lt_of_lt_of_eq t.isLt N1
  unfold PhiS scopedAt
  by_cases h0 : t.val = 0
  · have h9 : ¬ 225 ≤ t.val := by omega
    rw [Dat.leavesExact_idle (dat1 V c) 2 t (idleAt1_2 t (by omega)) (noFlush1_2 t (by omega))]
    rw [PhiS_castSucc V c t]; unfold PhiS scopedAt
    iintro ⟨⟨⟨%z, -, S1, S2, S3, S4, S5, S6, S7, S8, HS⟩, Hp⟩, Ho, ⟨%d0, H0⟩, ⟨%d1, H1⟩, ⟨%d2, H2⟩⟩
    iapply (sound_kernel1_first c Set.univ (grid1.coords t) _ _ _ _ _ _ (by rw [(coords_val t).1, h0]) (by rw [(coords_val t).2, h0]) ((hcond1_0 t).mpr h0) (fun h => absurd ((hcond1_1 t).mp h) (by omega)) (iblk1 V c 0 t) (iblk1 V c 1 t) ((dat1 V c).before 2 t d2) z _)
    isplitl [H0]; · iexact H0
    isplitl [H1]; · iexact H1
    isplitl [H2]; · iexact H2
    isplitl [HS]; · iexact HS
    iintro ⟨H0, H1, H2, HS⟩
    isplitl [S1 S2 S3 S4 S5 S6 S7 S8 HS Hp]
    · isplitl [S1 S2 S3 S4 S5 S6 S7 S8 HS]
      · iexists (scrStep (grid1.coords t) (scrInit z (iblk1 V c 1 t)) (iblk1 V c 0 t) (iblk1 V c 1 t)); isplitr
        · ipureintro; rw [Inv_succ]; exact post_step V c t _ (pre_init V c t h0 z)
        isplitl [S1]; · iexact S1
        isplitl [S2]; · iexact S2
        isplitl [S3]; · iexact S3
        isplitl [S4]; · iexact S4
        isplitl [S5]; · iexact S5
        isplitl [S6]; · iexact S6
        isplitl [S7]; · iexact S7
        isplitl [S8]; · iexact S8
        iexact HS
      iexact Hp
    isplitl [Ho]; · iexact Ho
    isplitl [H0]; · iexact H0
    isplitl [H1]; · iexact H1
    iexists _; iexact H2
  · by_cases h9 : 225 ≤ t.val
    ·
      rw [show (dat1 V c).leavesExact 2 t = owns (c : Thread nD τ) (st1_2 t) fullShare ((dat1 V c).after 2 t) from by
        unfold Dat.leavesExact; rw [liveAt1_2 t h9], after1_2]
      rw [PhiS_castSucc V c t]; unfold PhiS scopedAt
      iintro ⟨⟨⟨%z, %hz, S1, S2, S3, S4, S5, S6, S7, S8, HS⟩, Hp⟩, Ho, ⟨%d0, H0⟩, ⟨%d1, H1⟩, ⟨%d2, H2⟩⟩
      have hpre : Pre V c t.val z := pre_of_inv V c t.val z h0 hz
      iapply (sound_kernel1_last c Set.univ (grid1.coords t) _ _ _ _ _ _ (fun h => h0 ((hcond1_0 t).mp h)) ((hcond1_1 t).mpr h9) (iblk1 V c 0 t) (iblk1 V c 1 t) ((dat1 V c).before 2 t d2) z _)
      isplitl [H0]; · iexact H0
      isplitl [H1]; · iexact H1
      isplitl [H2]; · iexists _; iexact H2
      isplitl [HS]; · iexact HS
      iintro ⟨H0, H1, H2, HS⟩
      isplitl [S1 S2 S3 S4 S5 S6 S7 S8 HS Hp]
      · isplitl [S1 S2 S3 S4 S5 S6 S7 S8 HS]
        · iexists (scrStep (grid1.coords t) z (iblk1 V c 0 t) (iblk1 V c 1 t)); isplitr
          · ipureintro; rw [Inv_succ]; exact post_step V c t z hpre
          isplitl [S1]; · iexact S1
          isplitl [S2]; · iexact S2
          isplitl [S3]; · iexact S3
          isplitl [S4]; · iexact S4
          isplitl [S5]; · iexact S5
          isplitl [S6]; · iexact S6
          isplitl [S7]; · iexact S7
          isplitl [S8]; · iexact S8
          iexact HS
        iexact Hp
      isplitl [Ho]; · iexact Ho
      isplitl [H0]; · iexact H0
      isplitl [H1]; · iexact H1
      rw [← out_eq V c t z hpre]; iexact H2
    ·
      rw [Dat.leavesExact_idle (dat1 V c) 2 t (idleAt1_2 t (by omega)) (noFlush1_2 t (by omega))]
      rw [PhiS_castSucc V c t]; unfold PhiS scopedAt
      iintro ⟨⟨⟨%z, %hz, S1, S2, S3, S4, S5, S6, S7, S8, HS⟩, Hp⟩, Ho, ⟨%d0, H0⟩, ⟨%d1, H1⟩, ⟨%d2, H2⟩⟩
      have hpre : Pre V c t.val z := pre_of_inv V c t.val z h0 hz
      iapply (sound_kernel1_mid c Set.univ (grid1.coords t) _ _ _ _ _ _ (fun h => h0 ((hcond1_0 t).mp h)) (fun h => h9 ((hcond1_1 t).mp h)) (iblk1 V c 0 t) (iblk1 V c 1 t) ((dat1 V c).before 2 t d2) z _)
      isplitl [H0]; · iexact H0
      isplitl [H1]; · iexact H1
      isplitl [H2]; · iexact H2
      isplitl [HS]; · iexact HS
      iintro ⟨H0, H1, H2, HS⟩
      isplitl [S1 S2 S3 S4 S5 S6 S7 S8 HS Hp]
      · isplitl [S1 S2 S3 S4 S5 S6 S7 S8 HS]
        · iexists (scrStep (grid1.coords t) z (iblk1 V c 0 t) (iblk1 V c 1 t)); isplitr
          · ipureintro; rw [Inv_succ]; exact post_step V c t z hpre
          isplitl [S1]; · iexact S1
          isplitl [S2]; · iexact S2
          isplitl [S3]; · iexact S3
          isplitl [S4]; · iexact S4
          isplitl [S5]; · iexact S5
          isplitl [S6]; · iexact S6
          isplitl [S7]; · iexact S7
          isplitl [S8]; · iexact S8
          iexact HS
        iexact Hp
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdeal.Run.lean ====
/-
  The run of the whole program: a stretch of three host operations, then the perceptron's pipeline, then the
  propagation's pipeline, composed into one statement about every weakly fair execution.

  The buffer contents at the four boundaries.  W0 is the launch memory.  W1 is W0 after the host stretch, which
  rounds the adjacency into a new buffer and lays each bias out as a row; it writes those three buffers and no
  other.  W2 is W1 with the first pipeline's six arrays at what that pipeline leaves: its five inputs as it found
  them, its output at the write-backs of all ten points.  W3 is W2 with the second pipeline's three arrays at what
  that pipeline leaves: its two inputs as found, its output at the write-backs of all its points.  Every buffer that
  is no array of a pipeline passes that pipeline untouched.

  Each pipeline is entered by splitting its arrays out of the core's unscoped buffers and is left by putting them
  back at their final contents.  The first pipeline's invariant holds nothing of its own: the generator register
  goes in and comes out.  The second pipeline's invariant carries the scratch between points; it is entered from
  the generator register and the scoped buffers no window stages, and gives both back at the end.

  From the last boundary the statements follow by reading: an argument is never written (by the host stretch it is
  no result, in a pipeline it is an input or no array at all), so it ends as launched; the result is the second
  pipeline's output array.
-/
import proofs.«129323_g68204080660518_cont_9to1_m_598_3_alg».proof.Proof.Gen.KernelIdeal.Launch
import proofs.«129323_g68204080660518_cont_9to1_m_598_3_alg».proof.Proof.KernelIdeal.Mlp
import proofs.«129323_g68204080660518_cont_9to1_m_598_3_alg».proof.Proof.KernelIdeal.PropagateData
import proofs.«129323_g68204080660518_cont_9to1_m_598_3_alg».proof.Proof.KernelIdeal.PropagateObligation
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of ten thousand rows: the structural recursion goes once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host stretch: the first pipeline's entry. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the first pipeline's exit, which is the second's entry: its arrays at what it leaves, every other buffer as
    entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second pipeline's exit, the last boundary: its arrays at what it leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### What the host stretch leaves alone, and the arguments at the last boundary -/

/-- The host stretch writes three buffers only — the rounded adjacency and the two biases as rows — so any other
    buffer holds after it what it held at launch. -/
theorem W1_of_ne (c : Dev nD) (b : Ref sig .tc) (h0 : b ≠ main_v0) (h1 : b ≠ main_v1) (h2 : b ≠ main_v2) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1, StableHlo.devRef_ne_of_ne h2⟩))

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of_ne m ρ c main_arg0 (by decide) (by decide) (by decide)
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := W1_of_ne m ρ c main_arg1 (by decide) (by decide) (by decide)
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := W1_of_ne m ρ c main_arg2 (by decide) (by decide) (by decide)
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_of_ne m ρ c main_arg3 (by decide) (by decide) (by decide)
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := (W2_arr m ρ c 3).trans (((dat0 (V1 m ρ) c).arrAt_in 3 rfl _).trans (A_eq0 (V1 m ρ) c 3))
    _ = W0 m ρ c (Proc.devRef .tc main_arg4) := W1_of_ne m ρ c main_arg4 (by decide) (by decide) (by decide)
    _ = m ((c : Thread nD τ).loc main_arg4) := rfl
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := W1_of_ne m ρ c main_arg5 (by decide) (by decide) (by decide)
    _ = m ((c : Thread nD τ).loc main_arg5) := rfl

/-! ## The proof data family and the thread state -/

/-- The prefetched tables' admissible contents: no pipeline has a table. -/
abbrev adm : (p : Fin 2) → (pcfgs (F := F) p).Adm := fun p => (cfgs p).toPCfg_adm
/-- Both pipelines' proof data, each at its own entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state, and the core
    owing nothing. -/
abbrev R (c : Dev nD) : sProp 𝕄 := iprop((∃ r, prngReg c r) ∗ ∃ W, owes (c : Thread nD τ) (0 : CellTallies nD τ sig Unit) W)
/-- A host stretch as a segment over the unscoped buffers held at `W`: it runs to those buffers at the stretch's
    result from `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the host stretch allocates a buffer. -/
theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W3 m ρ c) ∗ ∃ r, prngReg c r)

/-! ## The two pipelines as segments -/

set_option backward.isDefEq.respectTransparency.types false in
/-- The perceptron's pipeline over the thread state: entered from every unscoped buffer at `W1`, left at `W2`.  Its
    arrays are split out of the unscoped buffers and put back at the exit contents; the generator register goes into
    its invariant and comes out; nothing is owed; it has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The propagation's pipeline over the thread state: entered from every unscoped buffer at `W2`, left at `W3`.  Its
    arrays are split out and put back as above.  Its invariant at the first point is made from the generator register
    and the scoped buffers no window stages, and at the last point gives both back; nothing is owed; it has no
    semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show _ ⊢ (pdats m ρ 1 c).Φ 0 from hin1 (V2 m ρ) c)
    iintro ⟨Hp, -, Hr⟩
    isplitl [Hp]; · iexact Hp
    iexact Hr
  hout c := by
    rw [Pipeline.ownSems0_none]
    refine BIBase.Entails.trans (show (pdats m ρ 1 c).Φ (Fin.last _) ⊢ _ from hout1 (V2 m ρ) c) ?_
    iintro ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's three segments in order: the host stretch from the launch contents, then the two pipelines. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- The program is the run of its segments. -/
theorem main_run (c : Dev nD) : main (F := F) c = Pipeline.Seg.run (segs m ρ) := (main_chain c).trans (by chain_rfl)

set_option backward.isDefEq.respectTransparency.types false in
/-- THE RUN, with everything kept: from any memory with zero counters, every weakly fair execution of the program on
    the TensorCores terminates, nothing faulting, and in every final state each unscoped buffer of each core holds
    the last boundary's contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- THE FRAME: the program runs, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W3_main_arg0 m ρ c),
      (h c _ (mem_uc main_arg1 (by decide))).trans (W3_main_arg1 m ρ c),
      (h c _ (mem_uc main_arg2 (by decide))).trans (W3_main_arg2 m ρ c),
      (h c _ (mem_uc main_arg3 (by decide))).trans (W3_main_arg3 m ρ c),
      (h c _ (mem_uc main_arg4 (by decide))).trans (W3_main_arg4 m ρ c),
      (h c _ (mem_uc main_arg5 (by decide))).trans (W3_main_arg5 m ρ c)⟩) (run_all m ρ)

/-- THE RUN WITH ITS RESULT: the result buffer ends at the second pipeline's output array, and every argument array
    ends as launched. -/
theorem run_value : θ_run defs (onTc (τ := τ) (main (F := F))) ⟨m, fun _ => 0, ρ⟩ (fun r => ∀ c : Dev nD,
      r.2.mem ((c.tc : Thread nD τ).loc main_v4) = (dat1 (V2 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v4 (by decide))).trans (W3_arr m ρ c 2),
      (h c _ (mem_uc main_arg0 (by decide))).trans (W3_main_arg0 m ρ c),
      (h c _ (mem_uc main_arg1 (by decide))).trans (W3_main_arg1 m ρ c),
      (h c _ (mem_uc main_arg2 (by decide))).trans (W3_main_arg2 m ρ c),
      (h c _ (mem_uc main_arg3 (by decide))).trans (W3_main_arg3 m ρ c),
      (h c _ (mem_uc main_arg4 (by decide))).trans (W3_main_arg4 m ρ c),
      (h c _ (mem_uc main_arg5 (by decide))).trans (W3_main_arg5 m ρ c)⟩) (run_all m ρ)

/-! ## What the pipelines are entered with, in terms of the launch memory -/

/-- The first pipeline finds the features, and both weight arrays, as launched. -/
theorem V1_main_arg0 (c : Dev nD) : V1 m ρ c main_arg0 = m ((c : Thread nD τ).loc main_arg0) :=
  W1_of_ne m ρ c main_arg0 (by decide) (by decide) (by decide)
theorem V1_main_arg2 (c : Dev nD) : V1 m ρ c main_arg2 = m ((c : Thread nD τ).loc main_arg2) :=
  W1_of_ne m ρ c main_arg2 (by decide) (by decide) (by decide)
theorem V1_main_arg4 (c : Dev nD) : V1 m ρ c main_arg4 = m ((c : Thread nD τ).loc main_arg4) :=
  W1_of_ne m ρ c main_arg4 (by decide) (by decide) (by decide)
/-- It finds the first bias laid out as a row, -/
theorem V1_main_v1 (c : Dev nD) :
    V1 m ρ c main_v1 = shapeCast S1x256 (m ((c : Thread nD τ).loc main_arg3)) shapeCasts_S256_S1x256 := by
  show StableHlo.after hostOps0 (W0 m ρ c) (Proc.devRef .tc main_v1) = _
  after_results; rfl
/-- and the second likewise. -/
theorem V1_main_v2 (c : Dev nD) :
    V1 m ρ c main_v2 = shapeCast S1x16 (m ((c : Thread nD τ).loc main_arg5)) shapeCasts_S16_S1x16 := by
  show StableHlo.after hostOps0 (W0 m ρ c) (Proc.devRef .tc main_v2) = _
  after_results; rfl
/-- The second pipeline finds the adjacency rounded to the narrower format (the first pipeline does not touch it), -/
theorem V2_main_v0 (c : Dev nD) :
    V2 m ρ c main_v0 = (truncf .bf16 · bitsLt_bf16_f32) (m ((c : Thread nD τ).loc main_arg1)) := by
  refine (W2_of_ne m ρ c main_v0 (by decide)).trans ?_
  show StableHlo.after hostOps0 (W0 m ρ c) (Proc.devRef .tc main_v0) = _
  after_results
/-- and the perceptron's output as the first pipeline left it. -/
theorem V2_main_v3 (c : Dev nD) : V2 m ρ c main_v3 = (dat0 (V1 m ρ) c).arrAt 5 cfg0.N := W2_arr m ρ c 5

end Cert.KernelIdeal.Hand

end
-- ==== Proof.Spec.lean ====
/-
  The mathematics both programs compute, stated on coordinates.

  A two-layer perceptron sends row p of the features to
      x2 (p, u) = (Σ_h max (Σ_k x (p, k) · W1 (k, h) + b1 h, 0) · W2 (h, u)) + b2 u,
  and ten rounds of personalised propagation through the dense adjacency follow:
      z₀ = x2,   z_{n+1} (p, u) = c₉ · (Σ_j adj (p, j) · z_n (j, u)) + c₁ · x2 (p, u),
  the result being z₁₀.  The two scalars c₉ and c₁ are the single-precision words nearest 0.9 and 0.1; both
  programs spell them by the same words, so they are kept as words and never evaluated.  All sums are sums of
  extended reals over a finite index type, so their order and grouping are immaterial.
-/
import Idealize.ShloMosaic.PureOps.Ideal
import Idealize.ShloMosaic.Lib.ValueIdx

noncomputable section

namespace Cert.Spec

open Idealize.ShloMosaic Idealize.ShloMosaic.ValueIdx

/-- The zero word. -/
abbrev z0 : EReal := Ideal.ofBits .f32 0x00000000#32
/-- The word nearest 0.9: the weight of the propagated term. -/
abbrev c9 : EReal := Ideal.ofBits .f32 0x3F666666#32
/-- The word nearest 0.1: the weight of the teleport term. -/
abbrev c1 : EReal := Ideal.ofBits .f32 0x3DCCCCCD#32

/-- The perceptron's output at row `p`, column `u`. -/
def mlpAt (x : Fin 10000 → Fin 512 → EReal) (W1 : Fin 512 → Fin 256 → EReal) (b1 : Fin 256 → EReal)
    (W2 : Fin 256 → Fin 16 → EReal) (b2 : Fin 16 → EReal) (p : Fin 10000) (u : Fin 16) : EReal :=
  (∑ h : Fin 256, max ((∑ k : Fin 512, x p k * W1 k h) + b1 h) z0 * W2 h u) + b2 u

/-- One round of propagation: the adjacency applied to `z`, weighted, plus the weighted teleport term. -/
def stepAt (adj : Fin 10000 → Fin 10000 → EReal) (x2 z : Fin 10000 → Fin 16 → EReal) (p : Fin 10000) (u : Fin 16) : EReal :=
  c9 * (∑ j : Fin 10000, adj p j * z j u) + c1 * x2 p u

/-- `n` rounds of propagation from `x2`. -/
def iterAt (adj : Fin 10000 → Fin 10000 → EReal) (x2 : Fin 10000 → Fin 16 → EReal) : ℕ → Fin 10000 → Fin 16 → EReal
  | 0 => x2
  | n + 1 => stepAt adj x2 (iterAt adj x2 n)

theorem iterAt_zero (adj : Fin 10000 → Fin 10000 → EReal) (x2 : Fin 10000 → Fin 16 → EReal) : iterAt adj x2 0 = x2 := rfl
theorem iterAt_succ (adj : Fin 10000 → Fin 10000 → EReal) (x2 : Fin 10000 → Fin 16 → EReal) (n : ℕ) :
    iterAt adj x2 (n + 1) = stepAt adj x2 (iterAt adj x2 n) := rfl

/-- The perceptron's output as an array over the literal shape. -/
def x2Of (x : (⟨2, ![10000, 512]⟩ : Shape).Idx → EReal) (W1 : (⟨2, ![512, 256]⟩ : Shape).Idx → EReal)
    (b1 : (⟨1, ![256]⟩ : Shape).Idx → EReal) (W2 : (⟨2, ![256, 16]⟩ : Shape).Idx → EReal)
    (b2 : (⟨1, ![16]⟩ : Shape).Idx → EReal) : Fin 10000 → Fin 16 → EReal :=
  mlpAt (fun p k => x (ix2 p k)) (fun k h => W1 (ix2 k h)) (fun h => b1 (ix1 h)) (fun h u => W2 (ix2 h u)) (fun u => b2 (ix1 u))

/-- THE RESULT: ten rounds from the perceptron's output, as an array over the literal shape. -/
def G (x : (⟨2, ![10000, 512]⟩ : Shape).Idx → EReal) (adj : (⟨2, ![10000, 10000]⟩ : Shape).Idx → EReal)
    (W1 : (⟨2, ![512, 256]⟩ : Shape).Idx → EReal) (b1 : (⟨1, ![256]⟩ : Shape).Idx → EReal)
    (W2 : (⟨2, ![256, 16]⟩ : Shape).Idx → EReal) (b2 : (⟨1, ![16]⟩ : Shape).Idx → EReal) :
    (⟨2, ![10000, 16]⟩ : Shape).Idx → EReal :=
  fun i => iterAt (fun p j => adj (ix2 p j)) (x2Of x W1 b1 W2 b2) 10 (i 0) (i 1)

theorem G_apply (x : (⟨2, ![10000, 512]⟩ : Shape).Idx → EReal) (adj : (⟨2, ![10000, 10000]⟩ : Shape).Idx → EReal)
    (W1 : (⟨2, ![512, 256]⟩ : Shape).Idx → EReal) (b1 : (⟨1, ![256]⟩ : Shape).Idx → EReal)
    (W2 : (⟨2, ![256, 16]⟩ : Shape).Idx → EReal) (b2 : (⟨1, ![16]⟩ : Shape).Idx → EReal) (p : Fin 10000) (u : Fin 16) :
    G x adj W1 b1 W2 b2 (ix2 p u) = iterAt (fun p j => adj (ix2 p j)) (x2Of x W1 b1 W2 b2) 10 p u := rfl

end Cert.Spec

end
-- ==== Proof.LibPlainProduct.lean ====
/-
  A block product of an a × K by a K × b array into the zero accumulator, one axis contracted, read at the entry
  (p, u) on the extended reals: the finite sum over k of lhs (p, k) · rhs (k, u).  The dimension record enters only
  through four facts about where it sends an output index and a contraction index; nothing here knows a program.
-/
import Idealize.ShloMosaic.Lib.ValueIdx
import Idealize.ShloMosaic.PureOps.Ideal.Laws

noncomputable section

open scoped BigOperators

namespace Cert.PlainProduct

open Idealize.ShloMosaic Idealize.ShloMosaic.ValueIdx

/-- With rows of the left operand following the output's rows, columns of the right operand following the output's
    columns, and the one contracted coordinate running along the left operand's columns and the right operand's
    rows, the product's entry (p, u) is the sum over that coordinate of the operands' products. -/
theorem matmul_zero_apply {a K b : ℕ} (D : DotDims ⟨2, ![a, K]⟩ ⟨2, ![K, b]⟩ ⟨2, ![a, b]⟩) (prec : Option ContractPrecision)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (lhs : FVec Ideal ⟨2, ![a, K]⟩ .f32) (rhs : FVec Ideal ⟨2, ![K, b]⟩ .f32) (p : Fin a) (u : Fin b) :
    FloatOps.matmul D prec lhs rhs (constant ⟨2, ![a, b]⟩ .f32 0x00000000#32) (ix2 p u)
      = ∑ k : Fin K, lhs (ix2 p k) * rhs (ix2 k u) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p u) ((contrEquiv1 D K hr hs).symm k) = ix2 p k := funext fun ax => Fin.ext (by
    match ax with
    | ⟨0, _⟩ => exact hl0 _ _
    | ⟨1, _⟩ => exact (hl1 _ _).trans hk)
  have er : D.rhsIdx (ix2 p u) ((contrEquiv1 D K hr hs).symm k) = ix2 k u := funext fun ax => Fin.ext (by
    match ax with
    | ⟨0, _⟩ => exact (hr0 _ _).trans hk
    | ⟨1, _⟩ => exact hr1 _ _)
  rw [el, er]

end Cert.PlainProduct

end
-- ==== Proof.MlpValue.lean ====
/-
  What the first region leaves in its output array, at the extended reals: the two-layer perceptron of the
  window arrays, index by index.

  At a grid point the body multiplies the point's thousand rows of the features by the first layer's weights
  (a product into the zero accumulator: the plain sum over the 512 contracted coordinates), adds the first bias
  (a 1 × 256 row repeated down the rows), takes the maximum with the zero word, multiplies by the second
  layer's weights (the sum over the 256 hidden coordinates) and adds the second bias (a 1 × 16 row repeated
  down the rows).  So entry (p, u) of what the body stores is

      (Σ_h max (Σ_k x (p, k) · W1 (k, h) + b1 (0, h), 0) · W2 (h, u)) + b2 (0, u)

  of the five blocks it loaded.  The features' block at point t is rows 1000·t … 1000·t + 999 of the features
  (a block's coordinate is block index × block extent + the coordinate inside the block, and the features' and
  the output's block index along the rows is t, every other block index 0), the other four blocks are their
  whole arrays, and the output's block at point t is rows 1000·t … 1000·t + 999 of the output.  Hence what point t
  writes back is block t of ONE array — the perceptron of the window arrays —, the ten blocks cover the ten
  thousand rows (row r lies in the block of point r / 1000), and the output array ends holding that array.
-/
import proofs.«129323_g68204080660518_cont_9to1_m_598_3_alg».proof.Proof.KernelIdeal.Mlp
import proofs.«129323_g68204080660518_cont_9to1_m_598_3_alg».proof.Proof.Spec
import proofs.«129323_g68204080660518_cont_9to1_m_598_3_alg».proof.Proof.LibPlainProduct
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

/-! ## The two products read at an entry

Each product contracts one axis: the left operand's columns against the right operand's rows.  The four facts per
product say where its dimension record sends an output index j and a contraction index q: the left operand is read
at (j's row, q), the right operand at (q, j's column). -/

theorem first_lhs_row (j : S1000x256.Idx) (q : dot_S1000x512_S512x256_S1000x256_1_0_0_1_n_n.contr.Idx) :
    (dot_S1000x512_S512x256_S1000x256_1_0_0_1_n_n.lhsIdx j q 0).val = (j 0).val := by
  unfold DotDims.lhsIdx
  rw [dif_neg (show ¬(0 : Fin S1000x512.rank) ∈ dot_S1000x512_S512x256_S1000x256_1_0_0_1_n_n.lhsBatch by decide),
    dif_pos (show (0 : Fin S1000x512.rank) ∈ dot_S1000x512_S512x256_S1000x256_1_0_0_1_n_n.lhsNonContracting by decide)]
  rfl
theorem first_lhs_col (j : S1000x256.Idx) (q : dot_S1000x512_S512x256_S1000x256_1_0_0_1_n_n.contr.Idx) :
    (dot_S1000x512_S512x256_S1000x256_1_0_0_1_n_n.lhsIdx j q 1).val = (q ⟨0, by decide⟩).val :=
  dot_S1000x512_S512x256_S1000x256_1_0_0_1_n_n.lhsIdx_val_of_single rfl j q
theorem first_rhs_row (j : S1000x256.Idx) (q : dot_S1000x512_S512x256_S1000x256_1_0_0_1_n_n.contr.Idx) :
    (dot_S1000x512_S512x256_S1000x256_1_0_0_1_n_n.rhsIdx j q 0).val = (q ⟨0, by decide⟩).val :=
  dot_S1000x512_S512x256_S1000x256_1_0_0_1_n_n.rhsIdx_val_of_single rfl j q
theorem first_rhs_col (j : S1000x256.Idx) (q : dot_S1000x512_S512x256_S1000x256_1_0_0_1_n_n.contr.Idx) :
    (dot_S1000x512_S512x256_S1000x256_1_0_0_1_n_n.rhsIdx j q 1).val = (j 1).val := by
  unfold DotDims.rhsIdx
  rw [dif_neg (show ¬(1 : Fin S512x256.rank) ∈ dot_S1000x512_S512x256_S1000x256_1_0_0_1_n_n.rhsBatch by decide),
    dif_pos (show (1 : Fin S512x256.rank) ∈ dot_S1000x512_S512x256_S1000x256_1_0_0_1_n_n.rhsNonContracting by decide)]
  rfl

/-- The first layer's product into the zero accumulator, at (p, h): the sum over the 512 features. -/
theorem first_product_apply (lhs : FVec Ideal S1000x512 .f32) (rhs : FVec Ideal S512x256 .f32) (p : Fin 1000) (h : Fin 256) :
    FloatOps.matmul dot_S1000x512_S512x256_S1000x256_1_0_0_1_n_n none lhs rhs (constant S1000x256 .f32 0x00000000#32) (ix2 p h)
      = ∑ k : Fin 512, lhs (ix2 p k) * rhs (ix2 k h) :=
  Cert.PlainProduct.matmul_zero_apply dot_S1000x512_S512x256_S1000x256_1_0_0_1_n_n none rfl rfl first_lhs_row first_lhs_col first_rhs_row first_rhs_col lhs rhs p h

theorem second_lhs_row (j : S1000x16.Idx) (q : dot_S1000x256_S256x16_S1000x16_1_0_0_1_n_n.contr.Idx) :
    (dot_S1000x256_S256x16_S1000x16_1_0_0_1_n_n.lhsIdx j q 0).val = (j 0).val := by
  unfold DotDims.lhsIdx
  rw [dif_neg (show ¬(0 : Fin S1000x256.rank) ∈ dot_S1000x256_S256x16_S1000x16_1_0_0_1_n_n.lhsBatch by decide),
    dif_pos (show (0 : Fin S1000x256.rank) ∈ dot_S1000x256_S256x16_S1000x16_1_0_0_1_n_n.lhsNonContracting by decide)]
  rfl
theorem second_lhs_col (j : S1000x16.Idx) (q : dot_S1000x256_S256x16_S1000x16_1_0_0_1_n_n.contr.Idx) :
    (dot_S1000x256_S256x16_S1000x16_1_0_0_1_n_n.lhsIdx j q 1).val = (q ⟨0, by decide⟩).val :=
  dot_S1000x256_S256x16_S1000x16_1_0_0_1_n_n.lhsIdx_val_of_single rfl j q
theorem second_rhs_row (j : S1000x16.Idx) (q : dot_S1000x256_S256x16_S1000x16_1_0_0_1_n_n.contr.Idx) :
    (dot_S1000x256_S256x16_S1000x16_1_0_0_1_n_n.rhsIdx j q 0).val = (q ⟨0, by decide⟩).val :=
  dot_S1000x256_S256x16_S1000x16_1_0_0_1_n_n.rhsIdx_val_of_single rfl j q
theorem second_rhs_col (j : S1000x16.Idx) (q : dot_S1000x256_S256x16_S1000x16_1_0_0_1_n_n.contr.Idx) :
    (dot_S1000x256_S256x16_S1000x16_1_0_0_1_n_n.rhsIdx j q 1).val = (j 1).val := by
  unfold DotDims.rhsIdx
  rw [dif_neg (show ¬(1 : Fin S256x16.rank) ∈ dot_S1000x256_S256x16_S1000x16_1_0_0_1_n_n.rhsBatch by decide),
    dif_pos (show (1 : Fin S256x16.rank) ∈ dot_S1000x256_S256x16_S1000x16_1_0_0_1_n_n.rhsNonContracting by decide)]
  rfl

/-- The second layer's product into the zero accumulator, at (p, u): the sum over the 256 hidden units. -/
theorem second_product_apply (lhs : FVec Ideal S1000x256 .f32) (rhs : FVec Ideal S256x16 .f32) (p : Fin 1000) (u : Fin 16) :
    FloatOps.matmul dot_S1000x256_S256x16_S1000x16_1_0_0_1_n_n none lhs rhs (constant S1000x16 .f32 0x00000000#32) (ix2 p u)
      = ∑ h : Fin 256, lhs (ix2 p h) * rhs (ix2 h u) :=
  Cert.PlainProduct.matmul_zero_apply dot_S1000x256_S256x16_S1000x16_1_0_0_1_n_n none rfl rfl second_lhs_row second_lhs_col second_rhs_row second_rhs_col lhs rhs p u

/-! ## The body's arithmetic at an entry -/

/-- The body's stored value at row p, column u of the block, from the five loaded blocks: the two sums, the two
    bias rows read at their one row, and the maximum against the zero word, which is kept as a word. -/
theorem body_apply (x0 : Vec Ideal S1000x512 .f32) (x1 : Vec Ideal S512x256 .f32) (x2 : Vec Ideal S1x256 .f32)
    (x3 : Vec Ideal S256x16 .f32) (x4 : Vec Ideal S1x16 .f32) (p : Fin 1000) (u : Fin 16) :
    k0_pay1 (F := Ideal) x0 x1 x2 x3 x4 (ix2 p u)
      = (∑ h : Fin 256, max ((∑ k : Fin 512, x0 (ix2 p k) * x1 (ix2 k h)) + x2 (ix2 (0 : Fin 1) h)) Cert.Spec.z0 * x3 (ix2 h u))
          + x4 (ix2 (0 : Fin 1) u) := by
  unfold k0_pay1
  refine (addf_apply _ _ _).trans ?_
  refine congrArg₂ (· + ·) ((second_product_apply _ _ p u).trans (Finset.sum_congr rfl fun h _ => congrArg (· * x3 (ix2 h u)) ?_)) ?_
  · refine (maximumf_apply _ _ _).trans ?_
    refine congrArg₂ max ((addf_apply _ _ _).trans (congrArg₂ (· + ·) (first_product_apply _ _ p h) ?_)) rfl
    refine (broadcastTo_1b_ab_apply _ _ p h).trans ?_
    rw [shapeCast_self]
  · refine (broadcastTo_1b_ab_apply _ _ p u).trans ?_
    rw [shapeCast_self]

/-! ## From the blocks to the array -/

-- the core's buffer contents when the region is entered
variable (V : (c : Dev nD) → (b : Ref sig .tc) → Buf (Elt Ideal) ((c : Thread nD τ).loc b))

/-- The zero offsets of a whole-buffer access, however spelt. -/
theorem hz : (![0, 0] : Fin 2 → Nat) = fun _ => 0 := funext fun a => by fin_cases a <;> rfl

/-- The perceptron of the six windows' arrays, as one array over the output's shape. -/
abbrev mlpOf (c : Dev nD) : S10000x16.Idx → EReal :=
  fun i => Cert.Spec.mlpAt (fun p k => V c main_arg0 (ix2 p k)) (fun k h => V c main_arg2 (ix2 k h)) (fun h => V c main_v1 (ix2 0 h))
    (fun h u => V c main_arg4 (ix2 h u)) (fun u => V c main_v2 (ix2 0 u)) (i 0) (i 1)

/-- The block indices over the grid: the features' and the output's block is the point's number along the rows;
    every other block index is zero. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The features' block at point t, at (p, k), is the features at row 1000·t + p, column k. -/
theorem features_block_apply (c : Dev nD) (t : Fin cfg0.N) (p : Fin 1000) (k : Fin 512) (r : Fin 10000) (hr : r.val = 1000 * t.val + p.val) :
    (iblk0 V c 0 t : Vec Ideal S1000x512 .f32) (ix2 p k) = (V c main_arg0 : S10000x512.Idx → EReal) (ix2 r k) := by
  obtain ⟨e00, e01, -⟩ := block_indices t
  unfold iblk0
  rw [View.read_apply]
  show V c main_arg0 _ = V c main_arg0 _
  refine congrArg (V c main_arg0) (funext fun a => Fin.ext ?_)
  match a with
  | ⟨0, _⟩ => show win0_0.index t (0 : Fin 2) * 1000 + 1 * p.val = r.val; rw [e00, hr]; omega
  | ⟨1, _⟩ => show win0_0.index t (1 : Fin 2) * 512 + 1 * k.val = k.val; rw [e01]; omega

/-- The first weights' one block is the array. -/
theorem weights1_block_apply (c : Dev nD) (t : Fin cfg0.N) (k : Fin 512) (h : Fin 256) :
    (iblk0 V c 1 t : Vec Ideal S512x256 .f32) (ix2 k h) = (V c main_arg2 : S512x256.Idx → EReal) (ix2 k h) := by
  obtain ⟨-, -, e10, e11, -⟩ := block_indices t
  unfold iblk0
  rw [View.read_apply]
  show V c main_arg2 _ = V c main_arg2 _
  refine congrArg (V c main_arg2) (funext fun a => Fin.ext ?_)
  match a with
  | ⟨0, _⟩ => show win0_1.index t (0 : Fin 2) * 512 + 1 * k.val = k.val; rw [e10]; omega
  | ⟨1, _⟩ => show win0_1.index t (1 : Fin 2) * 256 + 1 * h.val = h.val; rw [e11]; omega

/-- The first bias row's one block is the row. -/
theorem bias1_block_apply (c : Dev nD) (t : Fin cfg0.N) (z : Fin 1) (h : Fin 256) :
    (iblk0 V c 2 t : Vec Ideal S1x256 .f32) (ix2 z h) = (V c main_v1 : S1x256.Idx → EReal) (ix2 z h) := by
  obtain ⟨-, -, -, -, e20, e21, -⟩ := block_indices t
  unfold iblk0
  rw [View.read_apply]
  show V c main_v1 _ = V c main_v1 _
  refine congrArg (V c main_v1) (funext fun a => Fin.ext ?_)
  match a with
  | ⟨0, _⟩ => show win0_2.index t (0 : Fin 2) * 1 + 1 * z.val = z.val; rw [e20]; omega
  | ⟨1, _⟩ => show win0_2.index t (1 : Fin 2) * 256 + 1 * h.val = h.val; rw [e21]; omega

/-- The second weights' one block is the array. -/
theorem weights2_block_apply (c : Dev nD) (t : Fin cfg0.N) (h : Fin 256) (u : Fin 16) :
    (iblk0 V c 3 t : Vec Ideal S256x16 .f32) (ix2 h u) = (V c main_arg4 : S256x16.Idx → EReal) (ix2 h u) := by
  obtain ⟨-, -, -, -, -, -, e30, e31, -⟩ := block_indices t
  unfold iblk0
  rw [View.read_apply]
  show V c main_arg4 _ = V c main_arg4 _
  refine congrArg (V c main_arg4) (funext fun a => Fin.ext ?_)
  match a with
  | ⟨0, _⟩ => show win0_3.index t (0 : Fin 2) * 256 + 1 * h.val = h.val; rw [e30]; omega
  | ⟨1, _⟩ => show win0_3.index t (1 : Fin 2) * 16 + 1 * u.val = u.val; rw [e31]; omega

/-- The second bias row's one block is the row. -/
theorem bias2_block_apply (c : Dev nD) (t : Fin cfg0.N) (z : Fin 1) (u : Fin 16) :
    (iblk0 V c 4 t : Vec Ideal S1x16 .f32) (ix2 z u) = (V c main_v2 : S1x16.Idx → EReal) (ix2 z u) := by
  obtain ⟨-, -, -, -, -, -, -, -, e40, e41, -⟩ := block_indices t
  unfold iblk0
  rw [View.read_apply]
  show V c main_v2 _ = V c main_v2 _
  refine congrArg (V c main_v2) (funext fun a => Fin.ext ?_)
  match a with
  | ⟨0, _⟩ => show win0_4.index t (0 : Fin 2) * 1 + 1 * z.val = z.val; rw [e40]; omega
  | ⟨1, _⟩ => show win0_4.index t (1 : Fin 2) * 16 + 1 * u.val = u.val; rw [e41]; omega

/-- Where the output's block at point t puts its entry (p, u): row 1000·t + p, column u. -/
theorem output_block_emb (t : Fin cfg0.N) (p : Fin 1000) (u : Fin 16) (r : Fin 10000) (hr : r.val = 1000 * t.val + p.val) :
    ((cfg0.win 5).blk t).view.emb (ix2 p u) = (ix2 r u : S10000x16.Idx) := by
  obtain ⟨-, -, -, -, -, -, -, -, -, -, e50, e51⟩ := block_indices t
  refine funext fun a => Fin.ext ?_
  match a with
  | ⟨0, _⟩ => show win0_5.index t (0 : Fin 2) * 1000 + 1 * p.val = r.val; rw [e50, hr]; omega
  | ⟨1, _⟩ => show win0_5.index t (1 : Fin 2) * 16 + 1 * u.val = u.val; rw [e51]; omega

/-- What point t writes back is block t of the perceptron of the window arrays. -/
theorem written_back_eq (c : Dev nD) (t : Fin cfg0.N) :
    (dat0 (F := Ideal) V c).flushed 5 t = ((cfg0.win 5).blk t).view.read (Elt Ideal) (mlpOf V c) := by
  show (cfg0.win 5).cut (grid0.coords t) ((dat0 (F := Ideal) V c).after 5 t) = _
  rw [after0_5]
  unfold out0_5
  rw [View.canon_unit_zero hz]
  simp only [View.ld_unit_zero (S := S1000x512) hz, View.ld_unit_zero (S := S512x256) hz, View.ld_unit_zero (S := S1x256) hz,
    View.ld_unit_zero (S := S256x16) hz, View.ld_unit_zero (S := S1x16) hz]
  funext j
  obtain ⟨p, u, rfl⟩ : ∃ (p : Fin 1000) (u : Fin 16), j = ix2 p u := ⟨j 0, j 1, eq_ix2 j⟩
  have hN : cfg0.N = 10 := N_0
  have ht : t.val < 10 := hN ▸ t.isLt
  have hr : 1000 * t.val + p.val < 10000 := by have := p.isLt; omega
  show k0_pay1 (F := Ideal) (iblk0 V c 0 t) (iblk0 V c 1 t) (iblk0 V c 2 t) (iblk0 V c 3 t) (iblk0 V c 4 t) (ix2 p u)
    = mlpOf V c (((cfg0.win 5).blk t).view.emb (ix2 p u))
  rw [output_block_emb t p u ⟨1000 * t.val + p.val, hr⟩ rfl]
  refine (body_apply (iblk0 V c 0 t) (iblk0 V c 1 t) (iblk0 V c 2 t) (iblk0 V c 3 t) (iblk0 V c 4 t) p u).trans ?_
  show _ = Cert.Spec.mlpAt _ _ _ _ _ (⟨1000 * t.val + p.val, hr⟩ : Fin 10000) u
  unfold Cert.Spec.mlpAt
  refine congrArg₂ (· + ·) (Finset.sum_congr rfl fun h _ => congrArg₂ (· * ·) (congrArg₂ max (congrArg₂ (· + ·)
    (Finset.sum_congr rfl fun k _ => congrArg₂ (· * ·) (features_block_apply V c t p k ⟨1000 * t.val + p.val, hr⟩ rfl) (weights1_block_apply V c t k h))
    (bias1_block_apply V c t 0 h)) rfl) (weights2_block_apply V c t h u)) (bias2_block_apply V c t 0 u)

/-- An index of the output array is in point t's block iff each coordinate is in the block's range on its axis. -/
theorem mem_output_block (t : Fin cfg0.N) (i : S10000x16.Idx) :
    i ∈ ((cfg0.win 5).blk t).view.set ↔ ∀ a : Fin 2, win0_5.index t a * S1000x16.size a ≤ (i a).val ∧ (i a).val < win0_5.index t a * S1000x16.size a + S1000x16.size a := by
  show i ∈ ((View.whole main_v3).slice (win0_5.rect t)).set ↔ _
  rw [View.set_slice_whole, Rect.mem_set_unit]
  exact Iff.rfl

/-- Every row lies in the block of the point numbered by its thousand. -/
theorem output_covered (i : S10000x16.Idx) : ∃ t : Fin cfg0.N, (cfg0.win 5).flush t = true ∧ i ∈ ((cfg0.win 5).blk t).view.set := by
  have hN : cfg0.N = 10 := N_0
  have hi0 : (i 0).val < 10000 := (i 0).isLt
  have hi1 : (i 1).val < 16 := (i 1).isLt
  refine ⟨⟨(i 0).val / 1000, by rw [hN]; omega⟩, flush0_5 _, ?_⟩
  rw [mem_output_block]
  obtain ⟨-, -, -, -, -, -, -, -, -, -, e50, e51⟩ := block_indices ⟨(i 0).val / 1000, by rw [hN]; omega⟩
  intro a
  match a with
  | ⟨0, _⟩ =>
    show win0_5.index _ (0 : Fin 2) * 1000 ≤ (i 0).val ∧ (i 0).val < win0_5.index _ (0 : Fin 2) * 1000 + 1000
    rw [e50]; show (i 0).val / 1000 * 1000 ≤ (i 0).val ∧ (i 0).val < (i 0).val / 1000 * 1000 + 1000; omega
  | ⟨1, _⟩ =>
    show win0_5.index _ (1 : Fin 2) * 16 ≤ (i 1).val ∧ (i 1).val < win0_5.index _ (1 : Fin 2) * 16 + 16
    rw [e51]; omega

/-- The array the pipeline leaves in the output window is the perceptron of the window arrays, index by index. -/
theorem mlp_final (c : Dev nD) :
    (Cert.KernelIdeal.Hand.dat0 (F := Ideal) V c).arrAt 5 cfg0.N
      = fun i => Cert.Spec.mlpAt (fun p k => V c main_arg0 (ix2 p k)) (fun k h => V c main_arg2 (ix2 k h)) (fun h => V c main_v1 (ix2 0 h))
                  (fun h u => V c main_arg4 (ix2 h u)) (fun u => V c main_v2 (ix2 0 u)) (i 0) (i 1) :=
  (dat0 (F := Ideal) V c).arrAt_eq_of_cover 5 (mlpOf V c) (fun t _ => written_back_eq V c t) output_covered

end Cert.KernelIdeal.HandValue
end
-- ==== Proof.PropagateValue.lean ====
/-
  What the second region leaves in its result array, at the extended reals: ten rounds of propagation from the
  window arrays, index by index.

  One point of the grid (round k, row block r) computes 400 new rows: the point's 400 × 10000 block of the
  adjacency times the round's iterate (a product into the zero accumulator: the plain sum over the 10000
  contracted rows), weighted by the word nearest 0.9, plus rows 400 r … 400 r + 399 of the perceptron's output
  weighted by the word nearest 0.1.  Rounding to the shorter format is the identity on the extended reals, and the
  changes of layout between 10000 × 16 and 1 × 10000 × 16 (and 400 × 16 and 1 × 400 × 16) only rename an index.
  So entry (a, u) of the new rows is

      c₉ · (Σ_j adj (400 r + a, j) · z (j, u)) + c₁ · x2 (400 r + a, u)

  with z the round's iterate: one step of the specification at row 400 r + a.  The adjacency's block at the
  point is rows 400 r … of the adjacency (a block's coordinate is block index × block extent + the coordinate
  inside the block) and the perceptron's output is one block.  The iterates are defined round by round from
  these rows, the first being the perceptron's output itself; by induction on the round they are the
  specification's iterates — for the rounds up to ten, where the point of round k and row block r is the
  grid's point 25 k + r.

  The result window is written back in the last round only, at the points 225 … 249, each writing the unrounded
  new rows computed from the ninth iterate: block r of the tenth iterate.  Those 25 blocks cover the ten
  thousand rows (row p lies in the block of point 225 + p / 400), so the result array ends holding the tenth
  iterate.
-/
import proofs.«129323_g68204080660518_cont_9to1_m_598_3_alg».proof.Proof.KernelIdeal.PropagateData
import proofs.«129323_g68204080660518_cont_9to1_m_598_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

/-! ## The product read at an entry

The product contracts one axis: the adjacency block's columns against the iterate's rows.  The four facts say
where its dimension record sends an output index j and a contraction index q: the left operand is read at
(j's row, q), the right operand at (q, j's column). -/

theorem prop_lhs_row (j : S400x16.Idx) (q : dot_S400x10000_S10000x16_S400x16_1_0_0_1_n_n.contr.Idx) :
    (dot_S400x10000_S10000x16_S400x16_1_0_0_1_n_n.lhsIdx j q 0).val = (j 0).val := by
  unfold DotDims.lhsIdx
  rw [dif_neg (show ¬(0 : Fin S400x10000.rank) ∈ dot_S400x10000_S10000x16_S400x16_1_0_0_1_n_n.lhsBatch by decide),
    dif_pos (show (0 : Fin S400x10000.rank) ∈ dot_S400x10000_S10000x16_S400x16_1_0_0_1_n_n.lhsNonContracting by decide)]
  rfl
theorem prop_lhs_col (j : S400x16.Idx) (q : dot_S400x10000_S10000x16_S400x16_1_0_0_1_n_n.contr.Idx) :
    (dot_S400x10000_S10000x16_S400x16_1_0_0_1_n_n.lhsIdx j q 1).val = (q ⟨0, by decide⟩).val :=
  dot_S400x10000_S10000x16_S400x16_1_0_0_1_n_n.lhsIdx_val_of_single rfl j q
theorem prop_rhs_row (j : S400x16.Idx) (q : dot_S400x10000_S10000x16_S400x16_1_0_0_1_n_n.contr.Idx) :
    (dot_S400x10000_S10000x16_S400x16_1_0_0_1_n_n.rhsIdx j q 0).val = (q ⟨0, by decide⟩).val :=
  dot_S400x10000_S10000x16_S400x16_1_0_0_1_n_n.rhsIdx_val_of_single rfl j q
theorem prop_rhs_col (j : S400x16.Idx) (q : dot_S400x10000_S10000x16_S400x16_1_0_0_1_n_n.contr.Idx) :
    (dot_S400x10000_S10000x16_S400x16_1_0_0_1_n_n.rhsIdx j q 1).val = (j 1).val := by
  unfold DotDims.rhsIdx
  rw [dif_neg (show ¬(1 : Fin S10000x16.rank) ∈ dot_S400x10000_S10000x16_S400x16_1_0_0_1_n_n.rhsBatch by decide),
    dif_pos (show (1 : Fin S10000x16.rank) ∈ dot_S400x10000_S10000x16_S400x16_1_0_0_1_n_n.rhsNonContracting by decide)]
  rfl

/-- The block of the adjacency times the iterate into the zero accumulator, at (a, u): the sum over the 10000 rows of
    the iterate. -/
theorem prop_product_apply (lhs : FVec Ideal S400x10000 .bf16) (rhs : FVec Ideal S10000x16 .bf16) (a : Fin 400) (u : Fin 16) :
    FloatOps.matmul dot_S400x10000_S10000x16_S400x16_1_0_0_1_n_n none lhs rhs (constant S400x16 .f32 0x00000000#32) (ix2 a u)
      = ∑ j : Fin 10000, lhs (ix2 a j) * rhs (ix2 j u) := by
  rw [Ideal.matmul_constant_zero_apply, ← Equiv.sum_comp (contrEquiv1 dot_S400x10000_S10000x16_S400x16_1_0_0_1_n_n 10000 rfl rfl).symm]
  refine Finset.sum_congr rfl fun k _ => ?_
  have hk := contrEquiv1_symm_val dot_S400x10000_S10000x16_S400x16_1_0_0_1_n_n 10000 rfl rfl k
  have el : dot_S400x10000_S10000x16_S400x16_1_0_0_1_n_n.lhsIdx (ix2 a u) ((contrEquiv1 dot_S400x10000_S10000x16_S400x16_1_0_0_1_n_n 10000 rfl rfl).symm k) = ix2 a k := funext fun ax => Fin.ext (by
    match ax with
    | ⟨0, _⟩ => exact prop_lhs_row _ _
    | ⟨1, _⟩ => exact (prop_lhs_col _ _).trans hk)
  have er : dot_S400x10000_S10000x16_S400x16_1_0_0_1_n_n.rhsIdx (ix2 a u) ((contrEquiv1 dot_S400x10000_S10000x16_S400x16_1_0_0_1_n_n 10000 rfl rfl).symm k) = ix2 k u := funext fun ax => Fin.ext (by
    match ax with
    | ⟨0, _⟩ => exact (prop_rhs_row _ _).trans hk
    | ⟨1, _⟩ => exact prop_rhs_col _ _)
  rw [el, er]

/-! ## The body's arithmetic at an entry -/

/-- The zero offsets of a whole-buffer access, however spelt. -/
theorem hz2 : (![0, 0] : Fin 2 → Nat) = fun _ => 0 := funext fun a => by fin_cases a <;> rfl

/-- A load of the point's 400 rows of a 10000 × 16 array reads row 400·(row block) + a. -/
theorem ld_rows_apply (i : grid1.Coords) (x1 : Vec Ideal S10000x16 .f32) (a : Fin 400) (u : Fin 16) (r : Fin 10000)
    (hr : r.val = 400 * (i 1).val + a.val) : View.ld x1 (r1_rows i) (ix2 a u) = x1 (ix2 r u) := by
  show x1 ((r1_rows i).idx (ix2 a u)) = x1 (ix2 r u)
  refine congrArg x1 (funext fun ax => Fin.ext ?_)
  have e0 : k1_off2 i 0 = 400 * (i 1).val := congrFun (Gen.k1_off2_eq i) 0
  have e1 : k1_off2 i 1 = 0 := congrFun (Gen.k1_off2_eq i) 1
  match ax with
  | ⟨0, _⟩ => show k1_off2 i 0 + 1 * a.val = r.val; rw [e0, hr]; omega
  | ⟨1, _⟩ => show k1_off2 i 1 + 1 * u.val = u.val; rw [e1]; omega

/-- The unrounded new rows at (a, u). -/
theorem newRowsOf_apply (i : grid1.Coords) (zslot : Vec Ideal S1x10000x16 .bf16) (x0 : Vec Ideal S400x10000 .bf16) (x1 : Vec Ideal S10000x16 .f32)
    (a : Fin 400) (u : Fin 16) (r : Fin 10000) (hr : r.val = 400 * (i 1).val + a.val) :
    newRowsOf (F := Ideal) i zslot x0 x1 (ix2 a u)
      = Cert.Spec.c9 * (∑ j : Fin 10000, x0 (ix2 a j) * zslot (ix3 (0 : Fin 1) j u)) + Cert.Spec.c1 * x1 (ix2 r u) := by
  unfold newRowsOf k1_pay3
  refine (addf_apply _ _ _).trans (congrArg₂ (· + ·) ?_ ?_)
  · refine (mulf_apply _ _ _).trans (congrArg₂ (· * ·) rfl ((prop_product_apply _ _ a u).trans
      (Finset.sum_congr rfl fun j _ => congrArg₂ (· * ·) ?_ (shapeCast_1ab_ab_apply zslot _ j u))))
    rw [shapeCast_self, View.ld_unit_zero hz2]
  · refine (mulf_apply _ _ _).trans (congrArg₂ (· * ·) rfl ?_)
    rw [shapeCast_self]
    exact ld_rows_apply i x1 a u r hr

/-- The same rounded and laid as rows of a slot, at (0, a, u): rounding is the identity on the extended reals. -/
theorem newSlotRowsOf_apply (i : grid1.Coords) (zslot : Vec Ideal S1x10000x16 .bf16) (x0 : Vec Ideal S400x10000 .bf16) (x1 : Vec Ideal S10000x16 .f32)
    (a : Fin 400) (u : Fin 16) (r : Fin 10000) (hr : r.val = 400 * (i 1).val + a.val) :
    newSlotRowsOf (F := Ideal) i zslot x0 x1 (ix3 (0 : Fin 1) a u)
      = Cert.Spec.c9 * (∑ j : Fin 10000, x0 (ix2 a j) * zslot (ix3 (0 : Fin 1) j u)) + Cert.Spec.c1 * x1 (ix2 r u) := by
  unfold newSlotRowsOf k1_pay1 k1_pay4
  refine (shapeCast_ab_1ab_apply _ _ (0 : Fin 1) a u).trans ?_
  exact newRowsOf_apply i zslot x0 x1 a u r hr

/-! ## The blocks, the iterates and the array -/

-- the core's buffer contents when the region is entered
variable (V : (c : Dev nD) → (b : Ref sig .tc) → Buf (Elt Ideal) ((c : Thread nD τ).loc b))

/-- The block indices of the three windows over the grid: the adjacency's block follows the row block; the
    perceptron's output is one block; in the last round the result's block follows the row block. -/
theorem block_indices1 : ∀ t : Fin cfg1.N,
    win1_0.index t (0 : Fin 2) = t.val % 25 ∧ win1_0.index t (1 : Fin 2) = 0
    ∧ win1_1.index t (0 : Fin 2) = 0 ∧ win1_1.index t (1 : Fin 2) = 0
    ∧ (225 ≤ t.val → win1_2.index t (0 : Fin 2) = t.val % 25) ∧ win1_2.index t (1 : Fin 2) = 0 :=
  (by decide +kernel : ∀ t : Fin grid1.N, _)

/-- The adjacency's block at point t, at (a, j), is the adjacency at row 400·(t mod 25) + a, column j. -/
theorem adjacency_block_apply (c : Dev nD) (t : Fin cfg1.N) (a : Fin 400) (j : Fin 10000) (r : Fin 10000)
    (hr : r.val = 400 * (t.val % 25) + a.val) :
    (blkA V c t : Vec Ideal S400x10000 .bf16) (ix2 a j) = (V c main_v0 : S10000x10000.Idx → EReal) (ix2 r j) := by
  obtain ⟨e00, e01, -⟩ := block_indices1 t
  unfold blkA iblk1
  rw [View.read_apply]
  show V c main_v0 _ = V c main_v0 _
  refine congrArg (V c main_v0) (funext fun ax => Fin.ext ?_)
  match ax with
  | ⟨0, _⟩ => show win1_0.index t (0 : Fin 2) * 400 + 1 * a.val = r.val; rw [e00, hr]; omega
  | ⟨1, _⟩ => show win1_0.index t (1 : Fin 2) * 10000 + 1 * j.val = j.val; rw [e01]; omega

/-- The perceptron's output's one block is the array. -/
theorem teleport_block_apply (c : Dev nD) (t : Fin cfg1.N) (q : Fin 10000) (u : Fin 16) :
    (blkX V c t : Vec Ideal S10000x16 .f32) (ix2 q u) = (V c main_v3 : S10000x16.Idx → EReal) (ix2 q u) := by
  obtain ⟨-, -, e10, e11, -⟩ := block_indices1 t
  unfold blkX iblk1
  rw [View.read_apply]
  show V c main_v3 _ = V c main_v3 _
  refine congrArg (V c main_v3) (funext fun ax => Fin.ext ?_)
  match ax with
  | ⟨0, _⟩ => show win1_1.index t (0 : Fin 2) * 10000 + 1 * q.val = q.val; rw [e10]; omega
  | ⟨1, _⟩ => show win1_1.index t (1 : Fin 2) * 16 + 1 * u.val = u.val; rw [e11]; omega

/-- The first point's extra store: an array laid as a slot (rounding is the identity on the extended reals) reads,
    at (0, q, u), the array at (q, u). -/
theorem first_slot_apply (x : Vec Ideal S10000x16 .f32) (q : Fin 10000) (u : Fin 16) :
    k1_pay2 (F := Ideal) x (ix3 (0 : Fin 1) q u) = x (ix2 q u) := by
  unfold k1_pay2
  refine (shapeCast_ab_1ab_apply _ _ (0 : Fin 1) q u).trans ?_
  show shapeCast S10000x16 x _ (ix2 q u) = _
  rw [shapeCast_self]

/-- The iterates are the specification's: round by round, row by row. -/
theorem Zs_apply (c : Dev nD) (k : ℕ) (hk : k ≤ 10) (q : Fin 10000) (u : Fin 16) :
    Cert.KernelIdeal.Hand.Zs (F := Ideal) V c k (ix3 (0 : Fin 1) q u)
      = Cert.Spec.iterAt (fun p j => V c main_v0 (ix2 p j)) (fun p u => V c main_v3 (ix2 p u)) k q u := by
  induction k generalizing q u with
  | zero =>
    rw [Zs_zero, Cert.Spec.iterAt_zero]
    refine (first_slot_apply _ q u).trans ?_
    rw [View.ld_unit_zero hz2]
    exact teleport_block_apply V c (pt 0 0) q u
  | succ k ih =>
    have ih' := fun q u => ih (by omega) q u
    have hq : q.val < 10000 := q.isLt
    have htv : (pt k (q.val / 400)).val = 25 * k + q.val / 400 := by
      show (25 * k + q.val / 400) % 250 = 25 * k + q.val / 400
      omega
    obtain ⟨hc0, hc1⟩ := coords_val (pt k (q.val / 400))
    have hrow : q.val = 400 * (grid1.coords (pt k (q.val / 400)) 1).val + (⟨q.val % 400, Nat.mod_lt _ (by norm_num)⟩ : Fin 400).val := by
      rw [hc1, htv]; show q.val = 400 * ((25 * k + q.val / 400) % 25) + q.val % 400; omega
    have hrowA : q.val = 400 * ((pt k (q.val / 400)).val % 25) + (⟨q.val % 400, Nat.mod_lt _ (by norm_num)⟩ : Fin 400).val := by
      rw [htv]; show q.val = 400 * ((25 * k + q.val / 400) % 25) + q.val % 400; omega
    refine (Zs_succ V c k (ix3 (0 : Fin 1) q u)).trans ?_
    show newSlotRowsOf (grid1.coords (pt k (q.val / 400))) (Zs V c k) (blkA V c (pt k (q.val / 400))) (blkX V c (pt k (q.val / 400)))
        (ix3 (0 : Fin 1) (⟨q.val % 400, Nat.mod_lt _ (by norm_num)⟩ : Fin 400) u) = _
    refine (newSlotRowsOf_apply (grid1.coords (pt k (q.val / 400))) (Zs V c k) (blkA V c (pt k (q.val / 400))) (blkX V c (pt k (q.val / 400)))
      ⟨q.val % 400, Nat.mod_lt _ (by norm_num)⟩ u q hrow).trans ?_
    rw [Cert.Spec.iterAt_succ]
    unfold Cert.Spec.stepAt
    refine congrArg₂ (· + ·) (congrArg₂ (· * ·) rfl (Finset.sum_congr rfl fun j _ => congrArg₂ (· * ·)
      (adjacency_block_apply V c (pt k (q.val / 400)) ⟨q.val % 400, Nat.mod_lt _ (by norm_num)⟩ j q hrowA) (ih' j u)))
      (congrArg₂ (· * ·) rfl (teleport_block_apply V c (pt k (q.val / 400)) q u))

/-- The result of ten rounds from the window arrays, as one array over the result's shape. -/
abbrev propOf (c : Dev nD) : S10000x16.Idx → EReal :=
  fun i => Cert.Spec.iterAt (fun p j => V c main_v0 (ix2 p j)) (fun p u => V c main_v3 (ix2 p u)) 10 (i 0) (i 1)

/-- Where the result's block at a point t of the last round puts its entry (a, u): row 400·(t mod 25) + a, column u. -/
theorem result_block_emb (t : Fin cfg1.N) (ht : 225 ≤ t.val) (a : Fin 400) (u : Fin 16) (r : Fin 10000) (hr : r.val = 400 * (t.val % 25) + a.val) :
    ((cfg1.win 2).blk t).view.emb (ix2 a u) = (ix2 r u : S10000x16.Idx) := by
  obtain ⟨-, -, -, -, e20, e21⟩ := block_indices1 t
  refine funext fun ax => Fin.ext ?_
  match ax with
  | ⟨0, _⟩ => show win1_2.index t (0 : Fin 2) * 400 + 1 * a.val = r.val; rw [e20 ht, hr]; omega
  | ⟨1, _⟩ => show win1_2.index t (1 : Fin 2) * 16 + 1 * u.val = u.val; rw [e21]; omega

/-- What a point of the last round writes back is its block of the result of ten rounds: the unrounded rows computed
    from the ninth iterate. -/
theorem result_written_back_eq (c : Dev nD) (t : Fin cfg1.N) (hf : (cfg1.win 2).flush t = true) :
    (dat1 (F := Ideal) V c).flushed 2 t = ((cfg1.win 2).blk t).view.read (Elt Ideal) (propOf V c) := by
  have ht : 225 ≤ t.val := (flush1_2 t).mp hf
  have hN : t.val < 250 := lt_of_lt_of_eq t.isLt N1
  have h9 : t.val / 25 = 9 := by omega
  obtain ⟨hc0, hc1⟩ := coords_val t
  show (cfg1.win 2).cut (grid1.coords t) ((dat1 (F := Ideal) V c).after 2 t) = _
  rw [after1_2]
  unfold outAt
  rw [View.canon_unit_zero hz2, h9]
  funext j
  obtain ⟨a, u, rfl⟩ : ∃ (a : Fin 400) (u : Fin 16), j = ix2 a u := ⟨j 0, j 1, eq_ix2 j⟩
  have hr : 400 * (t.val % 25) + a.val < 10000 := by have := a.isLt; omega
  show newRowsOf (F := Ideal) (grid1.coords t) (Zs V c 9) (blkA V c t) (blkX V c t) (ix2 a u)
    = propOf V c (((cfg1.win 2).blk t).view.emb (ix2 a u))
  rw [result_block_emb t ht a u ⟨400 * (t.val % 25) + a.val, hr⟩ rfl]
  refine (newRowsOf_apply (grid1.coords t) (Zs V c 9) (blkA V c t) (blkX V c t) a u ⟨400 * (t.val % 25) + a.val, hr⟩
    (by rw [hc1])).trans ?_
  show _ = Cert.Spec.iterAt _ _ (9 + 1) (⟨400 * (t.val % 25) + a.val, hr⟩ : Fin 10000) u
  rw [Cert.Spec.iterAt_succ]
  unfold Cert.Spec.stepAt
  refine congrArg₂ (· + ·) (congrArg₂ (· * ·) rfl (Finset.sum_congr rfl fun j _ => congrArg₂ (· * ·)
    (adjacency_block_apply V c t a j ⟨400 * (t.val % 25) + a.val, hr⟩ rfl) (Zs_apply V c 9 (by norm_num) j u)))
    (congrArg₂ (· * ·) rfl (teleport_block_apply V c t ⟨400 * (t.val % 25) + a.val, hr⟩ u))

/-- An index of the result array is in point t's block iff each coordinate is in the block's range on its axis. -/
theorem mem_result_block (t : Fin cfg1.N) (i : S10000x16.Idx) :
    i ∈ ((cfg1.win 2).blk t).view.set ↔ ∀ a : Fin 2, win1_2.index t a * S400x16.size a ≤ (i a).val ∧ (i a).val < win1_2.index t a * S400x16.size a + S400x16.size a := by
  show i ∈ ((View.whole main_v4).slice (win1_2.rect t)).set ↔ _
  rw [View.set_slice_whole, Rect.mem_set_unit]
  exact Iff.rfl

/-- Every row lies in the block of the last round's point numbered by its four hundred. -/
theorem result_covered (i : S10000x16.Idx) : ∃ t : Fin cfg1.N, (cfg1.win 2).flush t = true ∧ i ∈ ((cfg1.win 2).blk t).view.set := by
  have hi0 : (i 0).val < 10000 := (i 0).isLt
  have hi1 : (i 1).val < 16 := (i 1).isLt
  have hlt : 225 + (i 0).val / 400 < cfg1.N := by rw [N1]; omega
  refine ⟨⟨225 + (i 0).val / 400, hlt⟩, (flush1_2 _).mpr (by show 225 ≤ 225 + (i 0).val / 400; omega), ?_⟩
  rw [mem_result_block]
  obtain ⟨-, -, -, -, e20, e21⟩ := block_indices1 ⟨225 + (i 0).val / 400, hlt⟩
  have e20' := e20 (by show 225 ≤ 225 + (i 0).val / 400; omega)
  intro a
  match a with
  | ⟨0, _⟩ =>
    show win1_2.index _ (0 : Fin 2) * 400 ≤ (i 0).val ∧ (i 0).val < win1_2.index _ (0 : Fin 2) * 400 + 400
    rw [e20']; show (225 + (i 0).val / 400) % 25 * 400 ≤ (i 0).val ∧ (i 0).val < (225 + (i 0).val / 400) % 25 * 400 + 400; omega
  | ⟨1, _⟩ =>
    show win1_2.index _ (1 : Fin 2) * 16 ≤ (i 1).val ∧ (i 1).val < win1_2.index _ (1 : Fin 2) * 16 + 16
    rw [e21]; omega

/-- The array the second pipeline leaves in its result window is ten rounds of propagation from the window arrays. -/
theorem prop_final (c : Dev nD) :
    (Cert.KernelIdeal.Hand.dat1 (F := Ideal) V c).arrAt 2 cfg1.N
      = fun i => Cert.Spec.iterAt (fun p j => V c main_v0 (ix2 p j)) (fun p u => V c main_v3 (ix2 p u)) 10 (i 0) (i 1) :=
  (dat1 (F := Ideal) V c).arrAt_eq_of_cover 2 (propOf V c) (fun t hf => result_written_back_eq V c t hf) result_covered

end Cert.KernelIdeal.HandValue
end
-- ==== Proof.KernelValue.lean ====
/-
  The kernel program's result, at the extended reals, is the specification's `G` of the argument arrays.

  The second pipeline's output array holds ten propagation rounds from the perceptron's output through the
  adjacency it was handed; it was handed the adjacency rounded to a narrower format, which at the extended reals is
  the adjacency, and the first pipeline's output array, which is the perceptron of the features, the two weight
  arrays as launched and the two biases laid out as rows — a row of one array read at (0, h) is the array at h.
-/
import proofs.«129323_g68204080660518_cont_9to1_m_598_3_alg».proof.Proof.Spec
import proofs.«129323_g68204080660518_cont_9to1_m_598_3_alg».proof.Proof.MlpValue
import proofs.«129323_g68204080660518_cont_9to1_m_598_3_alg».proof.Proof.PropagateValue
import proofs.«129323_g68204080660518_cont_9to1_m_598_3_alg».proof.Proof.KernelIdeal.Run
import Idealize.ShloMosaic.Lib.ValueIdx
import Idealize.ShloMosaic.Lib.ValueLayout

noncomputable section

namespace Cert.KernelIdeal.HandValue

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (ρ : Dev nD → PrngReg)

/-- The adjacency the second pipeline is handed is, entry by entry, the launched one. -/
theorem adjacency_eq (c : Dev nD) :
    (fun (p : Fin 10000) (j : Fin 10000) => Hand.V2 m ρ c main_v0 (ix2 p j))
      = fun p j => m ((c.tc : Thread nD τ).loc main_arg1) (ix2 p j) := by
  funext p j
  rw [Hand.V2_main_v0]
  rfl

/-- The perceptron's output the second pipeline is handed is the specification's, of the launched arrays. -/
theorem teleport_eq (c : Dev nD) :
    (fun (p : Fin 10000) (u : Fin 16) => Hand.V2 m ρ c main_v3 (ix2 p u))
      = Cert.Spec.x2Of (m ((c.tc : Thread nD τ).loc main_arg0)) (m ((c.tc : Thread nD τ).loc main_arg2)) (m ((c.tc : Thread nD τ).loc main_arg3))
          (m ((c.tc : Thread nD τ).loc main_arg4)) (m ((c.tc : Thread nD τ).loc main_arg5)) := by
  have hb1 : (fun h : Fin 256 => shapeCast S1x256 (m ((c.tc : Thread nD τ).loc main_arg3)) shapeCasts_S256_S1x256 (ix2 (0 : Fin 1) h))
      = fun h => (m ((c.tc : Thread nD τ).loc main_arg3)) (ix1 h) := funext fun h => shapeCast_a_1a_apply _ _ 0 h
  have hb2 : (fun u : Fin 16 => shapeCast S1x16 (m ((c.tc : Thread nD τ).loc main_arg5)) shapeCasts_S16_S1x16 (ix2 (0 : Fin 1) u))
      = fun u => (m ((c.tc : Thread nD τ).loc main_arg5)) (ix1 u) := funext fun u => shapeCast_a_1a_apply _ _ 0 u
  funext p u
  rw [Hand.V2_main_v3, mlp_final]
  unfold Cert.Spec.x2Of
  rw [Hand.V1_main_arg0 m ρ c, Hand.V1_main_arg2 m ρ c, Hand.V1_main_arg4 m ρ c, Hand.V1_main_v1 m ρ c, Hand.V1_main_v2 m ρ c, hb1, hb2]
  rfl

/-- THE KERNEL'S RESULT is `G` of the argument arrays. -/
theorem result_eq_G (c : Dev nD) :
    (Hand.dat1 (F := Ideal) (Hand.V2 m ρ) c).arrAt 2 cfg1.N
      = Cert.Spec.G (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  rw [prop_final, adjacency_eq m ρ c, teleport_eq m ρ c]
  rfl

end Cert.KernelIdeal.HandValue

end
-- ==== Proof.RefValue.lean ====
/-
  The reference's ten propagation rounds, read off its run one host operation at a time, are the
  specification's `G` of the argument arrays.
-/
import proofs.«129323_g68204080660518_cont_9to1_m_598_3_alg».proof.Proof.Spec
import proofs.«129323_g68204080660518_cont_9to1_m_598_3_alg».proof.Proof.Gen.ReferenceIdeal.Run
import proofs.«129323_g68204080660518_cont_9to1_m_598_3_alg».proof.Proof.Gen.ReferenceIdeal.Read
import Idealize.ShloMosaic.Lib.ValueIdx
import Idealize.ShloMosaic.Lib.ValueLayout
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx
open Cert.ReferenceIdeal.Read

/-! ## Where each stage reads its operands, in coordinates -/

/-- The first product reads row `p` of the features against column `h` of the first weights. -/
theorem lidx0 (p : Fin 10000) (h : Fin 256) (k : Fin 512) : lidx_main_v0 (ix2 p h) k = ix2 p k :=
  funext fun a => Fin.ext (by match a with | ⟨0, _⟩ => rfl | ⟨1, _⟩ => rfl)
theorem ridx0 (p : Fin 10000) (h : Fin 256) (k : Fin 512) : ridx_main_v0 (ix2 p h) k = ix2 k h :=
  funext fun a => Fin.ext (by match a with | ⟨0, _⟩ => rfl | ⟨1, _⟩ => rfl)
/-- The first bias is laid along the columns: entry `(p, h)` reads `b1 h`. -/
theorem idx2 (p : Fin 10000) (h : Fin 256) : idx_main_v2 (ix2 p h) = ix2 (0 : Fin 1) h :=
  funext fun a => Fin.ext (by match a with | ⟨0, _⟩ => rfl | ⟨1, _⟩ => rfl)
theorem idx1 (z : Fin 1) (h : Fin 256) : idx_main_v1 (ix2 z h) = ix1 h :=
  funext fun a => Fin.ext (by match a with | ⟨0, _⟩ => rfl)
/-- The second product reads row `p` of the hidden layer against column `u` of the second weights. -/
theorem lidx6 (p : Fin 10000) (u : Fin 16) (k : Fin 256) : lidx_main_v6 (ix2 p u) k = ix2 p k :=
  funext fun a => Fin.ext (by match a with | ⟨0, _⟩ => rfl | ⟨1, _⟩ => rfl)
theorem ridx6 (p : Fin 10000) (u : Fin 16) (k : Fin 256) : ridx_main_v6 (ix2 p u) k = ix2 k u :=
  funext fun a => Fin.ext (by match a with | ⟨0, _⟩ => rfl | ⟨1, _⟩ => rfl)
/-- The second bias is laid along the columns: entry `(p, u)` reads `b2 u`. -/
theorem idx8 (p : Fin 10000) (u : Fin 16) : idx_main_v8 (ix2 p u) = ix2 (0 : Fin 1) u :=
  funext fun a => Fin.ext (by match a with | ⟨0, _⟩ => rfl | ⟨1, _⟩ => rfl)
theorem idx7 (z : Fin 1) (u : Fin 16) : idx_main_v7 (ix2 z u) = ix1 u :=
  funext fun a => Fin.ext (by match a with | ⟨0, _⟩ => rfl)

/-! ## The perceptron -/

/-- The hidden layer at `(p, h)`: the rectified affine image of row `p`. -/
theorem hidden_apply (x0 : (⟨S10000x512, .f32⟩ : BufTy).Contents (Elt Ideal)) (x2 : (⟨S512x256, .f32⟩ : BufTy).Contents (Elt Ideal))
    (x3 : (⟨S256, .f32⟩ : BufTy).Contents (Elt Ideal)) (p : Fin 10000) (h : Fin 256) :
    val_main_v5 (F := Ideal) x0 x2 x3 (ix2 p h)
      = max ((∑ k : Fin 512, x0 (ix2 p k) * x2 (ix2 k h)) + x3 (ix1 h)) Cert.Spec.z0 := by
  rw [val_main_v5_apply, val_main_v3_apply, val_main_v0_apply, val_main_v2_apply, val_main_v1_apply,
    val_main_v4_apply, val_main_cst_apply]
  simp only [lidx0, ridx0, idx2, idx1, Ideal.maximumf_def, Ideal.addf_def, Ideal.ofBits_def]

/-- The perceptron's output at `(p, u)` is the specification's. -/
theorem mlp_apply (x0 : (⟨S10000x512, .f32⟩ : BufTy).Contents (Elt Ideal)) (x2 : (⟨S512x256, .f32⟩ : BufTy).Contents (Elt Ideal))
    (x3 : (⟨S256, .f32⟩ : BufTy).Contents (Elt Ideal)) (x4 : (⟨S256x16, .f32⟩ : BufTy).Contents (Elt Ideal))
    (x5 : (⟨S16, .f32⟩ : BufTy).Contents (Elt Ideal)) (p : Fin 10000) (u : Fin 16) :
    val_main_v9 (F := Ideal) x0 x2 x3 x4 x5 (ix2 p u) = Cert.Spec.x2Of x0 x2 x3 x4 x5 p u := by
  rw [val_main_v9_apply, val_main_v6_apply, val_main_v8_apply, val_main_v7_apply]
  simp only [lidx6, ridx6, idx8, idx7, hidden_apply, Ideal.addf_def]
  rfl

/-! ## One round of propagation, over arbitrary arrays -/

/-- One round as the reference spells it: the adjacency applied to `z`, scaled by the word nearest 0.9 laid over the
    whole array, plus `x2` scaled by the word nearest 0.1 laid over the whole array. -/
def roundOf (adj : FVec Ideal S10000x10000 .f32) (x2 z : FVec Ideal S10000x16 .f32) :
    FVec Ideal S10000x16 .f32 :=
  addf (mulf (broadcastInDim S10000x16 ![] bcast_S_S10000x16 (constant (F := Ideal) S_ .f32 0x3F666666#32))
      (Host.dotGeneral (F := Ideal) dot_S10000x10000_S10000x16_S10000x16_1_0_0_1_n_n none adj z))
    (mulf (broadcastInDim S10000x16 ![] bcast_S_S10000x16 (constant (F := Ideal) S_ .f32 0x3DCCCCCD#32)) x2)

/-- The adjacency applied to `z`, at `(p, u)`: row `p` of the adjacency against column `u` of `z`. -/
theorem adj_apply (adj : FVec Ideal S10000x10000 .f32) (z : FVec Ideal S10000x16 .f32)
    (p : Fin 10000) (u : Fin 16) :
    Host.dotGeneral (F := Ideal) dot_S10000x10000_S10000x16_S10000x16_1_0_0_1_n_n none adj z (ix2 p u)
      = ∑ j : Fin 10000, adj (ix2 p j) * z (ix2 j u) := by
  simp only [Host.dotGeneral]
  rw [Ideal.dotGeneral_apply, ← Equiv.sum_comp (ValueIdx.contrEquiv1 dot_S10000x10000_S10000x16_S10000x16_1_0_0_1_n_n 10000 rfl rfl).symm]
  refine Finset.sum_congr rfl fun k _ => ?_
  have hk := ValueIdx.contrEquiv1_symm_val dot_S10000x10000_S10000x16_S10000x16_1_0_0_1_n_n 10000 rfl rfl k
  have el : dot_S10000x10000_S10000x16_S10000x16_1_0_0_1_n_n.lhsIdx (ix2 p u) ((ValueIdx.contrEquiv1 dot_S10000x10000_S10000x16_S10000x16_1_0_0_1_n_n 10000 rfl rfl).symm k) = ix2 p k := funext fun a => Fin.ext (by
    match a with
    | ⟨0, _⟩ => exact lhs_main_v10_0 _ _
    | ⟨1, _⟩ => exact (lhs_main_v10_1 _ _).trans hk)
  have er : dot_S10000x10000_S10000x16_S10000x16_1_0_0_1_n_n.rhsIdx (ix2 p u) ((ValueIdx.contrEquiv1 dot_S10000x10000_S10000x16_S10000x16_1_0_0_1_n_n 10000 rfl rfl).symm k) = ix2 k u := funext fun a => Fin.ext (by
    match a with
    | ⟨0, _⟩ => exact (rhs_main_v10_0 _ _).trans hk
    | ⟨1, _⟩ => exact rhs_main_v10_1 _ _)
  rw [el, er]

/-- A word laid over the whole array reads as that word everywhere. -/
theorem splat_apply (b : BitVec 32) (i : S10000x16.Idx) :
    broadcastInDim S10000x16 ![] bcast_S_S10000x16 (constant (F := Ideal) S_ .f32 b) i = Ideal.ofBits .f32 b :=
  broadcastInDim_apply _ bcast_S_S10000x16 (constant (F := Ideal) S_ .f32 b) i (fun a => a.elim0) (fun a => a.elim0)

/-- One round at `(p, u)` is the specification's step. -/
theorem roundOf_apply (adj : FVec Ideal S10000x10000 .f32) (x2 z : FVec Ideal S10000x16 .f32)
    (p : Fin 10000) (u : Fin 16) :
    roundOf adj x2 z (ix2 p u)
      = Cert.Spec.stepAt (fun p j => adj (ix2 p j)) (fun p u => x2 (ix2 p u)) (fun p u => z (ix2 p u)) p u := by
  unfold roundOf
  rw [addf_apply, mulf_apply, mulf_apply, splat_apply, splat_apply, adj_apply]
  rfl

/-- A round applied to arrays that read as `X` and as `n` rounds from `X` reads as `n + 1` rounds from `X`. -/
theorem roundOf_iter (adj : FVec Ideal S10000x10000 .f32) (x2 z : FVec Ideal S10000x16 .f32)
    (X : Fin 10000 → Fin 16 → EReal) (n : ℕ) (hx : ∀ p u, x2 (ix2 p u) = X p u)
    (hz : ∀ p u, z (ix2 p u) = Cert.Spec.iterAt (fun p j => adj (ix2 p j)) X n p u) (p : Fin 10000) (u : Fin 16) :
    roundOf adj x2 z (ix2 p u) = Cert.Spec.iterAt (fun p j => adj (ix2 p j)) X (n + 1) p u := by
  rw [roundOf_apply, Cert.Spec.iterAt_succ]
  have ex : (fun p u => x2 (ix2 p u)) = X := funext fun p => funext fun u => hx p u
  have ez : (fun p u => z (ix2 p u)) = Cert.Spec.iterAt (fun p j => adj (ix2 p j)) X n := funext fun p => funext fun u => hz p u
  rw [ex, ez]

/-! ## The ten rounds of the reference -/

theorem stage15_eq (x0 : (⟨S10000x512, .f32⟩ : BufTy).Contents (Elt Ideal)) (x1 : (⟨S10000x10000, .f32⟩ : BufTy).Contents (Elt Ideal))
    (x2 : (⟨S512x256, .f32⟩ : BufTy).Contents (Elt Ideal)) (x3 : (⟨S256, .f32⟩ : BufTy).Contents (Elt Ideal))
    (x4 : (⟨S256x16, .f32⟩ : BufTy).Contents (Elt Ideal)) (x5 : (⟨S16, .f32⟩ : BufTy).Contents (Elt Ideal)) :
    val_main_v15 (F := Ideal) x0 x1 x2 x3 x4 x5
      = roundOf x1 (val_main_v9 (F := Ideal) x0 x2 x3 x4 x5) (val_main_v9 (F := Ideal) x0 x2 x3 x4 x5) := rfl
theorem stage21_eq (x0 : (⟨S10000x512, .f32⟩ : BufTy).Contents (Elt Ideal)) (x1 : (⟨S10000x10000, .f32⟩ : BufTy).Contents (Elt Ideal))
    (x2 : (⟨S512x256, .f32⟩ : BufTy).Contents (Elt Ideal)) (x3 : (⟨S256, .f32⟩ : BufTy).Contents (Elt Ideal))
    (x4 : (⟨S256x16, .f32⟩ : BufTy).Contents (Elt Ideal)) (x5 : (⟨S16, .f32⟩ : BufTy).Contents (Elt Ideal)) :
    val_main_v21 (F := Ideal) x0 x1 x2 x3 x4 x5
      = roundOf x1 (val_main_v9 (F := Ideal) x0 x2 x3 x4 x5) (val_main_v15 (F := Ideal) x0 x1 x2 x3 x4 x5) := rfl
theorem stage27_eq (x0 : (⟨S10000x512, .f32⟩ : BufTy).Contents (Elt Ideal)) (x1 : (⟨S10000x10000, .f32⟩ : BufTy).Contents (Elt Ideal))
    (x2 : (⟨S512x256, .f32⟩ : BufTy).Contents (Elt Ideal)) (x3 : (⟨S256, .f32⟩ : BufTy).Contents (Elt Ideal))
    (x4 : (⟨S256x16, .f32⟩ : BufTy).Contents (Elt Ideal)) (x5 : (⟨S16, .f32⟩ : BufTy).Contents (Elt Ideal)) :
    val_main_v27 (F := Ideal) x0 x1 x2 x3 x4 x5
      = roundOf x1 (val_main_v9 (F := Ideal) x0 x2 x3 x4 x5) (val_main_v21 (F := Ideal) x0 x1 x2 x3 x4 x5) := rfl
theorem stage33_eq (x0 : (⟨S10000x512, .f32⟩ : BufTy).Contents (Elt Ideal)) (x1 : (⟨S10000x10000, .f32⟩ : BufTy).Contents (Elt Ideal))
    (x2 : (⟨S512x256, .f32⟩ : BufTy).Contents (Elt Ideal)) (x3 : (⟨S256, .f32⟩ : BufTy).Contents (Elt Ideal))
    (x4 : (⟨S256x16, .f32⟩ : BufTy).Contents (Elt Ideal)) (x5 : (⟨S16, .f32⟩ : BufTy).Contents (Elt Ideal)) :
    val_main_v33 (F := Ideal) x0 x1 x2 x3 x4 x5
      = roundOf x1 (val_main_v9 (F := Ideal) x0 x2 x3 x4 x5) (val_main_v27 (F := Ideal) x0 x1 x2 x3 x4 x5) := rfl
theorem stage39_eq (x0 : (⟨S10000x512, .f32⟩ : BufTy).Contents (Elt Ideal)) (x1 : (⟨S10000x10000, .f32⟩ : BufTy).Contents (Elt Ideal))
    (x2 : (⟨S512x256, .f32⟩ : BufTy).Contents (Elt Ideal)) (x3 : (⟨S256, .f32⟩ : BufTy).Contents (Elt Ideal))
    (x4 : (⟨S256x16, .f32⟩ : BufTy).Contents (Elt Ideal)) (x5 : (⟨S16, .f32⟩ : BufTy).Contents (Elt Ideal)) :
    val_main_v39 (F := Ideal) x0 x1 x2 x3 x4 x5
      = roundOf x1 (val_main_v9 (F := Ideal) x0 x2 x3 x4 x5) (val_main_v33 (F := Ideal) x0 x1 x2 x3 x4 x5) := rfl
theorem stage45_eq (x0 : (⟨S10000x512, .f32⟩ : BufTy).Contents (Elt Ideal)) (x1 : (⟨S10000x10000, .f32⟩ : BufTy).Contents (Elt Ideal))
    (x2 : (⟨S512x256, .f32⟩ : BufTy).Contents (Elt Ideal)) (x3 : (⟨S256, .f32⟩ : BufTy).Contents (Elt Ideal))
    (x4 : (⟨S256x16, .f32⟩ : BufTy).Contents (Elt Ideal)) (x5 : (⟨S16, .f32⟩ : BufTy).Contents (Elt Ideal)) :
    val_main_v45 (F := Ideal) x0 x1 x2 x3 x4 x5
      = roundOf x1 (val_main_v9 (F := Ideal) x0 x2 x3 x4 x5) (val_main_v39 (F := Ideal) x0 x1 x2 x3 x4 x5) := rfl
theorem stage51_eq (x0 : (⟨S10000x512, .f32⟩ : BufTy).Contents (Elt Ideal)) (x1 : (⟨S10000x10000, .f32⟩ : BufTy).Contents (Elt Ideal))
    (x2 : (⟨S512x256, .f32⟩ : BufTy).Contents (Elt Ideal)) (x3 : (⟨S256, .f32⟩ : BufTy).Contents (Elt Ideal))
    (x4 : (⟨S256x16, .f32⟩ : BufTy).Contents (Elt Ideal)) (x5 : (⟨S16, .f32⟩ : BufTy).Contents (Elt Ideal)) :
    val_main_v51 (F := Ideal) x0 x1 x2 x3 x4 x5
      = roundOf x1 (val_main_v9 (F := Ideal) x0 x2 x3 x4 x5) (val_main_v45 (F := Ideal) x0 x1 x2 x3 x4 x5) := rfl
theorem stage57_eq (x0 : (⟨S10000x512, .f32⟩ : BufTy).Contents (Elt Ideal)) (x1 : (⟨S10000x10000, .f32⟩ : BufTy).Contents (Elt Ideal))
    (x2 : (⟨S512x256, .f32⟩ : BufTy).Contents (Elt Ideal)) (x3 : (⟨S256, .f32⟩ : BufTy).Contents (Elt Ideal))
    (x4 : (⟨S256x16, .f32⟩ : BufTy).Contents (Elt Ideal)) (x5 : (⟨S16, .f32⟩ : BufTy).Contents (Elt Ideal)) :
    val_main_v57 (F := Ideal) x0 x1 x2 x3 x4 x5
      = roundOf x1 (val_main_v9 (F := Ideal) x0 x2 x3 x4 x5) (val_main_v51 (F := Ideal) x0 x1 x2 x3 x4 x5) := rfl
theorem stage63_eq (x0 : (⟨S10000x512, .f32⟩ : BufTy).Contents (Elt Ideal)) (x1 : (⟨S10000x10000, .f32⟩ : BufTy).Contents (Elt Ideal))
    (x2 : (⟨S512x256, .f32⟩ : BufTy).Contents (Elt Ideal)) (x3 : (⟨S256, .f32⟩ : BufTy).Contents (Elt Ideal))
    (x4 : (⟨S256x16, .f32⟩ : BufTy).Contents (Elt Ideal)) (x5 : (⟨S16, .f32⟩ : BufTy).Contents (Elt Ideal)) :
    val_main_v63 (F := Ideal) x0 x1 x2 x3 x4 x5
      = roundOf x1 (val_main_v9 (F := Ideal) x0 x2 x3 x4 x5) (val_main_v57 (F := Ideal) x0 x1 x2 x3 x4 x5) := rfl
theorem stage69_eq (x0 : (⟨S10000x512, .f32⟩ : BufTy).Contents (Elt Ideal)) (x1 : (⟨S10000x10000, .f32⟩ : BufTy).Contents (Elt Ideal))
    (x2 : (⟨S512x256, .f32⟩ : BufTy).Contents (Elt Ideal)) (x3 : (⟨S256, .f32⟩ : BufTy).Contents (Elt Ideal))
    (x4 : (⟨S256x16, .f32⟩ : BufTy).Contents (Elt Ideal)) (x5 : (⟨S16, .f32⟩ : BufTy).Contents (Elt Ideal)) :
    val_main_v69 (F := Ideal) x0 x1 x2 x3 x4 x5
      = roundOf x1 (val_main_v9 (F := Ideal) x0 x2 x3 x4 x5) (val_main_v63 (F := Ideal) x0 x1 x2 x3 x4 x5) := rfl

theorem iter1 (x0 : (⟨S10000x512, .f32⟩ : BufTy).Contents (Elt Ideal)) (x1 : (⟨S10000x10000, .f32⟩ : BufTy).Contents (Elt Ideal))
    (x2 : (⟨S512x256, .f32⟩ : BufTy).Contents (Elt Ideal)) (x3 : (⟨S256, .f32⟩ : BufTy).Contents (Elt Ideal))
    (x4 : (⟨S256x16, .f32⟩ : BufTy).Contents (Elt Ideal)) (x5 : (⟨S16, .f32⟩ : BufTy).Contents (Elt Ideal)) (p : Fin 10000) (u : Fin 16) :
    val_main_v15 (F := Ideal) x0 x1 x2 x3 x4 x5 (ix2 p u)
      = Cert.Spec.iterAt (fun p j => x1 (ix2 p j)) (Cert.Spec.x2Of x0 x2 x3 x4 x5) 1 p u :=
  (congrFun (stage15_eq x0 x1 x2 x3 x4 x5) (ix2 p u)).trans
    (roundOf_iter x1 _ _ (Cert.Spec.x2Of x0 x2 x3 x4 x5) 0 (mlp_apply x0 x2 x3 x4 x5) (mlp_apply x0 x2 x3 x4 x5) p u)
theorem iter2 (x0 : (⟨S10000x512, .f32⟩ : BufTy).Contents (Elt Ideal)) (x1 : (⟨S10000x10000, .f32⟩ : BufTy).Contents (Elt Ideal))
    (x2 : (⟨S512x256, .f32⟩ : BufTy).Contents (Elt Ideal)) (x3 : (⟨S256, .f32⟩ : BufTy).Contents (Elt Ideal))
    (x4 : (⟨S256x16, .f32⟩ : BufTy).Contents (Elt Ideal)) (x5 : (⟨S16, .f32⟩ : BufTy).Contents (Elt Ideal)) (p : Fin 10000) (u : Fin 16) :
    val_main_v21 (F := Ideal) x0 x1 x2 x3 x4 x5 (ix2 p u)
      = Cert.Spec.iterAt (fun p j => x1 (ix2 p j)) (Cert.Spec.x2Of x0 x2 x3 x4 x5) 2 p u :=
  (congrFun (stage21_eq x0 x1 x2 x3 x4 x5) (ix2 p u)).trans
    (roundOf_iter x1 _ _ (Cert.Spec.x2Of x0 x2 x3 x4 x5) 1 (mlp_apply x0 x2 x3 x4 x5) (iter1 x0 x1 x2 x3 x4 x5) p u)
theorem iter3 (x0 : (⟨S10000x512, .f32⟩ : BufTy).Contents (Elt Ideal)) (x1 : (⟨S10000x10000, .f32⟩ : BufTy).Contents (Elt Ideal))
    (x2 : (⟨S512x256, .f32⟩ : BufTy).Contents (Elt Ideal)) (x3 : (⟨S256, .f32⟩ : BufTy).Contents (Elt Ideal))
    (x4 : (⟨S256x16, .f32⟩ : BufTy).Contents (Elt Ideal)) (x5 : (⟨S16, .f32⟩ : BufTy).Contents (Elt Ideal)) (p : Fin 10000) (u : Fin 16) :
    val_main_v27 (F := Ideal) x0 x1 x2 x3 x4 x5 (ix2 p u)
      = Cert.Spec.iterAt (fun p j => x1 (ix2 p j)) (Cert.Spec.x2Of x0 x2 x3 x4 x5) 3 p u :=
  (congrFun (stage27_eq x0 x1 x2 x3 x4 x5) (ix2 p u)).trans
    (roundOf_iter x1 _ _ (Cert.Spec.x2Of x0 x2 x3 x4 x5) 2 (mlp_apply x0 x2 x3 x4 x5) (iter2 x0 x1 x2 x3 x4 x5) p u)
theorem iter4 (x0 : (⟨S10000x512, .f32⟩ : BufTy).Contents (Elt Ideal)) (x1 : (⟨S10000x10000, .f32⟩ : BufTy).Contents (Elt Ideal))
    (x2 : (⟨S512x256, .f32⟩ : BufTy).Contents (Elt Ideal)) (x3 : (⟨S256, .f32⟩ : BufTy).Contents (Elt Ideal))
    (x4 : (⟨S256x16, .f32⟩ : BufTy).Contents (Elt Ideal)) (x5 : (⟨S16, .f32⟩ : BufTy).Contents (Elt Ideal)) (p : Fin 10000) (u : Fin 16) :
    val_main_v33 (F := Ideal) x0 x1 x2 x3 x4 x5 (ix2 p u)
      = Cert.Spec.iterAt (fun p j => x1 (ix2 p j)) (Cert.Spec.x2Of x0 x2 x3 x4 x5) 4 p u :=
  (congrFun (stage33_eq x0 x1 x2 x3 x4 x5) (ix2 p u)).trans
    (roundOf_iter x1 _ _ (Cert.Spec.x2Of x0 x2 x3 x4 x5) 3 (mlp_apply x0 x2 x3 x4 x5) (iter3 x0 x1 x2 x3 x4 x5) p u)
theorem iter5 (x0 : (⟨S10000x512, .f32⟩ : BufTy).Contents (Elt Ideal)) (x1 : (⟨S10000x10000, .f32⟩ : BufTy).Contents (Elt Ideal))
    (x2 : (⟨S512x256, .f32⟩ : BufTy).Contents (Elt Ideal)) (x3 : (⟨S256, .f32⟩ : BufTy).Contents (Elt Ideal))
    (x4 : (⟨S256x16, .f32⟩ : BufTy).Contents (Elt Ideal)) (x5 : (⟨S16, .f32⟩ : BufTy).Contents (Elt Ideal)) (p : Fin 10000) (u : Fin 16) :
    val_main_v39 (F := Ideal) x0 x1 x2 x3 x4 x5 (ix2 p u)
      = Cert.Spec.iterAt (fun p j => x1 (ix2 p j)) (Cert.Spec.x2Of x0 x2 x3 x4 x5) 5 p u :=
  (congrFun (stage39_eq x0 x1 x2 x3 x4 x5) (ix2 p u)).trans
    (roundOf_iter x1 _ _ (Cert.Spec.x2Of x0 x2 x3 x4 x5) 4 (mlp_apply x0 x2 x3 x4 x5) (iter4 x0 x1 x2 x3 x4 x5) p u)
theorem iter6 (x0 : (⟨S10000x512, .f32⟩ : BufTy).Contents (Elt Ideal)) (x1 : (⟨S10000x10000, .f32⟩ : BufTy).Contents (Elt Ideal))
    (x2 : (⟨S512x256, .f32⟩ : BufTy).Contents (Elt Ideal)) (x3 : (⟨S256, .f32⟩ : BufTy).Contents (Elt Ideal))
    (x4 : (⟨S256x16, .f32⟩ : BufTy).Contents (Elt Ideal)) (x5 : (⟨S16, .f32⟩ : BufTy).Contents (Elt Ideal)) (p : Fin 10000) (u : Fin 16) :
    val_main_v45 (F := Ideal) x0 x1 x2 x3 x4 x5 (ix2 p u)
      = Cert.Spec.iterAt (fun p j => x1 (ix2 p j)) (Cert.Spec.x2Of x0 x2 x3 x4 x5) 6 p u :=
  (congrFun (stage45_eq x0 x1 x2 x3 x4 x5) (ix2 p u)).trans
    (roundOf_iter x1 _ _ (Cert.Spec.x2Of x0 x2 x3 x4 x5) 5 (mlp_apply x0 x2 x3 x4 x5) (iter5 x0 x1 x2 x3 x4 x5) p u)
theorem iter7 (x0 : (⟨S10000x512, .f32⟩ : BufTy).Contents (Elt Ideal)) (x1 : (⟨S10000x10000, .f32⟩ : BufTy).Contents (Elt Ideal))
    (x2 : (⟨S512x256, .f32⟩ : BufTy).Contents (Elt Ideal)) (x3 : (⟨S256, .f32⟩ : BufTy).Contents (Elt Ideal))
    (x4 : (⟨S256x16, .f32⟩ : BufTy).Contents (Elt Ideal)) (x5 : (⟨S16, .f32⟩ : BufTy).Contents (Elt Ideal)) (p : Fin 10000) (u : Fin 16) :
    val_main_v51 (F := Ideal) x0 x1 x2 x3 x4 x5 (ix2 p u)
      = Cert.Spec.iterAt (fun p j => x1 (ix2 p j)) (Cert.Spec.x2Of x0 x2 x3 x4 x5) 7 p u :=
  (congrFun (stage51_eq x0 x1 x2 x3 x4 x5) (ix2 p u)).trans
    (roundOf_iter x1 _ _ (Cert.Spec.x2Of x0 x2 x3 x4 x5) 6 (mlp_apply x0 x2 x3 x4 x5) (iter6 x0 x1 x2 x3 x4 x5) p u)
theorem iter8 (x0 : (⟨S10000x512, .f32⟩ : BufTy).Contents (Elt Ideal)) (x1 : (⟨S10000x10000, .f32⟩ : BufTy).Contents (Elt Ideal))
    (x2 : (⟨S512x256, .f32⟩ : BufTy).Contents (Elt Ideal)) (x3 : (⟨S256, .f32⟩ : BufTy).Contents (Elt Ideal))
    (x4 : (⟨S256x16, .f32⟩ : BufTy).Contents (Elt Ideal)) (x5 : (⟨S16, .f32⟩ : BufTy).Contents (Elt Ideal)) (p : Fin 10000) (u : Fin 16) :
    val_main_v57 (F := Ideal) x0 x1 x2 x3 x4 x5 (ix2 p u)
      = Cert.Spec.iterAt (fun p j => x1 (ix2 p j)) (Cert.Spec.x2Of x0 x2 x3 x4 x5) 8 p u :=
  (congrFun (stage57_eq x0 x1 x2 x3 x4 x5) (ix2 p u)).trans
    (roundOf_iter x1 _ _ (Cert.Spec.x2Of x0 x2 x3 x4 x5) 7 (mlp_apply x0 x2 x3 x4 x5) (iter7 x0 x1 x2 x3 x4 x5) p u)
theorem iter9 (x0 : (⟨S10000x512, .f32⟩ : BufTy).Contents (Elt Ideal)) (x1 : (⟨S10000x10000, .f32⟩ : BufTy).Contents (Elt Ideal))
    (x2 : (⟨S512x256, .f32⟩ : BufTy).Contents (Elt Ideal)) (x3 : (⟨S256, .f32⟩ : BufTy).Contents (Elt Ideal))
    (x4 : (⟨S256x16, .f32⟩ : BufTy).Contents (Elt Ideal)) (x5 : (⟨S16, .f32⟩ : BufTy).Contents (Elt Ideal)) (p : Fin 10000) (u : Fin 16) :
    val_main_v63 (F := Ideal) x0 x1 x2 x3 x4 x5 (ix2 p u)
      = Cert.Spec.iterAt (fun p j => x1 (ix2 p j)) (Cert.Spec.x2Of x0 x2 x3 x4 x5) 9 p u :=
  (congrFun (stage63_eq x0 x1 x2 x3 x4 x5) (ix2 p u)).trans
    (roundOf_iter x1 _ _ (Cert.Spec.x2Of x0 x2 x3 x4 x5) 8 (mlp_apply x0 x2 x3 x4 x5) (iter8 x0 x1 x2 x3 x4 x5) p u)
theorem iter10 (x0 : (⟨S10000x512, .f32⟩ : BufTy).Contents (Elt Ideal)) (x1 : (⟨S10000x10000, .f32⟩ : BufTy).Contents (Elt Ideal))
    (x2 : (⟨S512x256, .f32⟩ : BufTy).Contents (Elt Ideal)) (x3 : (⟨S256, .f32⟩ : BufTy).Contents (Elt Ideal))
    (x4 : (⟨S256x16, .f32⟩ : BufTy).Contents (Elt Ideal)) (x5 : (⟨S16, .f32⟩ : BufTy).Contents (Elt Ideal)) (p : Fin 10000) (u : Fin 16) :
    val_main_v69 (F := Ideal) x0 x1 x2 x3 x4 x5 (ix2 p u)
      = Cert.Spec.iterAt (fun p j => x1 (ix2 p j)) (Cert.Spec.x2Of x0 x2 x3 x4 x5) 10 p u :=
  (congrFun (stage69_eq x0 x1 x2 x3 x4 x5) (ix2 p u)).trans
    (roundOf_iter x1 _ _ (Cert.Spec.x2Of x0 x2 x3 x4 x5) 9 (mlp_apply x0 x2 x3 x4 x5) (iter9 x0 x1 x2 x3 x4 x5) p u)

/-- THE REFERENCE'S RESULT is the specification's `G` of the six argument arrays. -/
theorem res_eq_G (m : (ℓ : Loc nD τ sig) → Buf (Elt Ideal) ℓ) (c : Dev nD) :
    Cert.ReferenceIdeal.Value.res_main_v69 (F := Ideal) m c
      = Cert.Spec.G (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  refine (val_main_v69_eq (F := Ideal) m c).trans ?_
  funext i
  obtain ⟨p, u, rfl⟩ : ∃ (p : Fin 10000) (u : Fin 16), i = ix2 p u := ⟨i 0, i 1, eq_ix2 i⟩
  exact iter10 _ _ _ _ _ _ p u

/-- The same, stated on the result's positional name. -/
theorem res_out0_eq_G (m : (ℓ : Loc nD τ sig) → Buf (Elt Ideal) ℓ) (c : Dev nD) :
    Cert.ReferenceIdeal.Value.res_out0 (F := Ideal) m c
      = Cert.Spec.G (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) :=
  res_eq_G m c

end Cert.ReferenceIdeal.RefValue

end
-- ==== Proof.lean ====
/-
  A two-layer perceptron followed by ten rounds of personalised propagation, as a kernel program of two
  pipelined regions and as a reference program of plain array operations: they compute the same array.

  The kernel's first region runs the perceptron x2 = max (x · W1 + b1, 0) · W2 + b2 over ten blocks of a thousand
  rows.  Its second region runs the ten rounds z ← c₉ · (adj · z) + c₁ · x2 over a grid of ten rounds by
  twenty-five blocks of four hundred rows, keeping the current iterate in a two-slot scratch buffer: a point
  reads the round's slot whole and writes its four hundred rows of the next iterate into the other slot, and the
  last round also writes them, unrounded, to the output.  Every matrix product contracts its whole axis at a point,
  so at the extended reals — where a change of float format is the identity and a product into a zero accumulator
  is a finite sum — each entry of the kernel's result is, sum for sum and factor for factor, the reference's:
  the specification `Cert.Spec.G` of the six argument arrays.  No law of arithmetic beyond that is used, so the
  precondition (every input finite) is never opened.

  The frames of the two kernel programs are one text read at the two float models: each region's body run under
  the pipeline's launch theorem, the second region's with an invariant that says which rows of the two slots
  already hold the current and the next iterate.  The idealization rewrote nothing, so there is nothing to
  preserve.  The reference's frame is its run with the result dropped.
-/
import proofs.«129323_g68204080660518_cont_9to1_m_598_3_alg».proof.Defs
import proofs.«129323_g68204080660518_cont_9to1_m_598_3_alg».proof.Proof.Gen.Kernel
import proofs.«129323_g68204080660518_cont_9to1_m_598_3_alg».proof.Proof.Gen.KernelIdeal
import proofs.«129323_g68204080660518_cont_9to1_m_598_3_alg».proof.Proof.Gen.ReferenceIdeal
import proofs.«129323_g68204080660518_cont_9to1_m_598_3_alg».proof.Proof.Gen.Pre_finite_inputs
import proofs.«129323_g68204080660518_cont_9to1_m_598_3_alg».proof.Proof.Gen.ReferenceIdeal.Run
import proofs.«129323_g68204080660518_cont_9to1_m_598_3_alg».proof.Proof.Kernel.Run
import proofs.«129323_g68204080660518_cont_9to1_m_598_3_alg».proof.Proof.KernelIdeal.Run
import proofs.«129323_g68204080660518_cont_9to1_m_598_3_alg».proof.Proof.KernelValue
import proofs.«129323_g68204080660518_cont_9to1_m_598_3_alg».proof.Proof.RefValue
import Idealize.ShloMosaic.Adequacy
import Idealize.ShloMosaic.Init

noncomputable section

namespace Cert.Proof

open Idealize.ShloMosaic Idealize.ShloMosaic.TcCoe Idealize.SL.Sem

/-- The kernel program as printed runs to its end, faults nowhere, and leaves its arguments as launched. -/
theorem frame_k : Cert.frame_Kernel := fun m ρ _ => Cert.Kernel.Hand.frame (F := Bits) m ρ

/-- The same text read at the extended reals. -/
theorem frame_ki : Cert.frame_KernelIdeal := fun m ρ _ => Cert.KernelIdeal.Hand.frame (F := Ideal) m ρ

/-- The reference's frame is its run with the result dropped. -/
theorem frame_ri : Cert.frame_ReferenceIdeal := fun m ρ _ =>
  (θ_run (Cert.ReferenceIdeal.defs (F := Ideal)) _ _).mono (fun _ h c => (h c).2) (Cert.ReferenceIdeal.Value.run (F := Ideal) m ρ)

/-- The idealization rewrote no operation. -/
theorem preserves : Cert.preserves_Kernel_KernelIdeal := trivial

/-- Both programs end with the specification's array of the kernel's arguments: the kernel by its run and the
    value of its two pipelines, the reference by its run read one operation at a time, from arguments that agree. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run (Cert.KernelIdeal.defs (F := Ideal)) _ _).mono
      (fun _ h c => ⟨(h c).1.trans (Cert.KernelIdeal.HandValue.result_eq_G m ρ c), (h c).2⟩)
      (Cert.KernelIdeal.Hand.run_value (F := Ideal) m ρ)
  · refine (θ_run (Cert.ReferenceIdeal.defs (F := Ideal)) _ _).mono (fun _ h c => ⟨?_, (h c).2⟩)
      (Cert.ReferenceIdeal.Value.run (F := Ideal) m' ρ')
    rw [(h c).1, Cert.ReferenceIdeal.RefValue.res_eq_G, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
